-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128 .f32) (main_arg8 : FVec F S384x64 .f32) (main_arg9 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x64 .f32 := Host.absf main_arg8
  let main_cst_14 : FVec F S_ .f32 := constant S_ .f32 0x7F800000#32
  let main_v40 : FVec F S384x64 .f32 := broadcastInDim S384x64 ![] bcast_S_S384x64 main_cst_14
  let main_v41 : IVec S384x64 1 := cmpf .olt main_v39 main_v40
  let main_c_15 : IVec S_ 1 := constantI S_ 1 1#1
  let main_v42 : IVec S_ 1 := (fun x v => Host.reduce IntOp.andi x v reducesTo_S384x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S384x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S384x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S_ : Shape := ⟨0, ![]⟩
abbrev S128x256 : Shape := ⟨2, ![128, 256]⟩
abbrev S256x256 : Shape := ⟨2, ![256, 256]⟩
abbrev S384 : Shape := ⟨1, ![384]⟩
abbrev S1x384 : Shape := ⟨2, ![1, 384]⟩
abbrev S400x10000 : Shape := ⟨2, ![400, 10000]⟩
abbrev S400x128 : Shape := ⟨2, ![400, 128]⟩
abbrev S1x64 : Shape := ⟨2, ![1, 64]⟩
abbrev S10000x64 : Shape := ⟨2, ![10000, 64]⟩
abbrev S400x64 : Shape := ⟨2, ![400, 64]⟩
abbrev S400x256 : Shape := ⟨2, ![400, 256]⟩
abbrev S400x384 : Shape := ⟨2, ![400, 384]⟩

abbrev nBuf : Space → Nat
  | .hbm => 21
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x64, .f32⟩
  | .hbm, ⟨9, _⟩ => ⟨S64, .f32⟩
  | .hbm, ⟨10, _⟩ => ⟨S_, .f32⟩
  | .hbm, ⟨11, _⟩ => ⟨S128x128, .f32⟩
  | .hbm, ⟨12, _⟩ => ⟨S128x256, .f32⟩
  | .hbm, ⟨13, _⟩ => ⟨S128x256, .f32⟩
  | .hbm, ⟨14, _⟩ => ⟨S256x256, .f32⟩
  | .hbm, ⟨15, _⟩ => ⟨S384, .f32⟩
  | .hbm, ⟨16, _⟩ => ⟨S1x384, .f32⟩
  | .hbm, ⟨17, _⟩ => ⟨S10000x128, .f32⟩
  | .hbm, ⟨18, _⟩ => ⟨S10000x128, .f32⟩
  | .hbm, ⟨19, _⟩ => ⟨S1x64, .f32⟩
  | .hbm, ⟨20, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S400x10000, .f32⟩
  | .local _ .vmem, ⟨6, _⟩ => ⟨S400x10000, .f32⟩
  | .local _ .vmem, ⟨7, _⟩ => ⟨S10000x128, .f32⟩
  | .local _ .vmem, ⟨8, _⟩ => ⟨S400x128, .f32⟩
  | .local _ .vmem, ⟨9, _⟩ => ⟨S400x128, .f32⟩
  | .local _ .vmem, ⟨10, _⟩ => ⟨S400x10000, .f32⟩
  | .local _ .vmem, ⟨11, _⟩ => ⟨S400x10000, .f32⟩
  | .local _ .vmem, ⟨12, _⟩ => ⟨S400x128, .f32⟩
  | .local _ .vmem, ⟨13, _⟩ => ⟨S400x128, .f32⟩
  | .local _ .vmem, ⟨14, _⟩ => ⟨S10000x128, .f32⟩
  | .local _ .vmem, ⟨15, _⟩ => ⟨S256x256, .f32⟩
  | .local _ .vmem, ⟨16, _⟩ => ⟨S128x128, .f32⟩
  | .local _ .vmem, ⟨17, _⟩ => ⟨S1x384, .f32⟩
  | .local _ .vmem, ⟨18, _⟩ => ⟨S384x64, .f32⟩
  | .local _ .vmem, ⟨19, _⟩ => ⟨S1x64, .f32⟩
  | .local _ .vmem, ⟨20, _⟩ => ⟨S400x64, .f32⟩
  | .local _ .vmem, ⟨21, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem8_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def k2_off1 (i : grid2.Coords) : Fin 2 → Nat :=
  let arg0 : BitVec 32 := BitVec.ofNat 32 (i 0).val
  let c400_i32 : BitVec 32 := 400#32
  let v4 : BitVec 32 := Scalar.muli arg0 c400_i32
  let v5 : Index := Scalar.indexCast v4
  let c0_3 : Index := 0#32
  ![v5.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S384x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S400x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S128x128 : S_.BroadcastsInDim S128x128 (![] : Fin 0 → Fin S128x128.rank)
  concatenates_S128x128_S128x128_S128x256_d1 : Shape.Concatenates [S128x128, S128x128] S128x256 1
  concatenates_S128x256_S128x256_S256x256_d0 : Shape.Concatenates [S128x256, S128x256] S256x256 0
  concatenates_S128_S128_S128_S384_d0 : Shape.Concatenates [S128, S128, S128] S384 0
  bcast_S384_S1x384_1 : S384.BroadcastsInDim S1x384 (![1] : Fin 1 → Fin S1x384.rank)
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  bcast_S64_S1x64_1 : S64.BroadcastsInDim S1x64 (![1] : Fin 1 → Fin S1x64.rank)
  shapeCasts_S400x128_S400x128 : S400x128.ShapeCasts S400x128
  concatenates_S400x128_S400x128_S400x256_d1 : Shape.Concatenates [S400x128, S400x128] S400x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S128x128_S128x128_0_0 : ∀ a, (![0, 0] : Fin 2 → Nat) a + S128x128.size a ≤ S128x128.size a
  h_S128x128 : 0 < S128x128.numel
  concatenates_S400x256_S400x128_S400x384_d1 : Shape.Concatenates [S400x256, S400x128] S400x384 1
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S400x384 : S1x384.Broadcasts S400x384
  inb_S384x64_S384x64_0_0 : ∀ a, (![0, 0] : Fin 2 → Nat) a + S384x64.size a ≤ S384x64.size a
  h_S384x64 : 0 < S384x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  dot_S400x10000_S10000x128_S400x128_1_0_0_1_n_n_wf : DotDims.WF S400x10000 S10000x128 S400x128 [1] [0] [0] [1] [] []
  dot_S400x256_S256x256_S400x256_1_0_0_1_n_n_wf : DotDims.WF S400x256 S256x256 S400x256 [1] [0] [0] [1] [] []
  dot_S400x128_S128x128_S400x128_1_0_0_1_n_n_wf : DotDims.WF S400x128 S128x128 S400x128 [1] [0] [0] [1] [] []
  dot_S400x384_S384x64_S400x64_1_0_0_1_n_n_wf : DotDims.WF S400x384 S384x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hrank2 : 0 < grid2.rank
  k2_off1_inb : ∀ i : grid2.Coords, ∀ a, (k2_off1 i) a + S400x128.size a ≤ S10000x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x128.size a ≤ S10000x128.size a
  hwx2_1 : ∀ i : grid2.Coords, EltTy.bits .f32 = 32 ∨ (Rect.block (s := S10000x128) S400x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S10000x128.size a
  hwx2_2 : ∀ i : grid2.Coords, EltTy.bits .f32 = 32 ∨ (Rect.block (s := S10000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S384x64.size a ≤ S384x64.size a
  hwx2_6 : ∀ i : grid2.Coords, EltTy.bits .f32 = 32 ∨ (Rect.block (s := S384x64) S384x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S400x64.size a ≤ S10000x64.size a
  hwx2_8 : ∀ i : grid2.Coords, EltTy.bits .f32 = 32 ∨ (Rect.block (s := S10000x64) S400x64.size (cc2_transform_8 i) (hinb2_8 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x384_S384x64_S400x64_1_0_0_1_n_n : DotDims S400x384 S384x64 S400x64 where
  lhsContracting := [1]
  rhsContracting := [0]
  lhsNonContracting := [0]
  rhsNonContracting := [1]
  lhsBatch := []
  rhsBatch := []
  wf := dot_S400x384_S384x64_S400x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S400x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S10000x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S384x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v7) S400x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S1x128 : Shape := ⟨2, ![1, 128]⟩
abbrev S10000x384 : Shape := ⟨2, ![10000, 384]⟩
abbrev S_ : Shape := ⟨0, ![]⟩
abbrev S10000x64 : Shape := ⟨2, ![10000, 64]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x64, .f32⟩
  | .hbm, ⟨9, _⟩ => ⟨S64, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x384, .f32⟩
  | .hbm, ⟨29, _⟩ => ⟨S_, .f32⟩
  | .hbm, ⟨30, _⟩ => ⟨S10000x384, .f32⟩
  | .hbm, ⟨31, _⟩ => ⟨S10000x384, .f32⟩
  | .hbm, ⟨32, _⟩ => ⟨S10000x64, .f32⟩
  | .hbm, ⟨33, _⟩ => ⟨S1x64, .f32⟩
  | .hbm, ⟨34, _⟩ => ⟨S10000x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S_, .f32⟩
  | .hbm, ⟨39, _⟩ => ⟨S10000x64, .f32⟩
  | .hbm, ⟨40, _⟩ => ⟨S10000x64, .f32⟩
  | .hbm, ⟨41, _⟩ => ⟨S_, .f32⟩
  | .hbm, ⟨42, _⟩ => ⟨S10000x64, .f32⟩
  | .hbm, ⟨43, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S10000x128_S10000x128_S10000x128_S10000x384_d1 : Shape.Concatenates [S10000x128, S10000x128, S10000x128] S10000x384 1
  bcast_S_S10000x384 : S_.BroadcastsInDim S10000x384 (![] : Fin 0 → Fin S10000x384.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x384_S384x64_S10000x64_1_0_0_1_n_n_wf : DotDims.WF S10000x384 S384x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x384_S384x64_S10000x64_1_0_0_1_n_n : DotDims S10000x384 S384x64 S10000x64 where
  lhsContracting := [1]
  rhsContracting := [0]
  lhsNonContracting := [0]
  rhsNonContracting := [1]
  lhsBatch := []
  rhsBatch := []
  wf := dot_S10000x384_S384x64_S10000x64_1_0_0_1_n_n_wf

class Facts : Prop extends Facts₀ where

variable [Facts]
-- ==== Proof.K.Hop0.lean ====
/-
  The first hop of the program as printed for the chip's words, as a pipelined call: the same statement as for the
  idealized program, since nothing here depends on what a float is. Point t multiplies rows 400·t … 400·t+399 of the
  adjacency by the whole feature matrix and stores the product as block t of the result.
-/
import proofs.«157651_g81776177316087_cont_9to1_m_1181_6_alg».proof.Proof.Gen.Kernel.Launch
import proofs.«157651_g81776177316087_cont_9to1_m_1181_6_alg».proof.Proof.Gen.Kernel.Skeleton
import proofs.«157651_g81776177316087_cont_9to1_m_1181_6_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hop0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered: every statement below is at this parameter
variable (V : (c : Dev nD) → (b : Ref sig .tc) → Buf (Elt F) ((c : Thread nD τ).loc b))

/-- The block of window `w`'s array that grid point `t` works on, read off the entry contents. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, whether it was fetched there or at an earlier point
    with the same block index. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- An input's staging buffer holds its block at every point, whether it was fetched there or at an earlier point
    with the same block index. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole output block: the one rectangle the body stores through. -/
abbrev rOut0 : Rect S400x128 := Rect.unit (s := S400x128) ![0, 0] S400x128.size inb_S400x128_S400x128_0_0

/-- What the body leaves in the output block: its one store, of the payload of its loads. -/
def res0 (x0 : Vec F S400x10000 .f32) (x1 : Vec F S10000x128 .f32) : Vec F S400x128 .f32 :=
  View.canon [⟨rOut0, k0_pay1 (View.ld x0 (Rect.unit (s := S400x10000) ![0, 0] S400x10000.size inb_S400x10000_S400x10000_0_0)) (View.ld x1 (Rect.unit (s := S10000x128) ![0, 0] S10000x128.size inb_S10000x128_S10000x128_0_0))⟩]

/-- The one store covers the block. -/
theorem covers0 (p0 : Vec F S400x128 .f32) (y : S400x128.Idx) :
    ∃ pc ∈ ([⟨rOut0, p0⟩] : List (View.Piece (Elt F) S400x128 .f32)), y ∈ pc.1.set :=
  View.cover_of_tiled [⟨rOut0, p0⟩] S400x128.size (by rfl) y

set_option maxHeartbeats 1000000 in
/-- The body on whole staging buffers, the inputs' holding `x…` and the output's anything: it runs, leaves the inputs
    as they were and the output block at `res0` of them. -/
theorem body_run0 (c : Dev nD) (E : Set ℕ) (i : grid0.Coords) (a0 : Memref sig .tc .vmem S400x10000 .f32) (ha0 : a0.IsWhole) (a1 : Memref sig .tc .vmem S10000x128 .f32) (ha1 : a1.IsWhole) (a2 : Memref sig .tc .vmem S400x128 .f32) (ha2 : a2.IsWhole)
    (x0 : Vec F S400x10000 .f32) (x1 : Vec F S10000x128 .f32) (Kt : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res0 x0 x1)) -∗ Kt ⟨⟩))
      ⊢ wp frame (wpE (defs₀ (F := F)) Variants.none c none) E (cc0__mm_kernel i a0 ha0 a1 ha1 a2 ha2) Kt := by
  simp only [cc0__mm_kernel_eq_skeleton]; unfold cc0__mm_kernel_skel
  unfold owns
  iintro ⟨⟨%f0, %hf0, H0⟩, ⟨%f1, %hf1, H1⟩, ⟨%dO, %fO, -, HO⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers0 _)

/-- The proof data of this call on core `c`: the arrays as the call finds them; after the body at point `t` each input's
    buffer still at its block and the output's at `res0` of the input blocks; nothing owed, full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem arr0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = res0 (blk0 V c 0 t) (blk0 V c 1 t) := by dsimp only [dat0]

theorem held0_0 (c : Dev nD) (t : Fin cfg0.N) (d) : (dat0 V c).before 0 t d = blk0 V c 0 t :=
  held0_0_of V (dat0 V c) (arr0 V c 0) (after0_0 V c) t d
theorem held0_1 (c : Dev nD) (t : Fin cfg0.N) (d) : (dat0 V c).before 1 t d = blk0 V c 1 t :=
  held0_1_of V (dat0 V c) (arr0 V c 1) (after0_1 V c) t d

/-- What the body is called with at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the invariant and what
    the core owes pass through untouched. -/
theorem body_at0 (c : Dev nD) (t : Fin cfg0.N) :
    pre0 V c t ⊢ wp frame (wpE (defs₀ (F := F)) Variants.none c none) Set.univ (bodyAt0 t) (fun _ => post0 V c t) := by
  unfold pre0 post0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%dO, HO⟩⟩
  iapply (body_run0 c Set.univ (grid0.coords t) _ _ _ _ _ _ (blk0 V c 0 t) (blk0 V c 1 t) _)
  isplitl [H0]; · iexact H0
  isplitl [H1]; · iexact H1
  isplitl [HO]; · iexists _; iexact HO
  iintro ⟨H0, H1, HO⟩
  isplitl [HΦ]; · iexact HΦ
  isplitl [Ho]; · iexact Ho
  isplitl [H0]; · iexact H0
  isplitl [H1]; · iexact H1
  iexact HO

/-- The body obligation at every point. -/
theorem obligation0 (c : Dev nD) : BodyObligation (dat0 (F := F) V c) (defs₀ (F := F)) Variants.none () Set.univ := fun t => by
  rw [bigSep_W0, bigSep_W0]
  exact body_at0 V c t

end Cert.Kernel.Hop0

end
-- ==== Proof.K.Hop1.lean ====
/-
  The second hop of the program as printed for the chip's words: point t multiplies rows 400·t … 400·t+399 of the
  adjacency by the whole first-hop result and stores the product as block t of the second-hop result.
-/
import proofs.«157651_g81776177316087_cont_9to1_m_1181_6_alg».proof.Proof.Gen.Kernel.Launch
import proofs.«157651_g81776177316087_cont_9to1_m_1181_6_alg».proof.Proof.Gen.Kernel.Skeleton
import proofs.«157651_g81776177316087_cont_9to1_m_1181_6_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hop1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered: every statement below is at this parameter
variable (V : (c : Dev nD) → (b : Ref sig .tc) → Buf (Elt F) ((c : Thread nD τ).loc b))

/-- The block of window `w`'s array that grid point `t` works on, read off the entry contents. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, whether it was fetched there or at an earlier point
    with the same block index. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- An input's staging buffer holds its block at every point, whether it was fetched there or at an earlier point
    with the same block index. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole output block: the one rectangle the body stores through. -/
abbrev rOut1 : Rect S400x128 := Rect.unit (s := S400x128) ![0, 0] S400x128.size inb_S400x128_S400x128_0_0

/-- What the body leaves in the output block: its one store, of the payload of its loads. -/
def res1 (x0 : Vec F S400x10000 .f32) (x1 : Vec F S10000x128 .f32) : Vec F S400x128 .f32 :=
  View.canon [⟨rOut1, k1_pay1 (View.ld x0 (Rect.unit (s := S400x10000) ![0, 0] S400x10000.size inb_S400x10000_S400x10000_0_0)) (View.ld x1 (Rect.unit (s := S10000x128) ![0, 0] S10000x128.size inb_S10000x128_S10000x128_0_0))⟩]

/-- The one store covers the block. -/
theorem covers1 (p0 : Vec F S400x128 .f32) (y : S400x128.Idx) :
    ∃ pc ∈ ([⟨rOut1, p0⟩] : List (View.Piece (Elt F) S400x128 .f32)), y ∈ pc.1.set :=
  View.cover_of_tiled [⟨rOut1, p0⟩] S400x128.size (by rfl) y

set_option maxHeartbeats 1000000 in
/-- The body on whole staging buffers, the inputs' holding `x…` and the output's anything: it runs, leaves the inputs
    as they were and the output block at `res1` of them. -/
theorem body_run1 (c : Dev nD) (E : Set ℕ) (i : grid1.Coords) (a0 : Memref sig .tc .vmem S400x10000 .f32) (ha0 : a0.IsWhole) (a1 : Memref sig .tc .vmem S10000x128 .f32) (ha1 : a1.IsWhole) (a2 : Memref sig .tc .vmem S400x128 .f32) (ha2 : a2.IsWhole)
    (x0 : Vec F S400x10000 .f32) (x1 : Vec F S10000x128 .f32) (Kt : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res1 x0 x1)) -∗ Kt ⟨⟩))
      ⊢ wp frame (wpE (defs₀ (F := F)) Variants.none c none) E (cc1__mm_kernel i a0 ha0 a1 ha1 a2 ha2) Kt := by
  simp only [cc1__mm_kernel_eq_skeleton]; unfold cc1__mm_kernel_skel
  unfold owns
  iintro ⟨⟨%f0, %hf0, H0⟩, ⟨%f1, %hf1, H1⟩, ⟨%dO, %fO, -, HO⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers1 _)

/-- The proof data of this call on core `c`: the arrays as the call finds them; after the body at point `t` each input's
    buffer still at its block and the output's at `res1` of the input blocks; nothing owed, full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => res1 (blk1 V c 0 t) (blk1 V c 1 t)
  Φ _ := Pipeline.ΦA spec1 c
  q _ := fullShare
  owed _ := 0

theorem arr1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = res1 (blk1 V c 0 t) (blk1 V c 1 t) := by dsimp only [dat1]

theorem held1_0 (c : Dev nD) (t : Fin cfg1.N) (d) : (dat1 V c).before 0 t d = blk1 V c 0 t :=
  held1_0_of V (dat1 V c) (arr1 V c 0) (after1_0 V c) t d
theorem held1_1 (c : Dev nD) (t : Fin cfg1.N) (d) : (dat1 V c).before 1 t d = blk1 V c 1 t :=
  held1_1_of V (dat1 V c) (arr1 V c 1) (after1_1 V c) t d

/-- What the body is called with at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's run applies; the invariant and what
    the core owes pass through untouched. -/
theorem body_at1 (c : Dev nD) (t : Fin cfg1.N) :
    pre1 V c t ⊢ wp frame (wpE (defs₀ (F := F)) Variants.none c none) Set.univ (bodyAt1 t) (fun _ => post1 V c t) := by
  unfold pre1 post1 bodyAt1
  simp only [held1_0, held1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%dO, HO⟩⟩
  iapply (body_run1 c Set.univ (grid1.coords t) _ _ _ _ _ _ (blk1 V c 0 t) (blk1 V c 1 t) _)
  isplitl [H0]; · iexact H0
  isplitl [H1]; · iexact H1
  isplitl [HO]; · iexists _; iexact HO
  iintro ⟨H0, H1, HO⟩
  isplitl [HΦ]; · iexact HΦ
  isplitl [Ho]; · iexact Ho
  isplitl [H0]; · iexact H0
  isplitl [H1]; · iexact H1
  iexact HO

/-- The body obligation at every point. -/
theorem obligation1 (c : Dev nD) : BodyObligation (dat1 (F := F) V c) (defs₀ (F := F)) Variants.none () Set.univ := fun t => by
  rw [bigSep_W1, bigSep_W1]
  exact body_at1 V c t

end Cert.Kernel.Hop1

end
-- ==== Proof.K.Last.lean ====
/-
  The last call of the program as printed for the chip's words: point t forms the third hop's block from rows
  400·t … 400·t+399 of the adjacency and the whole second-hop result, reads the same rows of the first and second hops,
  applies the layers, biases, clamp, output layer and logistic function, and stores the 400×64 result as block t.
-/
import proofs.«157651_g81776177316087_cont_9to1_m_1181_6_alg».proof.Proof.Gen.Kernel.Launch
import proofs.«157651_g81776177316087_cont_9to1_m_1181_6_alg».proof.Proof.Gen.Kernel.Skeleton
import proofs.«157651_g81776177316087_cont_9to1_m_1181_6_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Last

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered: every statement below is at this parameter
variable (V : (c : Dev nD) → (b : Ref sig .tc) → Buf (Elt F) ((c : Thread nD τ).loc b))

/-- The block of window `w`'s array that grid point `t` works on, read off the entry contents. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, whether it was fetched there or at an earlier point
    with the same block index. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_6_of {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_7_of {c : Dev nD} (dat : Dat τ (Elt F) Unit ℕ (UR sig nD τ) ℕ cfg2 c) (hA : dat.A 7 = V c (Pipeline.arrRef spec2 7))
    (hafter : ∀ t, dat.after 7 t = blk2 V c 7 t) (t : Fin cfg2.N) (d) : dat.before 7 t d = blk2 V c 7 t :=
  (dat.before_in_eq_fetched 7 rfl (fun _ => rfl) (fun _ _ _ => rfl) (fun t => by rw [hafter]; unfold Dat.blockOf blk2; rw [hA]; try rfl) t d).trans
    (by unfold Dat.fetched Dat.blockOf blk2; rw [hA]; try rfl)

/-- The whole output block: the one rectangle the body stores through. -/
abbrev rOut2 : Rect S400x64 := Rect.unit (s := S400x64) ![0, 0] S400x64.size inb_S400x64_S400x64_0_0

/-- What the body leaves in the output block: its one store, of the payload of its loads. -/
def res2 (i : grid2.Coords) (x0 : Vec F S400x10000 .f32) (x1 : Vec F S400x128 .f32) (x2 : Vec F S10000x128 .f32) (x3 : Vec F S256x256 .f32) (x4 : Vec F S128x128 .f32) (x5 : Vec F S1x384 .f32) (x6 : Vec F S384x64 .f32) (x7 : Vec F S1x64 .f32) : Vec F S400x64 .f32 :=
  View.canon [⟨rOut2, k2_pay1 (View.ld x0 (Rect.unit (s := S400x10000) ![0, 0] S400x10000.size inb_S400x10000_S400x10000_0_0)) (View.ld x2 (Rect.unit (s := S10000x128) ![0, 0] S10000x128.size inb_S10000x128_S10000x128_0_0)) (View.ld x2 (Rect.unit (s := S10000x128) (k2_off1 i) S400x128.size (k2_off1_inb i))) (View.ld x1 (Rect.unit (s := S400x128) ![0, 0] S400x128.size inb_S400x128_S400x128_0_0)) (View.ld x3 (Rect.unit (s := S256x256) ![0, 0] S256x256.size inb_S256x256_S256x256_0_0)) (View.ld x4 (Rect.unit (s := S128x128) ![0, 0] S128x128.size inb_S128x128_S128x128_0_0)) (View.ld x5 (Rect.unit (s := S1x384) ![0, 0] S1x384.size inb_S1x384_S1x384_0_0)) (View.ld x6 (Rect.unit (s := S384x64) ![0, 0] S384x64.size inb_S384x64_S384x64_0_0)) (View.ld x7 (Rect.unit (s := S1x64) ![0, 0] S1x64.size inb_S1x64_S1x64_0_0))⟩]

/-- The one store covers the block. -/
theorem covers2 (p0 : Vec F S400x64 .f32) (y : S400x64.Idx) :
    ∃ pc ∈ ([⟨rOut2, p0⟩] : List (View.Piece (Elt F) S400x64 .f32)), y ∈ pc.1.set :=
  View.cover_of_tiled [⟨rOut2, p0⟩] S400x64.size (by rfl) y

set_option maxHeartbeats 1000000 in
/-- The body on whole staging buffers, the inputs' holding `x…` and the output's anything: it runs, leaves the inputs
    as they were and the output block at `res2` of them. -/
theorem body_run2 (c : Dev nD) (E : Set ℕ) (i : grid2.Coords) (a0 : Memref sig .tc .vmem S400x10000 .f32) (ha0 : a0.IsWhole) (a1 : Memref sig .tc .vmem S400x128 .f32) (ha1 : a1.IsWhole) (a2 : Memref sig .tc .vmem S10000x128 .f32) (ha2 : a2.IsWhole) (a3 : Memref sig .tc .vmem S256x256 .f32) (ha3 : a3.IsWhole) (a4 : Memref sig .tc .vmem S128x128 .f32) (ha4 : a4.IsWhole) (a5 : Memref sig .tc .vmem S1x384 .f32) (ha5 : a5.IsWhole) (a6 : Memref sig .tc .vmem S384x64 .f32) (ha6 : a6.IsWhole) (a7 : Memref sig .tc .vmem S1x64 .f32) (ha7 : a7.IsWhole) (a8 : Memref sig .tc .vmem S400x64 .f32) (ha8 : a8.IsWhole)
    (x0 : Vec F S400x10000 .f32) (x1 : Vec F S400x128 .f32) (x2 : Vec F S10000x128 .f32) (x3 : Vec F S256x256 .f32) (x4 : Vec F S128x128 .f32) (x5 : Vec F S1x384 .f32) (x6 : Vec F S384x64 .f32) (x7 : Vec F S1x64 .f32) (Kt : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (res2 i x0 x1 x2 x3 x4 x5 x6 x7)) -∗ Kt ⟨⟩))
      ⊢ wp frame (wpE (defs₀ (F := F)) Variants.none c none) E (cc2__final_kernel i a0 ha0 a1 ha1 a2 ha2 a3 ha3 a4 ha4 a5 ha5 a6 ha6 a7 ha7 a8 ha8) Kt := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HO
  ipureintro
  exact View.read_writes_eq_canon _ _ _ (covers2 _)

/-- The proof data of this call on core `c`: the arrays as the call finds them; after the body at point `t` each input's
    buffer still at its block and the output's at `res2` of the input blocks; nothing owed, full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => res2 (grid2.coords t) (blk2 V c 0 t) (blk2 V c 1 t) (blk2 V c 2 t) (blk2 V c 3 t) (blk2 V c 4 t) (blk2 V c 5 t) (blk2 V c 6 t) (blk2 V c 7 t)
  Φ _ := Pipeline.ΦA spec2 c
  q _ := fullShare
  owed _ := 0

theorem arr2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = res2 (grid2.coords t) (blk2 V c 0 t) (blk2 V c 1 t) (blk2 V c 2 t) (blk2 V c 3 t) (blk2 V c 4 t) (blk2 V c 5 t) (blk2 V c 6 t) (blk2 V c 7 t) := by dsimp only [dat2]

theorem held2_0 (c : Dev nD) (t : Fin cfg2.N) (d) : (dat2 V c).before 0 t d = blk2 V c 0 t :=
  held2_0_of V (dat2 V c) (arr2 V c 0) (after2_0 V c) t d
theorem held2_1 (c : Dev nD) (t : Fin cfg2.N) (d) : (dat2 V c).before 1 t d = blk2 V c 1 t :=
  held2_1_of V (dat2 V c) (arr2 V c 1) (after2_1 V c) t d
theorem held2_2 (c : Dev nD) (t : Fin cfg2.N) (d) : (dat2 V c).before 2 t d = blk2 V c 2 t :=
  held2_2_of V (dat2 V c) (arr2 V c 2) (after2_2 V c) t d
theorem held2_3 (c : Dev nD) (t : Fin cfg2.N) (d) : (dat2 V c).before 3 t d = blk2 V c 3 t :=
  held2_3_of V (dat2 V c) (arr2 V c 3) (after2_3 V c) t d
theorem held2_4 (c : Dev nD) (t : Fin cfg2.N) (d) : (dat2 V c).before 4 t d = blk2 V c 4 t :=
  held2_4_of V (dat2 V c) (arr2 V c 4) (after2_4 V c) t d
theorem held2_5 (c : Dev nD) (t : Fin cfg2.N) (d) : (dat2 V c).before 5 t d = blk2 V c 5 t :=
  held2_5_of V (dat2 V c) (arr2 V c 5) (after2_5 V c) t d
theorem held2_6 (c : Dev nD) (t : Fin cfg2.N) (d) : (dat2 V c).before 6 t d = blk2 V c 6 t :=
  held2_6_of V (dat2 V c) (arr2 V c 6) (after2_6 V c) t d
theorem held2_7 (c : Dev nD) (t : Fin cfg2.N) (d) : (dat2 V c).before 7 t d = blk2 V c 7 t :=
  held2_7_of V (dat2 V c) (arr2 V c 7) (after2_7 V c) t d

/-- What the body is called with at point `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's run applies; the invariant and what
    the core owes pass through untouched. -/
theorem body_at2 (c : Dev nD) (t : Fin cfg2.N) :
    pre2 V c t ⊢ wp frame (wpE (defs₀ (F := F)) Variants.none c none) Set.univ (bodyAt2 t) (fun _ => post2 V c t) := by
  unfold pre2 post2 bodyAt2
  simp only [held2_0, held2_1, held2_2, held2_3, held2_4, held2_5, held2_6, held2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%dO, HO⟩⟩
  iapply (body_run2 c Set.univ (grid2.coords t) _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HO]; · iexists _; iexact HO
  iintro ⟨H0, H1, H2, H3, H4, H5, H6, H7, HO⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HO

/-- The body obligation at every point. -/
theorem obligation2 (c : Dev nD) : BodyObligation (dat2 (F := F) V c) (defs₀ (F := F)) Variants.none () Set.univ := fun t => by
  rw [bigSep_W2, bigSep_W2]
  exact body_at2 V c t

end Cert.Kernel.Last

end
-- ==== Proof.K.Whole.lean ====
/-
  The whole program as a chain of seven stretches — three stretches of host operations (a zero matrix; the
  block-diagonal weight matrix; the joined bias as a row), the first hop, the second hop, one host operation (the
  output bias as a row) and the last call — run from the launch memory to the return.  The buffers' contents at each
  boundary are a fold from the launch memory: a host stretch applies its operations, a call leaves in its arrays what
  its write-backs leave and every other buffer as it found it.  From the run: every argument array ends as launched,
  and the result array ends at what the last call's write-backs leave.
-/
import proofs.«157651_g81776177316087_cont_9to1_m_1181_6_alg».proof.Proof.K.Hop0
import proofs.«157651_g81776177316087_cont_9to1_m_1181_6_alg».proof.Proof.K.Hop1
import proofs.«157651_g81776177316087_cont_9to1_m_1181_6_alg».proof.Proof.K.Last
import proofs.«157651_g81776177316087_cont_9to1_m_1181_6_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen Cert.Kernel.Hop0 Cert.Kernel.Hop1 Cert.Kernel.Last
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev B0 : Dev nD → Valuation τ sig (Elt F) := fun c b => m ((c : Dev nD), b)
/-- After the zero matrix is made. -/
abbrev B1 : Dev nD → Valuation τ sig (Elt F) := fun c => StableHlo.after hostOps0 (B0 m c)
/-- After the block-diagonal weight matrix is made. -/
abbrev B2 : Dev nD → Valuation τ sig (Elt F) := fun c => StableHlo.after hostOps0_1 (B1 m c)
/-- After the joined bias row is made: what the first hop finds. -/
abbrev B3 : Dev nD → Valuation τ sig (Elt F) := fun c => StableHlo.after hostOps0_2 (B2 m c)
abbrev E3 : (c : Dev nD) → (b : Ref sig .tc) → Buf (Elt F) ((c : Thread nD τ).loc b) := fun c b => B3 m c b
/-- After the first hop: its arrays at what the call leaves, the rest as found. -/
def B4 (c : Dev nD) : Valuation τ sig (Elt F) :=
  Pipeline.withArrays spec0 c (B3 m c) fun w => (dat0 (E3 m) c).arrAt w cfg0.N
abbrev E4 : (c : Dev nD) → (b : Ref sig .tc) → Buf (Elt F) ((c : Thread nD τ).loc b) := fun c b => B4 m c b
/-- After the second hop. -/
def B5 (c : Dev nD) : Valuation τ sig (Elt F) :=
  Pipeline.withArrays spec1 c (B4 m c) fun w => (dat1 (E4 m) c).arrAt w cfg1.N
/-- After the output bias row is made: what the last call finds. -/
abbrev B6 : Dev nD → Valuation τ sig (Elt F) := fun c => StableHlo.after hostOps2 (B5 m c)
abbrev E6 : (c : Dev nD) → (b : Ref sig .tc) → Buf (Elt F) ((c : Thread nD τ).loc b) := fun c b => B6 m c b
/-- At the return. -/
def B7 (c : Dev nD) : Valuation τ sig (Elt F) :=
  Pipeline.withArrays spec2 c (B6 m c) fun w => (dat2 (E6 m) c).arrAt w cfg2.N
abbrev E5 : (c : Dev nD) → (b : Ref sig .tc) → Buf (Elt F) ((c : Thread nD τ).loc b) := fun c b => B5 m c b
abbrev E7 : (c : Dev nD) → (b : Ref sig .tc) → Buf (Elt F) ((c : Thread nD τ).loc b) := fun c b => B7 m c b

/-! ## What each stretch leaves alone -/

theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ∉ hostOps0_1_W) : B2 m c r = B1 m c r :=
  StableHlo.after_of_writes_sub hostOps0_1 _ hostOps0_1_writes h
theorem B3_of (c : Dev nD) (r : Ref sig .tc) (h : r ∉ hostOps0_2_W) : B3 m c r = B2 m c r :=
  StableHlo.after_of_writes_sub hostOps0_2 _ hostOps0_2_writes h
theorem B6_of (c : Dev nD) (r : Ref sig .tc) (h : r ∉ hostOps2_W) : B6 m c r = B5 m c r :=
  StableHlo.after_of_writes_sub hostOps2 _ hostOps2_writes h

theorem B4_arr (c : Dev nD) (w : Fin cfg0.W) :
    B4 m c (Proc.devRef .tc (Pipeline.arrRef spec0 w)) = (dat0 (E3 m) c).arrAt w cfg0.N := by
  unfold B4; exact Pipeline.withArrays_arr spec0 launch0.win.arr_inj c _ _ w
theorem B4_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
theorem B4_in (c : Dev nD) (w : Fin cfg0.W) (hw : (cfg0.win w).isOut = false) :
    B4 m c (Proc.devRef .tc (Pipeline.arrRef spec0 w)) = B3 m c (Proc.devRef .tc (Pipeline.arrRef spec0 w)) :=
  (B4_arr m c w).trans (((dat0 (E3 m) c).arrAt_in w hw _).trans (arr0 (E3 m) c w))

theorem B5_arr (c : Dev nD) (w : Fin cfg1.W) :
    B5 m c (Proc.devRef .tc (Pipeline.arrRef spec1 w)) = (dat1 (E4 m) c).arrAt w cfg1.N := by
  unfold B5; exact Pipeline.withArrays_arr spec1 launch1.win.arr_inj c _ _ w
theorem B5_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
theorem B5_in (c : Dev nD) (w : Fin cfg1.W) (hw : (cfg1.win w).isOut = false) :
    B5 m c (Proc.devRef .tc (Pipeline.arrRef spec1 w)) = B4 m c (Proc.devRef .tc (Pipeline.arrRef spec1 w)) :=
  (B5_arr m c w).trans (((dat1 (E4 m) c).arrAt_in w hw _).trans (arr1 (E4 m) c w))

theorem B7_arr (c : Dev nD) (w : Fin cfg2.W) :
    B7 m c (Proc.devRef .tc (Pipeline.arrRef spec2 w)) = (dat2 (E6 m) c).arrAt w cfg2.N := by
  unfold B7; exact Pipeline.withArrays_arr spec2 launch2.win.arr_inj c _ _ w
theorem B7_ne (c : Dev nD) (b : Ref sig .tc) (hb : ∀ w, Pipeline.arrRef spec2 w ≠ b) :
    B7 m c (Proc.devRef .tc b) = B6 m c (Proc.devRef .tc b) := by
  unfold B7; exact Pipeline.withArrays_of_ne spec2 c _ _ b hb
theorem B7_in (c : Dev nD) (w : Fin cfg2.W) (hw : (cfg2.win w).isOut = false) :
    B7 m c (Proc.devRef .tc (Pipeline.arrRef spec2 w)) = B6 m c (Proc.devRef .tc (Pipeline.arrRef spec2 w)) :=
  (B7_arr m c w).trans (((dat2 (E6 m) c).arrAt_in w hw _).trans (arr2 (E6 m) c w))

/-- The two hypotheses the exit of a call takes: its arrays hold what the call leaves, every other buffer what it held. -/
theorem left0 (c : Dev nD) (w : Fin cfg0.W) : (dat0 (E3 m) c).arrAt w cfg0.N = E4 m c (Pipeline.arrRef spec0 w) := (B4_arr m c w).symm
theorem rest0 (c : Dev nD) : ∀ b, b ∉ Finset.univ.image (Pipeline.arrRef spec0) → E4 m c b = E3 m c b :=
  fun b hb => B4_ne m c b fun w e => hb (Finset.mem_image.mpr ⟨w, Finset.mem_univ _, e⟩)
theorem left1 (c : Dev nD) (w : Fin cfg1.W) : (dat1 (E4 m) c).arrAt w cfg1.N = E5 m c (Pipeline.arrRef spec1 w) := (B5_arr m c w).symm
theorem rest1 (c : Dev nD) : ∀ b, b ∉ Finset.univ.image (Pipeline.arrRef spec1) → E5 m c b = E4 m c b :=
  fun b hb => B5_ne m c b fun w e => hb (Finset.mem_image.mpr ⟨w, Finset.mem_univ _, e⟩)
theorem left2 (c : Dev nD) (w : Fin cfg2.W) : (dat2 (E6 m) c).arrAt w cfg2.N = E7 m c (Pipeline.arrRef spec2 w) := (B7_arr m c w).symm
theorem rest2 (c : Dev nD) : ∀ b, b ∉ Finset.univ.image (Pipeline.arrRef spec2) → E7 m c b = E6 m c b :=
  fun b hb => B7_ne m c b fun w e => hb (Finset.mem_image.mpr ⟨w, Finset.mem_univ _, e⟩)

/-! ## Every argument array reaches the return as launched -/

theorem B7_main_arg0 (c : Dev nD) : B7 m c (Proc.devRef .tc main_arg0) = m ((c : Thread nD τ).loc main_arg0) :=
  (B7_ne m c main_arg0 (by decide)).trans <| (B6_of m c main_arg0 (by decide)).trans <| (B5_ne m c main_arg0 (by decide)).trans <| (B4_in m c 1 rfl).trans <|
    (B3_of m c main_arg0 (by decide)).trans <| (B2_of m c main_arg0 (by decide)).trans <| (B1_of m c main_arg0 (by decide)).trans rfl
theorem B7_main_arg1 (c : Dev nD) : B7 m c (Proc.devRef .tc main_arg1) = m ((c : Thread nD τ).loc main_arg1) :=
  (B7_in m c 0 rfl).trans <| (B6_of m c main_arg1 (by decide)).trans <| (B5_in m c 0 rfl).trans <| (B4_in m c 0 rfl).trans <|
    (B3_of m c main_arg1 (by decide)).trans <| (B2_of m c main_arg1 (by decide)).trans <| (B1_of m c main_arg1 (by decide)).trans rfl
theorem B7_main_arg2 (c : Dev nD) : B7 m c (Proc.devRef .tc main_arg2) = m ((c : Thread nD τ).loc main_arg2) :=
  (B7_ne m c main_arg2 (by decide)).trans <| (B6_of m c main_arg2 (by decide)).trans <| (B5_ne m c main_arg2 (by decide)).trans <| (B4_ne m c main_arg2 (by decide)).trans <|
    (B3_of m c main_arg2 (by decide)).trans <| (B2_of m c main_arg2 (by decide)).trans <| (B1_of m c main_arg2 (by decide)).trans rfl
theorem B7_main_arg3 (c : Dev nD) : B7 m c (Proc.devRef .tc main_arg3) = m ((c : Thread nD τ).loc main_arg3) :=
  (B7_ne m c main_arg3 (by decide)).trans <| (B6_of m c main_arg3 (by decide)).trans <| (B5_ne m c main_arg3 (by decide)).trans <| (B4_ne m c main_arg3 (by decide)).trans <|
    (B3_of m c main_arg3 (by decide)).trans <| (B2_of m c main_arg3 (by decide)).trans <| (B1_of m c main_arg3 (by decide)).trans rfl
theorem B7_main_arg4 (c : Dev nD) : B7 m c (Proc.devRef .tc main_arg4) = m ((c : Thread nD τ).loc main_arg4) :=
  (B7_ne m c main_arg4 (by decide)).trans <| (B6_of m c main_arg4 (by decide)).trans <| (B5_ne m c main_arg4 (by decide)).trans <| (B4_ne m c main_arg4 (by decide)).trans <|
    (B3_of m c main_arg4 (by decide)).trans <| (B2_of m c main_arg4 (by decide)).trans <| (B1_of m c main_arg4 (by decide)).trans rfl
theorem B7_main_arg5 (c : Dev nD) : B7 m c (Proc.devRef .tc main_arg5) = m ((c : Thread nD τ).loc main_arg5) :=
  (B7_ne m c main_arg5 (by decide)).trans <| (B6_of m c main_arg5 (by decide)).trans <| (B5_ne m c main_arg5 (by decide)).trans <| (B4_ne m c main_arg5 (by decide)).trans <|
    (B3_of m c main_arg5 (by decide)).trans <| (B2_of m c main_arg5 (by decide)).trans <| (B1_of m c main_arg5 (by decide)).trans rfl
theorem B7_main_arg6 (c : Dev nD) : B7 m c (Proc.devRef .tc main_arg6) = m ((c : Thread nD τ).loc main_arg6) :=
  (B7_in m c 4 rfl).trans <| (B6_of m c main_arg6 (by decide)).trans <| (B5_ne m c main_arg6 (by decide)).trans <| (B4_ne m c main_arg6 (by decide)).trans <|
    (B3_of m c main_arg6 (by decide)).trans <| (B2_of m c main_arg6 (by decide)).trans <| (B1_of m c main_arg6 (by decide)).trans rfl
theorem B7_main_arg7 (c : Dev nD) : B7 m c (Proc.devRef .tc main_arg7) = m ((c : Thread nD τ).loc main_arg7) :=
  (B7_ne m c main_arg7 (by decide)).trans <| (B6_of m c main_arg7 (by decide)).trans <| (B5_ne m c main_arg7 (by decide)).trans <| (B4_ne m c main_arg7 (by decide)).trans <|
    (B3_of m c main_arg7 (by decide)).trans <| (B2_of m c main_arg7 (by decide)).trans <| (B1_of m c main_arg7 (by decide)).trans rfl
theorem B7_main_arg8 (c : Dev nD) : B7 m c (Proc.devRef .tc main_arg8) = m ((c : Thread nD τ).loc main_arg8) :=
  (B7_in m c 6 rfl).trans <| (B6_of m c main_arg8 (by decide)).trans <| (B5_ne m c main_arg8 (by decide)).trans <| (B4_ne m c main_arg8 (by decide)).trans <|
    (B3_of m c main_arg8 (by decide)).trans <| (B2_of m c main_arg8 (by decide)).trans <| (B1_of m c main_arg8 (by decide)).trans rfl
theorem B7_main_arg9 (c : Dev nD) : B7 m c (Proc.devRef .tc main_arg9) = m ((c : Thread nD τ).loc main_arg9) :=
  (B7_ne m c main_arg9 (by decide)).trans <| (B6_of m c main_arg9 (by decide)).trans <| (B5_ne m c main_arg9 (by decide)).trans <| (B4_ne m c main_arg9 (by decide)).trans <|
    (B3_of m c main_arg9 (by decide)).trans <| (B2_of m c main_arg9 (by decide)).trans <| (B1_of m c main_arg9 (by decide)).trans rfl

/-! ## The proof data of the three calls, and what rides along -/

/-- Each call's proof data at the contents it is entered from. -/
def pdats : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E4 m) c
  | ⟨2, _⟩ => fun c => dat2 (E6 m) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A host stretch as a segment, over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what the core owes. -/
abbrev Tend (c : Dev nD) : sProp 𝕄 := iprop(StableHlo.held (c : Thread nD τ) (Pipeline.ucRefs τ sig) (B7 m c) ∗ ∃ r, prngReg c r)

/-! ## The calls as segments -/

set_option backward.isDefEq.respectTransparency.types false in
/-- Call 0 over the thread state: its arrays are split out of the unscoped buffers at entry and put back, at what the
    call leaves, at exit; the generator register goes into the pipeline's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (left0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: its arrays are split out of the unscoped buffers at entry and put back, at what the
    call leaves, at exit; the generator register goes into the pipeline's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E4 m) c).loose
  hwaits := Pipeline.hwaits_of_owed_zero _ _ _ _ L lv 1 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: its arrays are split out of the unscoped buffers at entry and put back, at what the
    call leaves, at exit; the generator register goes into the pipeline's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (E6 m) c).loose
  hwaits := Pipeline.hwaits_of_owed_zero _ _ _ _ L lv 2 fun _ _ => rfl
  pre c := iprop(StableHlo.held (c : Thread nD τ) (Pipeline.ucRefs τ sig) (B6 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E6 m c) (E7 m c) ((pdats m 2 c).arrAt · cfg2.N) (left2 m c) (rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .region (reg1 m),
    .host (hseg hostOps2 hostOps2_sub hostOps2_fresh (B5 m)),
    .region (reg2 m) ]

theorem main_run (c : Dev nD) : main (F := F) c = Pipeline.Seg.run (segs m) := by
  rw [main_chain c, Pipeline.Seg.run_eq_chain]
  rfl

set_option backward.isDefEq.respectTransparency.types false in
/-- THE RUN: from any memory with zero counters every weakly fair execution of the program terminates, nothing
    faulting, and in the final memory every unscoped buffer holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (B7_main_arg0 m c),
      (h c _ (mem_uc main_arg1 (by decide))).trans (B7_main_arg1 m c),
      (h c _ (mem_uc main_arg2 (by decide))).trans (B7_main_arg2 m c),
      (h c _ (mem_uc main_arg3 (by decide))).trans (B7_main_arg3 m c),
      (h c _ (mem_uc main_arg4 (by decide))).trans (B7_main_arg4 m c),
      (h c _ (mem_uc main_arg5 (by decide))).trans (B7_main_arg5 m c),
      (h c _ (mem_uc main_arg6 (by decide))).trans (B7_main_arg6 m c),
      (h c _ (mem_uc main_arg7 (by decide))).trans (B7_main_arg7 m c),
      (h c _ (mem_uc main_arg8 (by decide))).trans (B7_main_arg8 m c),
      (h c _ (mem_uc main_arg9 (by decide))).trans (B7_main_arg9 m c)⟩) (run_all m ρ)

/-- The run with the result named: the result array ends at what the last call's write-backs leave in it. -/
theorem run_named (ρ : Dev nD → PrngReg) : θ_run defs (onTc (τ := τ) (main (F := F))) ⟨m, fun _ => 0, ρ⟩ (fun r => ∀ c : Dev nD,
      r.2.mem ((c.tc : Thread nD τ).loc main_v7) = (dat2 (E6 m) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v7 (by decide))).trans (B7_arr m c 8),
      (h c _ (mem_uc main_arg0 (by decide))).trans (B7_main_arg0 m c),
      (h c _ (mem_uc main_arg1 (by decide))).trans (B7_main_arg1 m c),
      (h c _ (mem_uc main_arg2 (by decide))).trans (B7_main_arg2 m c),
      (h c _ (mem_uc main_arg3 (by decide))).trans (B7_main_arg3 m c),
      (h c _ (mem_uc main_arg4 (by decide))).trans (B7_main_arg4 m c),
      (h c _ (mem_uc main_arg5 (by decide))).trans (B7_main_arg5 m c),
      (h c _ (mem_uc main_arg6 (by decide))).trans (B7_main_arg6 m c),
      (h c _ (mem_uc main_arg7 (by decide))).trans (B7_main_arg7 m c),
      (h c _ (mem_uc main_arg8 (by decide))).trans (B7_main_arg8 m c),
      (h c _ (mem_uc main_arg9 (by decide))).trans (B7_main_arg9 m c)⟩) (run_all m ρ)

end Cert.Kernel.Whole

end
-- ==== Proof.KI.Hop0.lean ====
/-
  The first hop as a pipelined call: 25 grid points, point t multiplying rows 400·t … 400·t+399 of the adjacency
  (a 400×10000 block) by the whole 10000×128 feature matrix, and storing the 400×128 product as block t of the result.
  Here: what one point's body does to its staging buffers, and the data the pipeline's frame theorem asks for.
-/
import proofs.«157651_g81776177316087_cont_9to1_m_1181_6_alg».proof.Proof.Gen.KernelIdeal.Launch
import proofs.«157651_g81776177316087_cont_9to1_m_1181_6_alg».proof.Proof.Gen.KernelIdeal.Skeleton
import proofs.«157651_g81776177316087_cont_9to1_m_1181_6_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hop0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered: every statement below is at this parameter
variable (V : (c : Dev nD) → (b : Ref sig .tc) → Buf (Elt F) ((c : Thread nD τ).loc b))

/-- The block of window `w`'s array that grid point `t` works on, read off the entry contents. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, whether it was fetched there or at an earlier point
    with the same block index. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
/-- An input's staging buffer holds its block at every point, whether it was fetched there or at an earlier point
    with the same block index. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole output block: the one rectangle the body stores through. -/
abbrev rOut0 : Rect S400x128 := Rect.unit (s := S400x128) ![0, 0] S400x128.size inb_S400x128_S400x128_0_0

/-- What the body leaves in the output block: its one store, of the payload of its loads. -/
def res0 (x0 : Vec F S400x10000 .f32) (x1 : Vec F S10000x128 .f32) : Vec F S400x128 .f32 :=
  View.canon [⟨rOut0, k0_pay1 (View.ld x0 (Rect.unit (s := S400x10000) ![0, 0] S400x10000.size inb_S400x10000_S400x10000_0_0)) (View.ld x1 (Rect.unit (s := S10000x128) ![0, 0] S10000x128.size inb_S10000x128_S10000x128_0_0))⟩]

/-- The one store covers the block. -/
theorem covers0 (p0 : Vec F S400x128 .f32) (y : S400x128.Idx) :
    ∃ pc ∈ ([⟨rOut0, p0⟩] : List (View.Piece (Elt F) S400x128 .f32)), y ∈ pc.1.set :=
  View.cover_of_tiled [⟨rOut0, p0⟩] S400x128.size (by rfl) y

set_option maxHeartbeats 1000000 in
/-- The body on whole staging buffers, the inputs' holding `x…` and the output's anything: it runs, leaves the inputs
    as they were and the output block at `res0` of them. -/
theorem body_run0 (c : Dev nD) (E : Set ℕ) (i : grid0.Coords) (a0 : Memref sig .tc .vmem S400x10000 .f32) (ha0 : a0.IsWhole) (a1 : Memref sig .tc .vmem S10000x128 .f32) (ha1 : a1.IsWhole) (a2 : Memref sig .tc .vmem S400x128 .f32) (ha2 : a2.IsWhole)
    (x0 : Vec F S400x10000 .f32) (x1 : Vec F S10000x128 .f32) (Kt : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res0 x0 x1)) -∗ Kt ⟨⟩))
      ⊢ wp frame (wpE (defs₀ (F := F)) Variants.none c none) E (cc0__mm_kernel i a0 ha0 a1 ha1 a2 ha2) Kt := by
  simp only [cc0__mm_kernel_eq_skeleton]; unfold cc0__mm_kernel_skel
  unfold owns
  iintro ⟨⟨%f0, %hf0, H0⟩, ⟨%f1, %hf1, H1⟩, ⟨%dO, %fO, -, HO⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers0 _)

/-- The proof data of this call on core `c`: the arrays as the call finds them; after the body at point `t` each input's
    buffer still at its block and the output's at `res0` of the input blocks; nothing owed, full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem arr0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = res0 (blk0 V c 0 t) (blk0 V c 1 t) := by dsimp only [dat0]

theorem held0_0 (c : Dev nD) (t : Fin cfg0.N) (d) : (dat0 V c).before 0 t d = blk0 V c 0 t :=
  held0_0_of V (dat0 V c) (arr0 V c 0) (after0_0 V c) t d
theorem held0_1 (c : Dev nD) (t : Fin cfg0.N) (d) : (dat0 V c).before 1 t d = blk0 V c 1 t :=
  held0_1_of V (dat0 V c) (arr0 V c 1) (after0_1 V c) t d

/-- What the body is called with at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the invariant and what
    the core owes pass through untouched. -/
theorem body_at0 (c : Dev nD) (t : Fin cfg0.N) :
    pre0 V c t ⊢ wp frame (wpE (defs₀ (F := F)) Variants.none c none) Set.univ (bodyAt0 t) (fun _ => post0 V c t) := by
  unfold pre0 post0 bodyAt0
  simp only [held0_0, held0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%dO, HO⟩⟩
  iapply (body_run0 c Set.univ (grid0.coords t) _ _ _ _ _ _ (blk0 V c 0 t) (blk0 V c 1 t) _)
  isplitl [H0]; · iexact H0
  isplitl [H1]; · iexact H1
  isplitl [HO]; · iexists _; iexact HO
  iintro ⟨H0, H1, HO⟩
  isplitl [HΦ]; · iexact HΦ
  isplitl [Ho]; · iexact Ho
  isplitl [H0]; · iexact H0
  isplitl [H1]; · iexact H1
  iexact HO

/-- The body obligation at every point. -/
theorem obligation0 (c : Dev nD) : BodyObligation (dat0 (F := F) V c) (defs₀ (F := F)) Variants.none () Set.univ := fun t => by
  rw [bigSep_W0, bigSep_W0]
  exact body_at0 V c t

end Cert.KernelIdeal.Hop0

end
-- ==== Proof.KI.Hop1.lean ====
/-
  The second hop as a pipelined call, the same shape as the first: point t multiplies rows 400·t … 400·t+399 of the
  adjacency by the whole first-hop result and stores the 400×128 product as block t of the second-hop result.
-/
import proofs.«157651_g81776177316087_cont_9to1_m_1181_6_alg».proof.Proof.Gen.KernelIdeal.Launch
import proofs.«157651_g81776177316087_cont_9to1_m_1181_6_alg».proof.Proof.Gen.KernelIdeal.Skeleton
import proofs.«157651_g81776177316087_cont_9to1_m_1181_6_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hop1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered: every statement below is at this parameter
variable (V : (c : Dev nD) → (b : Ref sig .tc) → Buf (Elt F) ((c : Thread nD τ).loc b))

/-- The block of window `w`'s array that grid point `t` works on, read off the entry contents. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, whether it was fetched there or at an earlier point
    with the same block index. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- An input's staging buffer holds its block at every point, whether it was fetched there or at an earlier point
    with the same block index. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole output block: the one rectangle the body stores through. -/
abbrev rOut1 : Rect S400x128 := Rect.unit (s := S400x128) ![0, 0] S400x128.size inb_S400x128_S400x128_0_0

/-- What the body leaves in the output block: its one store, of the payload of its loads. -/
def res1 (x0 : Vec F S400x10000 .f32) (x1 : Vec F S10000x128 .f32) : Vec F S400x128 .f32 :=
  View.canon [⟨rOut1, k1_pay1 (View.ld x0 (Rect.unit (s := S400x10000) ![0, 0] S400x10000.size inb_S400x10000_S400x10000_0_0)) (View.ld x1 (Rect.unit (s := S10000x128) ![0, 0] S10000x128.size inb_S10000x128_S10000x128_0_0))⟩]

/-- The one store covers the block. -/
theorem covers1 (p0 : Vec F S400x128 .f32) (y : S400x128.Idx) :
    ∃ pc ∈ ([⟨rOut1, p0⟩] : List (View.Piece (Elt F) S400x128 .f32)), y ∈ pc.1.set :=
  View.cover_of_tiled [⟨rOut1, p0⟩] S400x128.size (by rfl) y

set_option maxHeartbeats 1000000 in
/-- The body on whole staging buffers, the inputs' holding `x…` and the output's anything: it runs, leaves the inputs
    as they were and the output block at `res1` of them. -/
theorem body_run1 (c : Dev nD) (E : Set ℕ) (i : grid1.Coords) (a0 : Memref sig .tc .vmem S400x10000 .f32) (ha0 : a0.IsWhole) (a1 : Memref sig .tc .vmem S10000x128 .f32) (ha1 : a1.IsWhole) (a2 : Memref sig .tc .vmem S400x128 .f32) (ha2 : a2.IsWhole)
    (x0 : Vec F S400x10000 .f32) (x1 : Vec F S10000x128 .f32) (Kt : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (res1 x0 x1)) -∗ Kt ⟨⟩))
      ⊢ wp frame (wpE (defs₀ (F := F)) Variants.none c none) E (cc1__mm_kernel i a0 ha0 a1 ha1 a2 ha2) Kt := by
  simp only [cc1__mm_kernel_eq_skeleton]; unfold cc1__mm_kernel_skel
  unfold owns
  iintro ⟨⟨%f0, %hf0, H0⟩, ⟨%f1, %hf1, H1⟩, ⟨%dO, %fO, -, HO⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HO
  ipureintro
  exact View.read_writes_eq_canon _ _ _ (covers1 _)

/-- The proof data of this call on core `c`: the arrays as the call finds them; after the body at point `t` each input's
    buffer still at its block and the output's at `res1` of the input blocks; nothing owed, full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => res1 (blk1 V c 0 t) (blk1 V c 1 t)
  Φ _ := Pipeline.ΦA spec1 c
  q _ := fullShare
  owed _ := 0

theorem arr1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = res1 (blk1 V c 0 t) (blk1 V c 1 t) := by dsimp only [dat1]

theorem held1_0 (c : Dev nD) (t : Fin cfg1.N) (d) : (dat1 V c).before 0 t d = blk1 V c 0 t :=
  held1_0_of V (dat1 V c) (arr1 V c 0) (after1_0 V c) t d
theorem held1_1 (c : Dev nD) (t : Fin cfg1.N) (d) : (dat1 V c).before 1 t d = blk1 V c 1 t :=
  held1_1_of V (dat1 V c) (arr1 V c 1) (after1_1 V c) t d

/-- What the body is called with at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's run applies; the invariant and what
    the core owes pass through untouched. -/
theorem body_at1 (c : Dev nD) (t : Fin cfg1.N) :
    pre1 V c t ⊢ wp frame (wpE (defs₀ (F := F)) Variants.none c none) Set.univ (bodyAt1 t) (fun _ => post1 V c t) := by
  unfold pre1 post1 bodyAt1
  simp only [held1_0, held1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%dO, HO⟩⟩
  iapply (body_run1 c Set.univ (grid1.coords t) _ _ _ _ _ _ (blk1 V c 0 t) (blk1 V c 1 t) _)
  isplitl [H0]; · iexact H0
  isplitl [H1]; · iexact H1
  isplitl [HO]; · iexists _; iexact HO
  iintro ⟨H0, H1, HO⟩
  isplitl [HΦ]; · iexact HΦ
  isplitl [Ho]; · iexact Ho
  isplitl [H0]; · iexact H0
  isplitl [H1]; · iexact H1
  iexact HO

/-- The body obligation at every point. -/
theorem obligation1 (c : Dev nD) : BodyObligation (dat1 (F := F) V c) (defs₀ (F := F)) Variants.none () Set.univ := fun t => by
  rw [bigSep_W1, bigSep_W1]
  exact body_at1 V c t

end Cert.KernelIdeal.Hop1

end
-- ==== Proof.KI.Last.lean ====
/-
  The last call: point t multiplies rows 400·t … 400·t+399 of the adjacency by the whole second-hop result (the third
  hop's block), reads the same rows of the second hop out of the resident copy and of the first hop from its own
  window, applies the three layers, the biases, the clamp, the output layer and the logistic function, and stores
  the 400×64 result as block t of the output.
-/
import proofs.«157651_g81776177316087_cont_9to1_m_1181_6_alg».proof.Proof.Gen.KernelIdeal.Launch
import proofs.«157651_g81776177316087_cont_9to1_m_1181_6_alg».proof.Proof.Gen.KernelIdeal.Skeleton
import proofs.«157651_g81776177316087_cont_9to1_m_1181_6_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Last

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered: every statement below is at this parameter
variable (V : (c : Dev nD) → (b : Ref sig .tc) → Buf (Elt F) ((c : Thread nD τ).loc b))

/-- The block of window `w`'s array that grid point `t` works on, read off the entry contents. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, whether it was fetched there or at an earlier point
    with the same block index. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_6_of {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)
/-- An input's staging buffer holds its block at every point, whether it was fetched there or at an earlier point
    with the same block index. -/
theorem held2_7_of {c : Dev nD} (dat : Dat τ (Elt F) Unit ℕ (UR sig nD τ) ℕ cfg2 c) (hA : dat.A 7 = V c (Pipeline.arrRef spec2 7))
    (hafter : ∀ t, dat.after 7 t = blk2 V c 7 t) (t : Fin cfg2.N) (d) : dat.before 7 t d = blk2 V c 7 t :=
  (dat.before_in_eq_fetched 7 rfl (fun _ => rfl) (fun _ _ _ => rfl) (fun t => by rw [hafter]; unfold Dat.blockOf blk2; rw [hA]; try rfl) t d).trans
    (by unfold Dat.fetched Dat.blockOf blk2; rw [hA]; try rfl)

/-- The whole output block: the one rectangle the body stores through. -/
abbrev rOut2 : Rect S400x64 := Rect.unit (s := S400x64) ![0, 0] S400x64.size inb_S400x64_S400x64_0_0

/-- What the body leaves in the output block: its one store, of the payload of its loads. -/
def res2 (i : grid2.Coords) (x0 : Vec F S400x10000 .f32) (x1 : Vec F S400x128 .f32) (x2 : Vec F S10000x128 .f32) (x3 : Vec F S256x256 .f32) (x4 : Vec F S128x128 .f32) (x5 : Vec F S1x384 .f32) (x6 : Vec F S384x64 .f32) (x7 : Vec F S1x64 .f32) : Vec F S400x64 .f32 :=
  View.canon [⟨rOut2, k2_pay1 (View.ld x0 (Rect.unit (s := S400x10000) ![0, 0] S400x10000.size inb_S400x10000_S400x10000_0_0)) (View.ld x2 (Rect.unit (s := S10000x128) ![0, 0] S10000x128.size inb_S10000x128_S10000x128_0_0)) (View.ld x2 (Rect.unit (s := S10000x128) (k2_off1 i) S400x128.size (k2_off1_inb i))) (View.ld x1 (Rect.unit (s := S400x128) ![0, 0] S400x128.size inb_S400x128_S400x128_0_0)) (View.ld x3 (Rect.unit (s := S256x256) ![0, 0] S256x256.size inb_S256x256_S256x256_0_0)) (View.ld x4 (Rect.unit (s := S128x128) ![0, 0] S128x128.size inb_S128x128_S128x128_0_0)) (View.ld x5 (Rect.unit (s := S1x384) ![0, 0] S1x384.size inb_S1x384_S1x384_0_0)) (View.ld x6 (Rect.unit (s := S384x64) ![0, 0] S384x64.size inb_S384x64_S384x64_0_0)) (View.ld x7 (Rect.unit (s := S1x64) ![0, 0] S1x64.size inb_S1x64_S1x64_0_0))⟩]

/-- The one store covers the block. -/
theorem covers2 (p0 : Vec F S400x64 .f32) (y : S400x64.Idx) :
    ∃ pc ∈ ([⟨rOut2, p0⟩] : List (View.Piece (Elt F) S400x64 .f32)), y ∈ pc.1.set :=
  View.cover_of_tiled [⟨rOut2, p0⟩] S400x64.size (by rfl) y

set_option maxHeartbeats 1000000 in
/-- The body on whole staging buffers, the inputs' holding `x…` and the output's anything: it runs, leaves the inputs
    as they were and the output block at `res2` of them. -/
theorem body_run2 (c : Dev nD) (E : Set ℕ) (i : grid2.Coords) (a0 : Memref sig .tc .vmem S400x10000 .f32) (ha0 : a0.IsWhole) (a1 : Memref sig .tc .vmem S400x128 .f32) (ha1 : a1.IsWhole) (a2 : Memref sig .tc .vmem S10000x128 .f32) (ha2 : a2.IsWhole) (a3 : Memref sig .tc .vmem S256x256 .f32) (ha3 : a3.IsWhole) (a4 : Memref sig .tc .vmem S128x128 .f32) (ha4 : a4.IsWhole) (a5 : Memref sig .tc .vmem S1x384 .f32) (ha5 : a5.IsWhole) (a6 : Memref sig .tc .vmem S384x64 .f32) (ha6 : a6.IsWhole) (a7 : Memref sig .tc .vmem S1x64 .f32) (ha7 : a7.IsWhole) (a8 : Memref sig .tc .vmem S400x64 .f32) (ha8 : a8.IsWhole)
    (x0 : Vec F S400x10000 .f32) (x1 : Vec F S400x128 .f32) (x2 : Vec F S10000x128 .f32) (x3 : Vec F S256x256 .f32) (x4 : Vec F S128x128 .f32) (x5 : Vec F S1x384 .f32) (x6 : Vec F S384x64 .f32) (x7 : Vec F S1x64 .f32) (Kt : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (res2 i x0 x1 x2 x3 x4 x5 x6 x7)) -∗ Kt ⟨⟩))
      ⊢ wp frame (wpE (defs₀ (F := F)) Variants.none c none) E (cc2__final_kernel i a0 ha0 a1 ha1 a2 ha2 a3 ha3 a4 ha4 a5 ha5 a6 ha6 a7 ha7 a8 ha8) Kt := by
  simp only [cc2__final_kernel_eq_skeleton]; unfold cc2__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HO
  ipureintro
  exact View.read_writes_eq_canon _ _ _ (covers2 _)

/-- The proof data of this call on core `c`: the arrays as the call finds them; after the body at point `t` each input's
    buffer still at its block and the output's at `res2` of the input blocks; nothing owed, full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => res2 (grid2.coords t) (blk2 V c 0 t) (blk2 V c 1 t) (blk2 V c 2 t) (blk2 V c 3 t) (blk2 V c 4 t) (blk2 V c 5 t) (blk2 V c 6 t) (blk2 V c 7 t)
  Φ _ := Pipeline.ΦA spec2 c
  q _ := fullShare
  owed _ := 0

theorem arr2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = res2 (grid2.coords t) (blk2 V c 0 t) (blk2 V c 1 t) (blk2 V c 2 t) (blk2 V c 3 t) (blk2 V c 4 t) (blk2 V c 5 t) (blk2 V c 6 t) (blk2 V c 7 t) := by dsimp only [dat2]

theorem held2_0 (c : Dev nD) (t : Fin cfg2.N) (d) : (dat2 V c).before 0 t d = blk2 V c 0 t :=
  held2_0_of V (dat2 V c) (arr2 V c 0) (after2_0 V c) t d
theorem held2_1 (c : Dev nD) (t : Fin cfg2.N) (d) : (dat2 V c).before 1 t d = blk2 V c 1 t :=
  held2_1_of V (dat2 V c) (arr2 V c 1) (after2_1 V c) t d
theorem held2_2 (c : Dev nD) (t : Fin cfg2.N) (d) : (dat2 V c).before 2 t d = blk2 V c 2 t :=
  held2_2_of V (dat2 V c) (arr2 V c 2) (after2_2 V c) t d
theorem held2_3 (c : Dev nD) (t : Fin cfg2.N) (d) : (dat2 V c).before 3 t d = blk2 V c 3 t :=
  held2_3_of V (dat2 V c) (arr2 V c 3) (after2_3 V c) t d
theorem held2_4 (c : Dev nD) (t : Fin cfg2.N) (d) : (dat2 V c).before 4 t d = blk2 V c 4 t :=
  held2_4_of V (dat2 V c) (arr2 V c 4) (after2_4 V c) t d
theorem held2_5 (c : Dev nD) (t : Fin cfg2.N) (d) : (dat2 V c).before 5 t d = blk2 V c 5 t :=
  held2_5_of V (dat2 V c) (arr2 V c 5) (after2_5 V c) t d
theorem held2_6 (c : Dev nD) (t : Fin cfg2.N) (d) : (dat2 V c).before 6 t d = blk2 V c 6 t :=
  held2_6_of V (dat2 V c) (arr2 V c 6) (after2_6 V c) t d
theorem held2_7 (c : Dev nD) (t : Fin cfg2.N) (d) : (dat2 V c).before 7 t d = blk2 V c 7 t :=
  held2_7_of V (dat2 V c) (arr2 V c 7) (after2_7 V c) t d

/-- What the body is called with at point `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's run applies; the invariant and what
    the core owes pass through untouched. -/
theorem body_at2 (c : Dev nD) (t : Fin cfg2.N) :
    pre2 V c t ⊢ wp frame (wpE (defs₀ (F := F)) Variants.none c none) Set.univ (bodyAt2 t) (fun _ => post2 V c t) := by
  unfold pre2 post2 bodyAt2
  simp only [held2_0, held2_1, held2_2, held2_3, held2_4, held2_5, held2_6, held2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%dO, HO⟩⟩
  iapply (body_run2 c Set.univ (grid2.coords t) _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HO]; · iexists _; iexact HO
  iintro ⟨H0, H1, H2, H3, H4, H5, H6, H7, HO⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HO

/-- The body obligation at every point. -/
theorem obligation2 (c : Dev nD) : BodyObligation (dat2 (F := F) V c) (defs₀ (F := F)) Variants.none () Set.univ := fun t => by
  rw [bigSep_W2, bigSep_W2]
  exact body_at2 V c t

end Cert.KernelIdeal.Last

end
-- ==== Proof.KI.Whole.lean ====
/-
  The whole program as a chain of seven stretches — three stretches of host operations (a zero matrix; the
  block-diagonal weight matrix; the joined bias as a row), the first hop, the second hop, one host operation (the
  output bias as a row) and the last call — run from the launch memory to the return.  The buffers' contents at each
  boundary are a fold from the launch memory: a host stretch applies its operations, a call leaves in its arrays what
  its write-backs leave and every other buffer as it found it.  From the run: every argument array ends as launched,
  and the result array ends at what the last call's write-backs leave.
-/
import proofs.«157651_g81776177316087_cont_9to1_m_1181_6_alg».proof.Proof.KI.Hop0
import proofs.«157651_g81776177316087_cont_9to1_m_1181_6_alg».proof.Proof.KI.Hop1
import proofs.«157651_g81776177316087_cont_9to1_m_1181_6_alg».proof.Proof.KI.Last
import proofs.«157651_g81776177316087_cont_9to1_m_1181_6_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen Cert.KernelIdeal.Hop0 Cert.KernelIdeal.Hop1 Cert.KernelIdeal.Last
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev B0 : Dev nD → Valuation τ sig (Elt F) := fun c b => m ((c : Dev nD), b)
/-- After the zero matrix is made. -/
abbrev B1 : Dev nD → Valuation τ sig (Elt F) := fun c => StableHlo.after hostOps0 (B0 m c)
/-- After the block-diagonal weight matrix is made. -/
abbrev B2 : Dev nD → Valuation τ sig (Elt F) := fun c => StableHlo.after hostOps0_1 (B1 m c)
/-- After the joined bias row is made: what the first hop finds. -/
abbrev B3 : Dev nD → Valuation τ sig (Elt F) := fun c => StableHlo.after hostOps0_2 (B2 m c)
abbrev E3 : (c : Dev nD) → (b : Ref sig .tc) → Buf (Elt F) ((c : Thread nD τ).loc b) := fun c b => B3 m c b
/-- After the first hop: its arrays at what the call leaves, the rest as found. -/
def B4 (c : Dev nD) : Valuation τ sig (Elt F) :=
  Pipeline.withArrays spec0 c (B3 m c) fun w => (dat0 (E3 m) c).arrAt w cfg0.N
abbrev E4 : (c : Dev nD) → (b : Ref sig .tc) → Buf (Elt F) ((c : Thread nD τ).loc b) := fun c b => B4 m c b
/-- After the second hop. -/
def B5 (c : Dev nD) : Valuation τ sig (Elt F) :=
  Pipeline.withArrays spec1 c (B4 m c) fun w => (dat1 (E4 m) c).arrAt w cfg1.N
/-- After the output bias row is made: what the last call finds. -/
abbrev B6 : Dev nD → Valuation τ sig (Elt F) := fun c => StableHlo.after hostOps2 (B5 m c)
abbrev E6 : (c : Dev nD) → (b : Ref sig .tc) → Buf (Elt F) ((c : Thread nD τ).loc b) := fun c b => B6 m c b
/-- At the return. -/
def B7 (c : Dev nD) : Valuation τ sig (Elt F) :=
  Pipeline.withArrays spec2 c (B6 m c) fun w => (dat2 (E6 m) c).arrAt w cfg2.N
abbrev E5 : (c : Dev nD) → (b : Ref sig .tc) → Buf (Elt F) ((c : Thread nD τ).loc b) := fun c b => B5 m c b
abbrev E7 : (c : Dev nD) → (b : Ref sig .tc) → Buf (Elt F) ((c : Thread nD τ).loc b) := fun c b => B7 m c b

/-! ## What each stretch leaves alone -/

theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ∉ hostOps0_1_W) : B2 m c r = B1 m c r :=
  StableHlo.after_of_writes_sub hostOps0_1 _ hostOps0_1_writes h
theorem B3_of (c : Dev nD) (r : Ref sig .tc) (h : r ∉ hostOps0_2_W) : B3 m c r = B2 m c r :=
  StableHlo.after_of_writes_sub hostOps0_2 _ hostOps0_2_writes h
theorem B6_of (c : Dev nD) (r : Ref sig .tc) (h : r ∉ hostOps2_W) : B6 m c r = B5 m c r :=
  StableHlo.after_of_writes_sub hostOps2 _ hostOps2_writes h

theorem B4_arr (c : Dev nD) (w : Fin cfg0.W) :
    B4 m c (Proc.devRef .tc (Pipeline.arrRef spec0 w)) = (dat0 (E3 m) c).arrAt w cfg0.N := by
  unfold B4; exact Pipeline.withArrays_arr spec0 launch0.win.arr_inj c _ _ w
theorem B4_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
theorem B4_in (c : Dev nD) (w : Fin cfg0.W) (hw : (cfg0.win w).isOut = false) :
    B4 m c (Proc.devRef .tc (Pipeline.arrRef spec0 w)) = B3 m c (Proc.devRef .tc (Pipeline.arrRef spec0 w)) :=
  (B4_arr m c w).trans (((dat0 (E3 m) c).arrAt_in w hw _).trans (arr0 (E3 m) c w))

theorem B5_arr (c : Dev nD) (w : Fin cfg1.W) :
    B5 m c (Proc.devRef .tc (Pipeline.arrRef spec1 w)) = (dat1 (E4 m) c).arrAt w cfg1.N := by
  unfold B5; exact Pipeline.withArrays_arr spec1 launch1.win.arr_inj c _ _ w
theorem B5_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
theorem B5_in (c : Dev nD) (w : Fin cfg1.W) (hw : (cfg1.win w).isOut = false) :
    B5 m c (Proc.devRef .tc (Pipeline.arrRef spec1 w)) = B4 m c (Proc.devRef .tc (Pipeline.arrRef spec1 w)) :=
  (B5_arr m c w).trans (((dat1 (E4 m) c).arrAt_in w hw _).trans (arr1 (E4 m) c w))

theorem B7_arr (c : Dev nD) (w : Fin cfg2.W) :
    B7 m c (Proc.devRef .tc (Pipeline.arrRef spec2 w)) = (dat2 (E6 m) c).arrAt w cfg2.N := by
  unfold B7; exact Pipeline.withArrays_arr spec2 launch2.win.arr_inj c _ _ w
theorem B7_ne (c : Dev nD) (b : Ref sig .tc) (hb : ∀ w, Pipeline.arrRef spec2 w ≠ b) :
    B7 m c (Proc.devRef .tc b) = B6 m c (Proc.devRef .tc b) := by
  unfold B7; exact Pipeline.withArrays_of_ne spec2 c _ _ b hb
theorem B7_in (c : Dev nD) (w : Fin cfg2.W) (hw : (cfg2.win w).isOut = false) :
    B7 m c (Proc.devRef .tc (Pipeline.arrRef spec2 w)) = B6 m c (Proc.devRef .tc (Pipeline.arrRef spec2 w)) :=
  (B7_arr m c w).trans (((dat2 (E6 m) c).arrAt_in w hw _).trans (arr2 (E6 m) c w))

/-- The two hypotheses the exit of a call takes: its arrays hold what the call leaves, every other buffer what it held. -/
theorem left0 (c : Dev nD) (w : Fin cfg0.W) : (dat0 (E3 m) c).arrAt w cfg0.N = E4 m c (Pipeline.arrRef spec0 w) := (B4_arr m c w).symm
theorem rest0 (c : Dev nD) : ∀ b, b ∉ Finset.univ.image (Pipeline.arrRef spec0) → E4 m c b = E3 m c b :=
  fun b hb => B4_ne m c b fun w e => hb (Finset.mem_image.mpr ⟨w, Finset.mem_univ _, e⟩)
theorem left1 (c : Dev nD) (w : Fin cfg1.W) : (dat1 (E4 m) c).arrAt w cfg1.N = E5 m c (Pipeline.arrRef spec1 w) := (B5_arr m c w).symm
theorem rest1 (c : Dev nD) : ∀ b, b ∉ Finset.univ.image (Pipeline.arrRef spec1) → E5 m c b = E4 m c b :=
  fun b hb => B5_ne m c b fun w e => hb (Finset.mem_image.mpr ⟨w, Finset.mem_univ _, e⟩)
theorem left2 (c : Dev nD) (w : Fin cfg2.W) : (dat2 (E6 m) c).arrAt w cfg2.N = E7 m c (Pipeline.arrRef spec2 w) := (B7_arr m c w).symm
theorem rest2 (c : Dev nD) : ∀ b, b ∉ Finset.univ.image (Pipeline.arrRef spec2) → E7 m c b = E6 m c b :=
  fun b hb => B7_ne m c b fun w e => hb (Finset.mem_image.mpr ⟨w, Finset.mem_univ _, e⟩)

/-! ## Every argument array reaches the return as launched -/

theorem B7_main_arg0 (c : Dev nD) : B7 m c (Proc.devRef .tc main_arg0) = m ((c : Thread nD τ).loc main_arg0) :=
  (B7_ne m c main_arg0 (by decide)).trans <| (B6_of m c main_arg0 (by decide)).trans <| (B5_ne m c main_arg0 (by decide)).trans <| (B4_in m c 1 rfl).trans <|
    (B3_of m c main_arg0 (by decide)).trans <| (B2_of m c main_arg0 (by decide)).trans <| (B1_of m c main_arg0 (by decide)).trans rfl
theorem B7_main_arg1 (c : Dev nD) : B7 m c (Proc.devRef .tc main_arg1) = m ((c : Thread nD τ).loc main_arg1) :=
  (B7_in m c 0 rfl).trans <| (B6_of m c main_arg1 (by decide)).trans <| (B5_in m c 0 rfl).trans <| (B4_in m c 0 rfl).trans <|
    (B3_of m c main_arg1 (by decide)).trans <| (B2_of m c main_arg1 (by decide)).trans <| (B1_of m c main_arg1 (by decide)).trans rfl
theorem B7_main_arg2 (c : Dev nD) : B7 m c (Proc.devRef .tc main_arg2) = m ((c : Thread nD τ).loc main_arg2) :=
  (B7_ne m c main_arg2 (by decide)).trans <| (B6_of m c main_arg2 (by decide)).trans <| (B5_ne m c main_arg2 (by decide)).trans <| (B4_ne m c main_arg2 (by decide)).trans <|
    (B3_of m c main_arg2 (by decide)).trans <| (B2_of m c main_arg2 (by decide)).trans <| (B1_of m c main_arg2 (by decide)).trans rfl
theorem B7_main_arg3 (c : Dev nD) : B7 m c (Proc.devRef .tc main_arg3) = m ((c : Thread nD τ).loc main_arg3) :=
  (B7_ne m c main_arg3 (by decide)).trans <| (B6_of m c main_arg3 (by decide)).trans <| (B5_ne m c main_arg3 (by decide)).trans <| (B4_ne m c main_arg3 (by decide)).trans <|
    (B3_of m c main_arg3 (by decide)).trans <| (B2_of m c main_arg3 (by decide)).trans <| (B1_of m c main_arg3 (by decide)).trans rfl
theorem B7_main_arg4 (c : Dev nD) : B7 m c (Proc.devRef .tc main_arg4) = m ((c : Thread nD τ).loc main_arg4) :=
  (B7_ne m c main_arg4 (by decide)).trans <| (B6_of m c main_arg4 (by decide)).trans <| (B5_ne m c main_arg4 (by decide)).trans <| (B4_ne m c main_arg4 (by decide)).trans <|
    (B3_of m c main_arg4 (by decide)).trans <| (B2_of m c main_arg4 (by decide)).trans <| (B1_of m c main_arg4 (by decide)).trans rfl
theorem B7_main_arg5 (c : Dev nD) : B7 m c (Proc.devRef .tc main_arg5) = m ((c : Thread nD τ).loc main_arg5) :=
  (B7_ne m c main_arg5 (by decide)).trans <| (B6_of m c main_arg5 (by decide)).trans <| (B5_ne m c main_arg5 (by decide)).trans <| (B4_ne m c main_arg5 (by decide)).trans <|
    (B3_of m c main_arg5 (by decide)).trans <| (B2_of m c main_arg5 (by decide)).trans <| (B1_of m c main_arg5 (by decide)).trans rfl
theorem B7_main_arg6 (c : Dev nD) : B7 m c (Proc.devRef .tc main_arg6) = m ((c : Thread nD τ).loc main_arg6) :=
  (B7_in m c 4 rfl).trans <| (B6_of m c main_arg6 (by decide)).trans <| (B5_ne m c main_arg6 (by decide)).trans <| (B4_ne m c main_arg6 (by decide)).trans <|
    (B3_of m c main_arg6 (by decide)).trans <| (B2_of m c main_arg6 (by decide)).trans <| (B1_of m c main_arg6 (by decide)).trans rfl
theorem B7_main_arg7 (c : Dev nD) : B7 m c (Proc.devRef .tc main_arg7) = m ((c : Thread nD τ).loc main_arg7) :=
  (B7_ne m c main_arg7 (by decide)).trans <| (B6_of m c main_arg7 (by decide)).trans <| (B5_ne m c main_arg7 (by decide)).trans <| (B4_ne m c main_arg7 (by decide)).trans <|
    (B3_of m c main_arg7 (by decide)).trans <| (B2_of m c main_arg7 (by decide)).trans <| (B1_of m c main_arg7 (by decide)).trans rfl
theorem B7_main_arg8 (c : Dev nD) : B7 m c (Proc.devRef .tc main_arg8) = m ((c : Thread nD τ).loc main_arg8) :=
  (B7_in m c 6 rfl).trans <| (B6_of m c main_arg8 (by decide)).trans <| (B5_ne m c main_arg8 (by decide)).trans <| (B4_ne m c main_arg8 (by decide)).trans <|
    (B3_of m c main_arg8 (by decide)).trans <| (B2_of m c main_arg8 (by decide)).trans <| (B1_of m c main_arg8 (by decide)).trans rfl
theorem B7_main_arg9 (c : Dev nD) : B7 m c (Proc.devRef .tc main_arg9) = m ((c : Thread nD τ).loc main_arg9) :=
  (B7_ne m c main_arg9 (by decide)).trans <| (B6_of m c main_arg9 (by decide)).trans <| (B5_ne m c main_arg9 (by decide)).trans <| (B4_ne m c main_arg9 (by decide)).trans <|
    (B3_of m c main_arg9 (by decide)).trans <| (B2_of m c main_arg9 (by decide)).trans <| (B1_of m c main_arg9 (by decide)).trans rfl

/-! ## The proof data of the three calls, and what rides along -/

/-- Each call's proof data at the contents it is entered from. -/
def pdats : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E4 m) c
  | ⟨2, _⟩ => fun c => dat2 (E6 m) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
/-- A host stretch as a segment, over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what the core owes. -/
abbrev Tend (c : Dev nD) : sProp 𝕄 := iprop(StableHlo.held (c : Thread nD τ) (Pipeline.ucRefs τ sig) (B7 m c) ∗ ∃ r, prngReg c r)

/-! ## The calls as segments -/

set_option backward.isDefEq.respectTransparency.types false in
/-- Call 0 over the thread state: its arrays are split out of the unscoped buffers at entry and put back, at what the
    call leaves, at exit; the generator register goes into the pipeline's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (left0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: its arrays are split out of the unscoped buffers at entry and put back, at what the
    call leaves, at exit; the generator register goes into the pipeline's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E4 m) c).loose
  hwaits := Pipeline.hwaits_of_owed_zero _ _ _ _ L lv 1 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E4 m c) (E5 m c) ((pdats m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: its arrays are split out of the unscoped buffers at entry and put back, at what the
    call leaves, at exit; the generator register goes into the pipeline's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (E6 m) c).loose
  hwaits := Pipeline.hwaits_of_owed_zero _ _ _ _ L lv 2 fun _ _ => rfl
  pre c := iprop(StableHlo.held (c : Thread nD τ) (Pipeline.ucRefs τ sig) (B6 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E6 m c) (E7 m c) ((pdats m 2 c).arrAt · cfg2.N) (left2 m c) (rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .region (reg1 m),
    .host (hseg hostOps2 hostOps2_sub hostOps2_fresh (B5 m)),
    .region (reg2 m) ]

theorem main_run (c : Dev nD) : main (F := F) c = Pipeline.Seg.run (segs m) := by
  rw [main_chain c, Pipeline.Seg.run_eq_chain]
  rfl

set_option backward.isDefEq.respectTransparency.types false in
/-- THE RUN: from any memory with zero counters every weakly fair execution of the program terminates, nothing
    faulting, and in the final memory every unscoped buffer holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (B7_main_arg0 m c),
      (h c _ (mem_uc main_arg1 (by decide))).trans (B7_main_arg1 m c),
      (h c _ (mem_uc main_arg2 (by decide))).trans (B7_main_arg2 m c),
      (h c _ (mem_uc main_arg3 (by decide))).trans (B7_main_arg3 m c),
      (h c _ (mem_uc main_arg4 (by decide))).trans (B7_main_arg4 m c),
      (h c _ (mem_uc main_arg5 (by decide))).trans (B7_main_arg5 m c),
      (h c _ (mem_uc main_arg6 (by decide))).trans (B7_main_arg6 m c),
      (h c _ (mem_uc main_arg7 (by decide))).trans (B7_main_arg7 m c),
      (h c _ (mem_uc main_arg8 (by decide))).trans (B7_main_arg8 m c),
      (h c _ (mem_uc main_arg9 (by decide))).trans (B7_main_arg9 m c)⟩) (run_all m ρ)

/-- The run with the result named: the result array ends at what the last call's write-backs leave in it. -/
theorem run_named (ρ : Dev nD → PrngReg) : θ_run defs (onTc (τ := τ) (main (F := F))) ⟨m, fun _ => 0, ρ⟩ (fun r => ∀ c : Dev nD,
      r.2.mem ((c.tc : Thread nD τ).loc main_v7) = (dat2 (E6 m) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v7 (by decide))).trans (B7_arr m c 8),
      (h c _ (mem_uc main_arg0 (by decide))).trans (B7_main_arg0 m c),
      (h c _ (mem_uc main_arg1 (by decide))).trans (B7_main_arg1 m c),
      (h c _ (mem_uc main_arg2 (by decide))).trans (B7_main_arg2 m c),
      (h c _ (mem_uc main_arg3 (by decide))).trans (B7_main_arg3 m c),
      (h c _ (mem_uc main_arg4 (by decide))).trans (B7_main_arg4 m c),
      (h c _ (mem_uc main_arg5 (by decide))).trans (B7_main_arg5 m c),
      (h c _ (mem_uc main_arg6 (by decide))).trans (B7_main_arg6 m c),
      (h c _ (mem_uc main_arg7 (by decide))).trans (B7_main_arg7 m c),
      (h c _ (mem_uc main_arg8 (by decide))).trans (B7_main_arg8 m c),
      (h c _ (mem_uc main_arg9 (by decide))).trans (B7_main_arg9 m c)⟩) (run_all m ρ)

end Cert.KernelIdeal.Whole

end
-- ==== Proof.Spec.lean ====
/-
  The mathematics both programs compute, stated once over the extended reals, index by index.

  A graph convolution of three orders: with `A` the 10000×10000 adjacency, `X` the 10000×128 features,
  one hop is `Y ↦ A·Y` and one linear layer is `Y ↦ Y·W`.  The reference applies the layer first and then
  hops (`A·(X·W₁)`, `A·(A·(X·W₂))`, `A·(A·(A·(X·W₃)))`); the kernel hops first (`Y₁ = A·X`, `Y₂ = A·Y₁`,
  `Y₃ = A·Y₂`) and applies the layers afterwards, the first two through one product of `[Y₁ | Y₂]` with the
  block-diagonal matrix `[[W₁, 0], [0, W₂]]`.  Both add the biases, join the three orders into 384 columns,
  clamp at zero, multiply by the 384×64 output weights, add the output bias and apply the logistic function.
-/
import Idealize.ShloMosaic.PureOps.Ideal
import Idealize.ShloMosaic.Lib.ValueIdx

noncomputable section

open Idealize.ShloMosaic Idealize.ShloMosaic.ValueIdx
open scoped BigOperators

namespace Cert.Spec

/-- A matrix of extended reals with `r` rows and `c` columns, as a function of its index. -/
abbrev Mx (r c : Nat) : Type := (⟨2, ![r, c]⟩ : Shape).Idx → EReal
/-- A vector of extended reals of length `n`. -/
abbrev Vx (n : Nat) : Type := (⟨1, ![n]⟩ : Shape).Idx → EReal

/-- Every entry is a real number. -/
def IsReal {s : Shape} (f : s.Idx → EReal) : Prop := ∀ i, ∃ r : ℝ, f i = (r : EReal)

/-- One hop of propagation, `A·Y`: entry (p, q) is row p of `A` against column q of `Y`. -/
def hop (A : Mx 10000 10000) (Y : Mx 10000 128) : Mx 10000 128 :=
  fun i => ∑ k : Fin 10000, A (ix2 (i 0) k) * Y (ix2 k (i 1))

/-- One linear layer, `Y·W`. -/
def lin (Y : Mx 10000 128) (W : Mx 128 128) : Mx 10000 128 :=
  fun i => ∑ k : Fin 128, Y (ix2 (i 0) k) * W (ix2 k (i 1))

/-- Column `j` of three 128-column pieces laid side by side: which piece, and which of its columns. -/
def pick3 {α : Type} (j : Fin 384) (f g h : Fin 128 → α) : α :=
  if h1 : j.val < 128 then f ⟨j.val, h1⟩
  else if h2 : j.val < 256 then g ⟨j.val - 128, by omega⟩
  else h ⟨j.val - 256, by omega⟩

/-- The reference's hidden layer before the clamp: the layer first, then one, two and three hops, plus the bias. -/
def hidR (A : Mx 10000 10000) (X : Mx 10000 128) (W1 W2 W3 : Mx 128 128) (b1 b2 b3 : Vx 128) : Mx 10000 384 :=
  fun i => pick3 (i 1)
    (fun q => hop A (lin X W1) (ix2 (i 0) q) + b1 (ix1 q))
    (fun q => hop A (hop A (lin X W2)) (ix2 (i 0) q) + b2 (ix1 q))
    (fun q => hop A (hop A (hop A (lin X W3))) (ix2 (i 0) q) + b3 (ix1 q))

/-- `[Y₁ | Y₂]`: the first two hop results side by side. -/
def pair (Y1 Y2 : Mx 10000 128) : Mx 10000 256 :=
  fun i => if h : (i 1).val < 128 then Y1 (ix2 (i 0) ⟨(i 1).val, h⟩)
    else Y2 (ix2 (i 0) ⟨(i 1).val - 128, by have := idx2_lt1 i; omega⟩)

/-- The block-diagonal matrix `[[W₁, 0], [0, W₂]]`. -/
def diag2 (W1 W2 : Mx 128 128) : Mx 256 256 :=
  fun i =>
    if h0 : (i 0).val < 128 then
      (if h1 : (i 1).val < 128 then W1 (ix2 ⟨(i 0).val, h0⟩ ⟨(i 1).val, h1⟩) else 0)
    else
      (if h1 : (i 1).val < 128 then 0
       else W2 (ix2 ⟨(i 0).val - 128, by have := idx2_lt0 i; omega⟩ ⟨(i 1).val - 128, by have := idx2_lt1 i; omega⟩))

/-- The three biases joined into one vector of 384. -/
def bias3 (b1 b2 b3 : Vx 128) : Vx 384 :=
  fun i => pick3 (i 0) (fun q => b1 (ix1 q)) (fun q => b2 (ix1 q)) (fun q => b3 (ix1 q))

/-- The kernel's hidden layer before the clamp: columns below 256 from `[Y₁ | Y₂]` against the block-diagonal
    matrix, the last 128 from `Y₃·W₃`, plus the joined bias. -/
def hidK (A : Mx 10000 10000) (X : Mx 10000 128) (W1 W2 W3 : Mx 128 128) (b1 b2 b3 : Vx 128) : Mx 10000 384 :=
  fun i =>
    (if h : (i 1).val < 256 then
        ∑ k : Fin 256, pair (hop A X) (hop A (hop A X)) (ix2 (i 0) k) * diag2 W1 W2 (ix2 k ⟨(i 1).val, h⟩)
      else
        ∑ k : Fin 128, hop A (hop A (hop A X)) (ix2 (i 0) k) * W3 (ix2 k ⟨(i 1).val - 256, by have := idx2_lt1 i; omega⟩))
    + bias3 b1 b2 b3 (ix1 (i 1))

/-- What both programs do with the hidden layer: clamp at zero, multiply by the output weights, add the output
    bias, apply the logistic function. -/
def tail (H : Mx 10000 384) (Wfc : Mx 384 64) (bfc : Vx 64) : Mx 10000 64 :=
  fun i => Ideal.logistic ((∑ j : Fin 384, max (H (ix2 (i 0) j)) 0 * Wfc (ix2 j (i 1))) + bfc (ix1 (i 1)))

end Cert.Spec

end
-- ==== Proof.Algebra.lean ====
/-
  The algebra behind the two orders of evaluation, over the extended reals.

  1. On matrices with real entries the product is associative: A·(Y·W) = (A·Y)·W.  The entries are real, so
     every sum is the coercion of a real sum, and in the reals the two double sums are rearrangements of
     each other.  A hop and a layer of real matrices are real again, so the identity iterates.
  2. The product of [Y₁ | Y₂] with the block-diagonal matrix [[W₁, 0], [0, W₂]]: the sum over 256 splits
     into the first and the last 128; in a column below 128 the last 128 terms are against zeros and the
     first 128 are Y₁·W₁, in a column from 128 on the reverse.  x * 0 = 0 for every extended real.
  3. The joined bias at column j is the bias of the piece column j lies in.
-/
import proofs.«157651_g81776177316087_cont_9to1_m_1181_6_alg».proof.Proof.Spec
import Mathlib.Algebra.BigOperators.Fin
import Mathlib.Data.EReal.Basic

noncomputable section

open Idealize.ShloMosaic Idealize.ShloMosaic.ValueIdx
open scoped BigOperators

namespace Cert.Spec

/-! ## Real sums inside the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the matrix product at one entry, in the reals: a row a against the column of y·w
    equals the row of a·y against the column w. -/
theorem real_assoc {m n : ℕ} (a : Fin m → ℝ) (y : Fin m → Fin n → ℝ) (w : Fin n → ℝ) :
    ∑ k, a k * ∑ l, y k l * w l = ∑ l, (∑ k, a k * y k l) * w l := by
  simp only [Finset.mul_sum, Finset.sum_mul]
  rw [Finset.sum_comm]
  exact Finset.sum_congr rfl fun l _ => Finset.sum_congr rfl fun k _ => (mul_assoc _ _ _).symm

/-! ## Hops and layers of real matrices -/

/-- A hop of real matrices, entry by entry, is the coercion of the real sum. -/
theorem hop_coe (A : Mx 10000 10000) (Y : Mx 10000 128)
    (a : (⟨2, ![10000, 10000]⟩ : Shape).Idx → ℝ) (y : (⟨2, ![10000, 128]⟩ : Shape).Idx → ℝ)
    (ha : ∀ i, A i = (a i : EReal)) (hy : ∀ i, Y i = (y i : EReal)) (p : Fin 10000) (q : Fin 128) :
    hop A Y (ix2 p q) = ((∑ k : Fin 10000, a (ix2 p k) * y (ix2 k q) : ℝ) : EReal) := by
  rw [coe_sum]
  show ∑ k : Fin 10000, A (ix2 p k) * Y (ix2 k q) = _
  exact Finset.sum_congr rfl fun k _ => by rw [ha, hy, EReal.coe_mul]

/-- A layer of real matrices, entry by entry, is the coercion of the real sum. -/
theorem lin_coe (Y : Mx 10000 128) (W : Mx 128 128)
    (y : (⟨2, ![10000, 128]⟩ : Shape).Idx → ℝ) (w : (⟨2, ![128, 128]⟩ : Shape).Idx → ℝ)
    (hy : ∀ i, Y i = (y i : EReal)) (hw : ∀ i, W i = (w i : EReal)) (p : Fin 10000) (q : Fin 128) :
    lin Y W (ix2 p q) = ((∑ k : Fin 128, y (ix2 p k) * w (ix2 k q) : ℝ) : EReal) := by
  rw [coe_sum]
  show ∑ k : Fin 128, Y (ix2 p k) * W (ix2 k q) = _
  exact Finset.sum_congr rfl fun k _ => by rw [hy, hw, EReal.coe_mul]

/-- A hop of real matrices is real. -/
theorem isReal_hop {A : Mx 10000 10000} {Y : Mx 10000 128} (hA : IsReal A) (hY : IsReal Y) :
    IsReal (hop A Y) := by
  choose a ha using hA
  choose y hy using hY
  intro i
  rw [eq_ix2 i]
  exact ⟨_, hop_coe A Y a y ha hy _ _⟩

/-- A layer of real matrices is real. -/
theorem isReal_lin {Y : Mx 10000 128} {W : Mx 128 128} (hY : IsReal Y) (hW : IsReal W) :
    IsReal (lin Y W) := by
  choose y hy using hY
  choose w hw using hW
  intro i
  rw [eq_ix2 i]
  exact ⟨_, lin_coe Y W y w hy hw _ _⟩

/-- On real matrices, hopping after a layer is the layer after the hop: A·(Y·W) = (A·Y)·W. -/
theorem hop_lin {A : Mx 10000 10000} {Y : Mx 10000 128} {W : Mx 128 128}
    (hA : IsReal A) (hY : IsReal Y) (hW : IsReal W) :
    hop A (lin Y W) = lin (hop A Y) W := by
  choose a ha using hA
  choose y hy using hY
  choose w hw using hW
  funext i
  obtain ⟨p, q, rfl⟩ : ∃ (p : Fin 10000) (q : Fin 128), i = ix2 p q := ⟨i 0, i 1, eq_ix2 i⟩
  -- the real witnesses of the layer and of the hop, as functions of the index
  have hL : ∀ j, lin Y W j =
      ((∑ l : Fin 128, y (ix2 (j 0) l) * w (ix2 l (j 1)) : ℝ) : EReal) := fun j => by
    rw [eq_ix2 j]; exact lin_coe Y W y w hy hw _ _
  have hH : ∀ j, hop A Y j =
      ((∑ k : Fin 10000, a (ix2 (j 0) k) * y (ix2 k (j 1)) : ℝ) : EReal) := fun j => by
    rw [eq_ix2 j]; exact hop_coe A Y a y ha hy _ _
  rw [hop_coe A (lin Y W) a _ ha hL p q, lin_coe (hop A Y) W _ w hH hw p q]
  refine congrArg _ ?_
  exact real_assoc (fun k => a (ix2 p k)) (fun k l => y (ix2 k l)) (fun l => w (ix2 l q))

/-! ## The pair against the block-diagonal matrix -/

/-- A sum over 256 is the sum over the first 128 plus the sum over the last 128. -/
theorem sum_256 (f : Fin 256 → EReal) :
    ∑ k : Fin 256, f k
      = ∑ k : Fin 128, f ⟨k.val, by omega⟩ + ∑ k : Fin 128, f ⟨k.val + 128, by omega⟩ := by
  have h := Fin.sum_univ_add (a := 128) (b := 128) (f := f)
  rw [h]
  refine congrArg₂ (· + ·) (Finset.sum_congr rfl fun k _ => congrArg f (Fin.ext rfl))
    (Finset.sum_congr rfl fun k _ => congrArg f (Fin.ext ?_))
  show 128 + k.val = k.val + 128
  omega

theorem pair_lo (Y1 Y2 : Mx 10000 128) (p : Fin 10000) (k : Fin 256) (h : k.val < 128) :
    pair Y1 Y2 (ix2 p k) = Y1 (ix2 p ⟨k.val, h⟩) := by
  show (if h : k.val < 128 then Y1 (ix2 p ⟨k.val, h⟩) else _) = _
  exact dif_pos h

theorem pair_hi (Y1 Y2 : Mx 10000 128) (p : Fin 10000) (k : Fin 256) (h : ¬ k.val < 128) :
    pair Y1 Y2 (ix2 p k) = Y2 (ix2 p ⟨k.val - 128, by omega⟩) := by
  show (if h : k.val < 128 then _ else Y2 (ix2 p ⟨k.val - 128, _⟩)) = _
  exact dif_neg h

theorem diag2_ll (W1 W2 : Mx 128 128) (r c : Fin 256) (hr : r.val < 128) (hc : c.val < 128) :
    diag2 W1 W2 (ix2 r c) = W1 (ix2 ⟨r.val, hr⟩ ⟨c.val, hc⟩) := by
  show (if h0 : r.val < 128 then
      (if h1 : c.val < 128 then W1 (ix2 ⟨r.val, h0⟩ ⟨c.val, h1⟩) else 0) else _) = _
  rw [dif_pos hr, dif_pos hc]

theorem diag2_lh (W1 W2 : Mx 128 128) (r c : Fin 256) (hr : r.val < 128) (hc : ¬ c.val < 128) :
    diag2 W1 W2 (ix2 r c) = 0 := by
  show (if h0 : r.val < 128 then
      (if h1 : c.val < 128 then W1 (ix2 ⟨r.val, h0⟩ ⟨c.val, h1⟩) else 0) else _) = _
  rw [dif_pos hr, dif_neg hc]

theorem diag2_hl (W1 W2 : Mx 128 128) (r c : Fin 256) (hr : ¬ r.val < 128) (hc : c.val < 128) :
    diag2 W1 W2 (ix2 r c) = 0 := by
  show (if h0 : r.val < 128 then _ else
      (if h1 : c.val < 128 then (0 : EReal) else W2 (ix2 ⟨r.val - 128, _⟩ ⟨c.val - 128, _⟩))) = _
  rw [dif_neg hr, dif_pos hc]

theorem diag2_hh (W1 W2 : Mx 128 128) (r c : Fin 256) (hr : ¬ r.val < 128) (hc : ¬ c.val < 128) :
    diag2 W1 W2 (ix2 r c) = W2 (ix2 ⟨r.val - 128, by omega⟩ ⟨c.val - 128, by omega⟩) := by
  show (if h0 : r.val < 128 then _ else
      (if h1 : c.val < 128 then (0 : EReal) else W2 (ix2 ⟨r.val - 128, _⟩ ⟨c.val - 128, _⟩))) = _
  rw [dif_neg hr, dif_neg hc]

/-- In a column below 128 the pair against the block-diagonal matrix is the first piece's layer. -/
theorem pair_diag2_lo (Y1 Y2 : Mx 10000 128) (W1 W2 : Mx 128 128) (p : Fin 10000) (c : Fin 256)
    (hc : c.val < 128) :
    ∑ k : Fin 256, pair Y1 Y2 (ix2 p k) * diag2 W1 W2 (ix2 k c) = lin Y1 W1 (ix2 p ⟨c.val, hc⟩) := by
  rw [sum_256]
  have h2 : ∑ k : Fin 128, pair Y1 Y2 (ix2 p (⟨k.val + 128, by omega⟩ : Fin 256))
      * diag2 W1 W2 (ix2 (⟨k.val + 128, by omega⟩ : Fin 256) c) = 0 :=
    Finset.sum_eq_zero fun k _ => by
      rw [diag2_hl W1 W2 _ c (by show ¬ k.val + 128 < 128; omega) hc, mul_zero]
  rw [h2, add_zero]
  show _ = ∑ k : Fin 128, Y1 (ix2 p k) * W1 (ix2 k ⟨c.val, hc⟩)
  exact Finset.sum_congr rfl fun k _ => by
    rw [pair_lo Y1 Y2 p _ (show k.val < 128 from k.isLt),
      diag2_ll W1 W2 _ c (show k.val < 128 from k.isLt) hc]

/-- In a column from 128 on the pair against the block-diagonal matrix is the second piece's layer. -/
theorem pair_diag2_hi (Y1 Y2 : Mx 10000 128) (W1 W2 : Mx 128 128) (p : Fin 10000) (c : Fin 256)
    (hc : ¬ c.val < 128) :
    ∑ k : Fin 256, pair Y1 Y2 (ix2 p k) * diag2 W1 W2 (ix2 k c)
      = lin Y2 W2 (ix2 p ⟨c.val - 128, by omega⟩) := by
  rw [sum_256]
  have h1 : ∑ k : Fin 128, pair Y1 Y2 (ix2 p (⟨k.val, by omega⟩ : Fin 256))
      * diag2 W1 W2 (ix2 (⟨k.val, by omega⟩ : Fin 256) c) = 0 :=
    Finset.sum_eq_zero fun k _ => by
      rw [diag2_lh W1 W2 _ c (show k.val < 128 from k.isLt) hc, mul_zero]
  rw [h1, zero_add]
  show _ = ∑ k : Fin 128, Y2 (ix2 p k) * W2 (ix2 k ⟨c.val - 128, _⟩)
  exact Finset.sum_congr rfl fun k _ => by
    rw [pair_hi Y1 Y2 p _ (by show ¬ k.val + 128 < 128; omega),
      diag2_hh W1 W2 _ c (by show ¬ k.val + 128 < 128; omega) hc]
    exact congrArg₂ (· * ·) (congrArg Y2 (congrArg (ix2 p) (Fin.ext (by show k.val + 128 - 128 = k.val; omega))))
      (congrArg W2 (congrArg (fun r => ix2 r _) (Fin.ext (by show k.val + 128 - 128 = k.val; omega))))

/-! ## The three pieces side by side -/

theorem pick3_lo {α : Type} (j : Fin 384) (f g h : Fin 128 → α) (h1 : j.val < 128) :
    pick3 j f g h = f ⟨j.val, h1⟩ := by
  unfold pick3; exact dif_pos h1

theorem pick3_mid {α : Type} (j : Fin 384) (f g h : Fin 128 → α) (h1 : ¬ j.val < 128)
    (h2 : j.val < 256) : pick3 j f g h = g ⟨j.val - 128, by omega⟩ := by
  unfold pick3; rw [dif_neg h1, dif_pos h2]

theorem pick3_hi {α : Type} (j : Fin 384) (f g h : Fin 128 → α) (h1 : ¬ j.val < 128)
    (h2 : ¬ j.val < 256) : pick3 j f g h = h ⟨j.val - 256, by omega⟩ := by
  unfold pick3; rw [dif_neg h1, dif_neg h2]

/-- The kernel's hidden layer (hops first, the first two layers through the block-diagonal product)
    equals the reference's (the layer first, then the hops), when the adjacency, the features and the three
    weight matrices are real.  The biases are arbitrary extended reals. -/
theorem hidK_eq_hidR (A : Mx 10000 10000) (X : Mx 10000 128) (W1 W2 W3 : Mx 128 128) (b1 b2 b3 : Vx 128)
    (hA : IsReal A) (hX : IsReal X) (hW1 : IsReal W1) (hW2 : IsReal W2) (hW3 : IsReal W3) :
    hidK A X W1 W2 W3 b1 b2 b3 = hidR A X W1 W2 W3 b1 b2 b3 := by
  have hY1 : IsReal (hop A X) := isReal_hop hA hX
  have hY2 : IsReal (hop A (hop A X)) := isReal_hop hA hY1
  have e1 : hop A (lin X W1) = lin (hop A X) W1 := hop_lin hA hX hW1
  have e2 : hop A (hop A (lin X W2)) = lin (hop A (hop A X)) W2 := by
    rw [hop_lin hA hX hW2, hop_lin hA hY1 hW2]
  have e3 : hop A (hop A (hop A (lin X W3))) = lin (hop A (hop A (hop A X))) W3 := by
    rw [hop_lin hA hX hW3, hop_lin hA hY1 hW3, hop_lin hA hY2 hW3]
  funext i
  obtain ⟨p, q, rfl⟩ : ∃ (p : Fin 10000) (q : Fin 384), i = ix2 p q := ⟨i 0, i 1, eq_ix2 i⟩
  show (if h : q.val < 256 then
          ∑ k : Fin 256, pair (hop A X) (hop A (hop A X)) (ix2 p k) * diag2 W1 W2 (ix2 k ⟨q.val, h⟩)
        else
          ∑ k : Fin 128, hop A (hop A (hop A X)) (ix2 p k) * W3 (ix2 k ⟨q.val - 256, _⟩))
      + pick3 q (fun c => b1 (ix1 c)) (fun c => b2 (ix1 c)) (fun c => b3 (ix1 c))
      = pick3 q (fun c => hop A (lin X W1) (ix2 p c) + b1 (ix1 c))
          (fun c => hop A (hop A (lin X W2)) (ix2 p c) + b2 (ix1 c))
          (fun c => hop A (hop A (hop A (lin X W3))) (ix2 p c) + b3 (ix1 c))
  rw [e1, e2, e3]
  by_cases h1 : q.val < 128
  · have h256 : q.val < 256 := by omega
    rw [dif_pos h256, pick3_lo q _ _ _ h1, pick3_lo q _ _ _ h1,
      pair_diag2_lo _ _ W1 W2 p ⟨q.val, h256⟩ h1]
  · by_cases h2 : q.val < 256
    · rw [dif_pos h2, pick3_mid q _ _ _ h1 h2, pick3_mid q _ _ _ h1 h2,
        pair_diag2_hi _ _ W1 W2 p ⟨q.val, h2⟩ h1]
    · rw [dif_neg h2, pick3_hi q _ _ _ h1 h2, pick3_hi q _ _ _ h1 h2]
      rfl

end Cert.Spec

end
-- ==== Proof.Finite.lean ====
/-
  The precondition makes the matrices real.

  The precondition is the conjunction, over the ten argument arrays, of "every entry's absolute value is below
  +∞".  Each conjunct is a reduction by `and` over every axis, so it is 1 exactly when the comparison is 1 at
  every entry.  On the extended reals `max x (-x) < ⊤` excludes both infinities, so the entry is a real number.
-/
import proofs.«157651_g81776177316087_cont_9to1_m_1181_6_alg».proof.Proof.Spec
import proofs.«157651_g81776177316087_cont_9to1_m_1181_6_alg».proof.Pre_finite_inputs
import proofs.«157651_g81776177316087_cont_9to1_m_1181_6_alg».proof.Defs
import Idealize.ShloMosaic.Lib.ReduceAll
import Idealize.ShloMosaic.Lib.IdealHost

noncomputable section

namespace Cert.Finite

open Idealize.ShloMosaic Idealize.ShloMosaic.ValueIdx Idealize.SL.Sem Cert.Pre_finite_inputs

/-- The scalar shape has one index. -/
instance : Subsingleton (⟨0, ![]⟩ : Shape).Idx := ⟨fun a b => funext fun d => d.elim0⟩

/-- The pattern of +∞ is the top element. -/
theorem ofBits_inf_f32 : Ideal.ofBits .f32 0x7F800000#32 = ⊤ := by simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | top => exact absurd hlt (by simp)
  | coe r => exact ⟨r, rfl⟩

/-- One conjunct read back: when "every entry's absolute value is below +∞" reduces to 1, every entry is real. -/
theorem isReal_of_all {s : Shape} {axes : List (Fin s.rank)} (x : FVec Ideal s .f32)
    (bc : (⟨0, ![]⟩ : Shape).BroadcastsInDim s ![]) (hr : s.ReducesTo axes ⟨0, ![]⟩) (hu : 0 < (⟨0, ![]⟩ : Shape).numel)
    (e : Host.reduce IntOp.andi
        (cmpf .olt (Host.absf x) (broadcastInDim s ![] bc (constant (F := Ideal) ⟨0, ![]⟩ .f32 0x7F800000#32)))
        (constantI ⟨0, ![]⟩ 1 1#1) hr hu ix0 = 1#1) :
    Cert.Spec.IsReal x := by
  intro i
  have hi := Host.reduce_andi_all _ _ hr hu ix0 e i
  refine real_of_abs_lt (x i) ?_
  rw [← hi]
  show _ = Ideal.cmp .olt (max (x i) (-(x i)))
    (broadcastInDim s ![] bc (constant (F := Ideal) ⟨0, ![]⟩ .f32 0x7F800000#32) i)
  rw [broadcastInDim_scalar_apply]
  rfl

/-- The conjunction of two one-bit scalars, read at the one index. -/
theorem andi_ix0 (x y : IVec (⟨0, ![]⟩ : Shape) 1) : andi x y ix0 = 1#1 ↔ x ix0 = 1#1 ∧ y ix0 = 1#1 :=
  IntOp.andi_eq_one

/-- **The precondition makes the adjacency, the features and the three layer weights real.** -/
theorem real_of_pre [Cert.Pre_finite_inputs.Facts]
    (a0 : FVec Ideal S10000x128 .f32) (a1 : FVec Ideal S10000x10000 .f32) (a2 : FVec Ideal S128x128 .f32)
    (a3 : FVec Ideal S128 .f32) (a4 : FVec Ideal S128x128 .f32) (a5 : FVec Ideal S128 .f32)
    (a6 : FVec Ideal S128x128 .f32) (a7 : FVec Ideal S128 .f32) (a8 : FVec Ideal S384x64 .f32)
    (a9 : FVec Ideal S64 .f32)
    (h : Cert.Pre_finite_inputs.fn (F := Ideal) a0 a1 a2 a3 a4 a5 a6 a7 a8 a9 = fun _ => 1#1) :
    Cert.Spec.IsReal a1 ∧ Cert.Spec.IsReal a0 ∧ Cert.Spec.IsReal a2 ∧ Cert.Spec.IsReal a4 ∧ Cert.Spec.IsReal a6 := by
  have h0 := congrFun h ix0
  unfold Cert.Pre_finite_inputs.fn Cert.Pre_finite_inputs.fn_part1 Cert.Pre_finite_inputs.fn_part2 at h0
  dsimp only at h0
  simp only [andi_ix0] at h0
  obtain ⟨⟨⟨⟨⟨⟨⟨⟨⟨h_0, h_1⟩, h_2⟩, _⟩, h_4⟩, _⟩, h_6⟩, _⟩, _⟩, _⟩ := h0
  exact ⟨isReal_of_all a1 _ _ _ h_1, isReal_of_all a0 _ _ _ h_0, isReal_of_all a2 _ _ _ h_2,
    isReal_of_all a4 _ _ _ h_4, isReal_of_all a6 _ _ _ h_6⟩

/-- The same from the kernel's precondition, for the memory's arrays on a device. -/
theorem real_of_pre_kernel [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (s := S10000x10000) (m ((c.tc : Thread Cert.KernelIdeal.nD Cert.KernelIdeal.τ).loc Cert.KernelIdeal.main_arg1))
      ∧ Cert.Spec.IsReal (s := S10000x128) (m ((c.tc : Thread Cert.KernelIdeal.nD Cert.KernelIdeal.τ).loc Cert.KernelIdeal.main_arg0))
      ∧ Cert.Spec.IsReal (s := S128x128) (m ((c.tc : Thread Cert.KernelIdeal.nD Cert.KernelIdeal.τ).loc Cert.KernelIdeal.main_arg2))
      ∧ Cert.Spec.IsReal (s := S128x128) (m ((c.tc : Thread Cert.KernelIdeal.nD Cert.KernelIdeal.τ).loc Cert.KernelIdeal.main_arg4))
      ∧ Cert.Spec.IsReal (s := S128x128) (m ((c.tc : Thread Cert.KernelIdeal.nD Cert.KernelIdeal.τ).loc Cert.KernelIdeal.main_arg6)) :=
  real_of_pre _ _ _ _ _ _ _ _ _ _ (h c)

end Cert.Finite

end
-- ==== Proof.RefValue.lean ====
/-
  The reference program computes the specification.

  Read index by index, each of the reference's products is a finite sum over the contracted coordinate:
  the layer `X·W` is `Spec.lin`, one hop `A·Y` is `Spec.hop`.  A bias broadcast over the rows reads the
  bias at the column.  The three orders, joined along the columns, read the piece that holds the column
  (`Spec.pick3`), so the joined array is `Spec.hidR`.  The clamp is the maximum with the zero constant, the
  output layer is again a finite sum, and `1 / (1 + exp (-z))` with the constant one is the logistic function:
  the result is `Spec.tail` of `Spec.hidR`.
-/
import proofs.«157651_g81776177316087_cont_9to1_m_1181_6_alg».proof.Proof.Spec
import proofs.«157651_g81776177316087_cont_9to1_m_1181_6_alg».proof.Proof.Gen.ReferenceIdeal.Read
import Idealize.ShloMosaic.Lib.IdealHost

noncomputable section

namespace Cert.RefSide

open Cert.ReferenceIdeal Cert.ReferenceIdeal.Gen Cert.ReferenceIdeal.Read Idealize.ShloMosaic Idealize.ShloMosaic.ValueIdx
open scoped BigOperators

/-! ## The products -/

/-- The layer `X·W`: entry (p, q) is the sum over k of `X (p, k) * W (k, q)`. -/
theorem lin_eq (X : FVec Ideal S10000x128 .f32) (W : FVec Ideal S128x128 .f32) :
    val_main_v0 (F := Ideal) X W = Cert.Spec.lin X W := by
  funext i
  rw [val_main_v0_apply]
  show _ = ∑ k : Fin 128, X (ix2 (i 0) k) * W (ix2 k (i 1))
  refine Finset.sum_congr rfl fun k _ => ?_
  have e1 : lidx_main_v0 i k = ix2 (i 0) k := funext fun a => by
    match a with
    | ⟨0, _⟩ => rfl
    | ⟨1, _⟩ => rfl
  have e2 : ridx_main_v0 i k = ix2 k (i 1) := funext fun a => by
    match a with
    | ⟨0, _⟩ => rfl
    | ⟨1, _⟩ => rfl
  rw [e1, e2]
  rfl

/-- One hop `A·Y`, for any `Y`: entry (p, q) is the sum over k of `A (p, k) * Y (k, q)`. The contraction's one
    axis is re-indexed by its coordinate, and the operands' indices are (p, k) and (k, q). -/
theorem hop_eq (A : FVec Ideal S10000x10000 .f32) (Y : FVec Ideal S10000x128 .f32) :
    Host.dotGeneral (F := Ideal) dot_S10000x10000_S10000x128_S10000x128_1_0_0_1_n_n none A Y = Cert.Spec.hop A Y := by
  funext i
  show Host.dotGeneral (F := Ideal) dot_S10000x10000_S10000x128_S10000x128_1_0_0_1_n_n none A Y i = ∑ k : Fin 10000, A (ix2 (i 0) k) * Y (ix2 k (i 1))
  simp only [Host.dotGeneral]
  rw [Ideal.dotGeneral_apply, ← Equiv.sum_comp (ValueIdx.contrEquiv1 dot_S10000x10000_S10000x128_S10000x128_1_0_0_1_n_n 10000 rfl rfl).symm]
  refine Finset.sum_congr rfl fun k _ => ?_
  have hk := ValueIdx.contrEquiv1_symm_val dot_S10000x10000_S10000x128_S10000x128_1_0_0_1_n_n 10000 rfl rfl k
  have el : dot_S10000x10000_S10000x128_S10000x128_1_0_0_1_n_n.lhsIdx i ((ValueIdx.contrEquiv1 dot_S10000x10000_S10000x128_S10000x128_1_0_0_1_n_n 10000 rfl rfl).symm k) = ix2 (i 0) k :=
    funext fun a => Fin.ext (by
      match a with
      | ⟨0, _⟩ => exact lhs_main_v1_0 _ _
      | ⟨1, _⟩ => exact (lhs_main_v1_1 _ _).trans hk)
  have er : dot_S10000x10000_S10000x128_S10000x128_1_0_0_1_n_n.rhsIdx i ((ValueIdx.contrEquiv1 dot_S10000x10000_S10000x128_S10000x128_1_0_0_1_n_n 10000 rfl rfl).symm k) = ix2 k (i 1) :=
    funext fun a => Fin.ext (by
      match a with
      | ⟨0, _⟩ => exact (rhs_main_v1_0 _ _).trans hk
      | ⟨1, _⟩ => exact rhs_main_v1_1 _ _)
  rw [el, er]
  rfl

/-- A bias broadcast over the rows reads the bias at the column. -/
theorem bias_eq (b : FVec Ideal S128 .f32) (i : S10000x128.Idx) :
    val_main_v3 (F := Ideal) b i = b (ix1 (i 1)) := by
  rw [val_main_v3_apply, val_main_v2_apply]
  exact congrArg b (funext fun a => by
    match a with
    | ⟨0, _⟩ => rfl)

/-! ## The three orders -/

variable (x0 : FVec Ideal S10000x128 .f32) (x1 : FVec Ideal S10000x10000 .f32)
  (x2 x4 x6 : FVec Ideal S128x128 .f32) (x3 x5 x7 : FVec Ideal S128 .f32)
  (x8 : FVec Ideal S384x64 .f32) (x9 : FVec Ideal S64 .f32)

/-- First order: the layer, then one hop. -/
theorem v1_eq : val_main_v1 (F := Ideal) x0 x1 x2 = Cert.Spec.hop x1 (Cert.Spec.lin x0 x2) :=
  (hop_eq x1 _).trans (congrArg (Cert.Spec.hop x1) (lin_eq x0 x2))

/-- Second order: the layer, then two hops. -/
theorem v7_eq : val_main_v7 (F := Ideal) x0 x1 x4 = Cert.Spec.hop x1 (Cert.Spec.hop x1 (Cert.Spec.lin x0 x4)) :=
  (hop_eq x1 _).trans (congrArg (Cert.Spec.hop x1) ((hop_eq x1 _).trans (congrArg (Cert.Spec.hop x1) (lin_eq x0 x4))))

/-- Third order: the layer, then three hops. -/
theorem v14_eq : val_main_v14 (F := Ideal) x0 x1 x6
    = Cert.Spec.hop x1 (Cert.Spec.hop x1 (Cert.Spec.hop x1 (Cert.Spec.lin x0 x6))) :=
  (hop_eq x1 _).trans (congrArg (Cert.Spec.hop x1) ((hop_eq x1 _).trans (congrArg (Cert.Spec.hop x1)
    ((hop_eq x1 _).trans (congrArg (Cert.Spec.hop x1) (lin_eq x0 x6))))))

/-- The first piece at (p, r): one hop of the layer, plus the bias at r. -/
theorem piece1_eq (p : Fin 10000) (r : Fin 128) :
    val_main_v4 (F := Ideal) x0 x1 x2 x3 (ix2 p r)
      = Cert.Spec.hop x1 (Cert.Spec.lin x0 x2) (ix2 p r) + x3 (ix1 r) := by
  rw [val_main_v4_apply, v1_eq, bias_eq]
  rfl

/-- The second piece at (p, r): two hops of the layer, plus the bias at r. -/
theorem piece2_eq (p : Fin 10000) (r : Fin 128) :
    val_main_v10 (F := Ideal) x0 x1 x4 x5 (ix2 p r)
      = Cert.Spec.hop x1 (Cert.Spec.hop x1 (Cert.Spec.lin x0 x4)) (ix2 p r) + x5 (ix1 r) := by
  rw [val_main_v10_apply, v7_eq]
  exact congrArg (_ + ·) (bias_eq x5 (ix2 p r))

/-- The third piece at (p, r): three hops of the layer, plus the bias at r. -/
theorem piece3_eq (p : Fin 10000) (r : Fin 128) :
    val_main_v17 (F := Ideal) x0 x1 x6 x7 (ix2 p r)
      = Cert.Spec.hop x1 (Cert.Spec.hop x1 (Cert.Spec.hop x1 (Cert.Spec.lin x0 x6))) (ix2 p r) + x7 (ix1 r) := by
  rw [val_main_v17_apply, v14_eq]
  exact congrArg (_ + ·) (bias_eq x7 (ix2 p r))

/-! ## The three pieces joined along the columns -/

/-- Three 128-column pieces joined along the columns, read at (p, q): the piece whose span holds q, at q less the
    columns before it. -/
theorem concat3_apply {α : Type} (P1 P2 P3 : S10000x128.Idx → α) (p : Fin 10000) (q : Fin 384) :
    concatenate S10000x384 1 [⟨S10000x128, P1⟩, ⟨S10000x128, P2⟩, ⟨S10000x128, P3⟩] concatenates_S10000x128_S10000x128_S10000x128_S10000x384_d1 (ix2 p q)
      = Cert.Spec.pick3 q (fun r => P1 (ix2 p r)) (fun r => P2 (ix2 p r)) (fun r => P3 (ix2 p r)) := by
  unfold Cert.Spec.pick3
  split
  · next h1 =>
    exact concatenate_apply_piece (t := S10000x384) 1 [⟨S10000x128, P1⟩, ⟨S10000x128, P2⟩, ⟨S10000x128, P3⟩] concatenates_S10000x128_S10000x128_S10000x128_S10000x384_d1 (ix2 p q) 0 (show 0 < 3 by omega) S10000x128 P1 rfl rfl 0 rfl
      (ix2 p ⟨q.val, h1⟩)
      (fun b hb => by
        match b with
        | ⟨0, _⟩ => rfl
        | ⟨1, _⟩ => exact absurd rfl hb)
      (Nat.zero_add _)
  · next h1 =>
    split
    · next h2 =>
      exact concatenate_apply_piece (t := S10000x384) 1 [⟨S10000x128, P1⟩, ⟨S10000x128, P2⟩, ⟨S10000x128, P3⟩] concatenates_S10000x128_S10000x128_S10000x128_S10000x384_d1 (ix2 p q) 1 (show 1 < 3 by omega) S10000x128 P2 rfl rfl 128 rfl
        (ix2 p ⟨q.val - 128, by omega⟩)
        (fun b hb => by
          match b with
          | ⟨0, _⟩ => rfl
          | ⟨1, _⟩ => exact absurd rfl hb)
        (by show 128 + (q.val - 128) = q.val; omega)
    · next h2 =>
      exact concatenate_apply_piece (t := S10000x384) 1 [⟨S10000x128, P1⟩, ⟨S10000x128, P2⟩, ⟨S10000x128, P3⟩] concatenates_S10000x128_S10000x128_S10000x128_S10000x384_d1 (ix2 p q) 2 (show 2 < 3 by omega) S10000x128 P3 rfl rfl 256 rfl
        (ix2 p ⟨q.val - 256, by omega⟩)
        (fun b hb => by
          match b with
          | ⟨0, _⟩ => rfl
          | ⟨1, _⟩ => exact absurd rfl hb)
        (by show 256 + (q.val - 256) = q.val; omega)

/-- The joined array at (p, q) is the specification's hidden layer before the clamp. -/
theorem hid_eq (p : Fin 10000) (q : Fin 384) :
    val_main_v18 (F := Ideal) x0 x1 x2 x3 x4 x5 x6 x7 (ix2 p q)
      = Cert.Spec.hidR x1 x0 x2 x4 x6 x3 x5 x7 (ix2 p q) := by
  unfold val_main_v18
  rw [concat3_apply]
  show _ = Cert.Spec.pick3 q
    (fun r => Cert.Spec.hop x1 (Cert.Spec.lin x0 x2) (ix2 p r) + x3 (ix1 r))
    (fun r => Cert.Spec.hop x1 (Cert.Spec.hop x1 (Cert.Spec.lin x0 x4)) (ix2 p r) + x5 (ix1 r))
    (fun r => Cert.Spec.hop x1 (Cert.Spec.hop x1 (Cert.Spec.hop x1 (Cert.Spec.lin x0 x6))) (ix2 p r) + x7 (ix1 r))
  rw [funext (piece1_eq x0 x1 x2 x3 p), funext (piece2_eq x0 x1 x4 x5 p), funext (piece3_eq x0 x1 x6 x7 p)]

/-! ## The clamp, the output layer, the logistic function -/

/-- The clamp at (p, q): the maximum of the hidden layer and zero. -/
theorem relu_eq (p : Fin 10000) (q : Fin 384) :
    val_main_v19 (F := Ideal) x0 x1 x2 x3 x4 x5 x6 x7 (ix2 p q)
      = max (Cert.Spec.hidR x1 x0 x2 x4 x6 x3 x5 x7 (ix2 p q)) 0 := by
  rw [val_main_v19_apply, hid_eq, val_main_call0_v0_apply, val_main_call0_cst_apply]
  show max _ (Ideal.ofBits .f32 0x00000000#32) = _
  rw [Ideal.ofBits_zero_f32]

/-- The output layer at (p, q): the clamped hidden layer's row p against column q of the output weights. -/
theorem out_eq (p : Fin 10000) (q : Fin 64) :
    val_main_v20 (F := Ideal) x0 x1 x2 x3 x4 x5 x6 x7 x8 (ix2 p q)
      = ∑ j : Fin 384, max (Cert.Spec.hidR x1 x0 x2 x4 x6 x3 x5 x7 (ix2 p j)) 0 * x8 (ix2 j q) := by
  rw [val_main_v20_apply]
  refine Finset.sum_congr rfl fun k _ => ?_
  have e1 : lidx_main_v20 (ix2 p q) k = ix2 p k := funext fun a => by
    match a with
    | ⟨0, _⟩ => rfl
    | ⟨1, _⟩ => rfl
  have e2 : ridx_main_v20 (ix2 p q) k = ix2 k q := funext fun a => by
    match a with
    | ⟨0, _⟩ => rfl
    | ⟨1, _⟩ => rfl
  rw [e1, e2, relu_eq]

/-- The output bias broadcast over the rows reads the bias at the column. -/
theorem obias_eq (p : Fin 10000) (q : Fin 64) : val_main_v22 (F := Ideal) x9 (ix2 p q) = x9 (ix1 q) := by
  rw [val_main_v22_apply, val_main_v21_apply]
  exact congrArg x9 (funext fun a => by
    match a with
    | ⟨0, _⟩ => rfl)

/-- **The reference's result is the specification's.** With the constant one, `1 / (1 + exp (-z))` is the logistic
    function of `z`, the output layer plus the output bias. -/
theorem ref_eq :
    val_main_v29 (F := Ideal) x0 x1 x2 x3 x4 x5 x6 x7 x8 x9
      = Cert.Spec.tail (Cert.Spec.hidR x1 x0 x2 x4 x6 x3 x5 x7) x8 x9 := by
  funext i
  obtain ⟨p, q, rfl⟩ : ∃ (p : Fin 10000) (q : Fin 64), i = ix2 p q := ⟨i 0, i 1, eq_ix2 i⟩
  rw [val_main_v29_apply, val_main_v28_apply, val_main_cst_0_apply, val_main_v27_apply, val_main_v26_apply,
    val_main_cst_apply, val_main_v25_apply, val_main_v24_apply, val_main_v23_apply, out_eq, obias_eq]
  simp only [Ideal.hostDivf_def, Ideal.ofBits_def, Ideal.ofBits_one_f32, Ideal.addf_def, Ideal.hostUnary_exp_def,
    Ideal.hostNegf_def, Ideal.negf_def]
  rfl

/-- The same for the composed term a run of the reference reads its result buffer at: that term is the last stage
    (the generated `val_main_v29_eq`), which is the specification's. -/
theorem ref_run_eq :
    Host.divf (F := Ideal) (broadcastInDim S10000x64 ![] bcast_S_S10000x64 (constant (F := Ideal) S_ .f32 0x3F800000#32)) (addf (broadcastInDim S10000x64 ![] bcast_S_S10000x64 (constant (F := Ideal) S_ .f32 0x3F800000#32)) (Host.exp (Host.negf (addf (Host.dotGeneral dot_S10000x384_S384x64_S10000x64_1_0_0_1_n_n none (maximumf (concatenate S10000x384 1 [⟨S10000x128, (addf (Host.dotGeneral dot_S10000x10000_S10000x128_S10000x128_1_0_0_1_n_n none (x1) (Host.dotGeneral dot_S10000x128_S128x128_S10000x128_1_0_0_1_n_n none (x0) (x2))) (broadcastInDim S10000x128 ![0, 1] bcast_S1x128_S10000x128_0_1 (broadcastInDim S1x128 ![1] bcast_S128_S1x128_1 (x3))))⟩, ⟨S10000x128, (addf (Host.dotGeneral dot_S10000x10000_S10000x128_S10000x128_1_0_0_1_n_n none (x1) (Host.dotGeneral dot_S10000x10000_S10000x128_S10000x128_1_0_0_1_n_n none (x1) (Host.dotGeneral dot_S10000x128_S128x128_S10000x128_1_0_0_1_n_n none (x0) (x4)))) (broadcastInDim S10000x128 ![0, 1] bcast_S1x128_S10000x128_0_1 (broadcastInDim S1x128 ![1] bcast_S128_S1x128_1 (x5))))⟩, ⟨S10000x128, (addf (Host.dotGeneral dot_S10000x10000_S10000x128_S10000x128_1_0_0_1_n_n none (x1) (Host.dotGeneral dot_S10000x10000_S10000x128_S10000x128_1_0_0_1_n_n none (x1) (Host.dotGeneral dot_S10000x10000_S10000x128_S10000x128_1_0_0_1_n_n none (x1) (Host.dotGeneral dot_S10000x128_S128x128_S10000x128_1_0_0_1_n_n none (x0) (x6))))) (broadcastInDim S10000x128 ![0, 1] bcast_S1x128_S10000x128_0_1 (broadcastInDim S1x128 ![1] bcast_S128_S1x128_1 (x7))))⟩] concatenates_S10000x128_S10000x128_S10000x128_S10000x384_d1) (broadcastInDim S10000x384 ![] bcast_S_S10000x384 (constant (F := Ideal) S_ .f32 0x00000000#32))) (x8)) (broadcastInDim S10000x64 ![0, 1] bcast_S1x64_S10000x64_0_1 (broadcastInDim S1x64 ![1] bcast_S64_S1x64_1 (x9)))))))
      = Cert.Spec.tail (Cert.Spec.hidR x1 x0 x2 x4 x6 x3 x5 x7) x8 x9 :=
  (val_main_v29_eq (F := Ideal) x0 x1 x2 x3 x4 x5 x6 x7 x8 x9).trans (ref_eq x0 x1 x2 x4 x6 x3 x5 x7 x8 x9)

end Cert.RefSide

end
-- ==== Proof.KI.Payload.lean ====
/-
  The three kernel bodies' arithmetic read at one element of the block a grid point works on.

  A body multiplies a 400-row block of the adjacency by a resident 10000×128 matrix; at element (p, q)
  the product into a zero accumulator is the sum over k of the block's (p, k) times the matrix's (k, q),
  which is the hop's entry in row P0 + p when the block is rows P0 .. P0 + 399 of the adjacency.
-/
import proofs.«157651_g81776177316087_cont_9to1_m_1181_6_alg».proof.Proof.Spec
import proofs.«157651_g81776177316087_cont_9to1_m_1181_6_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx Idealize.SL.Sem
open Cert.KernelIdeal Cert.KernelIdeal.Gen Cert.Spec
open scoped BigOperators

namespace Cert.KernelIdeal.Payload

/-! ## The 400×10000 by 10000×128 product at an element -/

theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- Into the zero accumulator, element (p, q) of the product is the sum over k of left (p, k) times right (k, q). -/
theorem mmA_apply (l : FVec Ideal S400x10000 .f32) (r : FVec Ideal S10000x128 .f32) (p : Fin 400) (q : Fin 128) :
    matmul dot_S400x10000_S10000x128_S400x128_1_0_0_1_n_n none l r
        (constant (F := Ideal) S400x128 .f32 0x00000000#32) (ix2 p q)
      = ∑ k : Fin 10000, l (ix2 p k) * r (ix2 k q) := by
  refine (Ideal.matmul_constant_zero_apply dot_S400x10000_S10000x128_S400x128_1_0_0_1_n_n none l r (ix2 p q)).trans ?_
  rw [← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q)
      ((ValueIdx.contrEquiv1 dot_S400x10000_S10000x128_S400x128_1_0_0_1_n_n 10000 rfl rfl).symm k) = ix2 p k :=
    funext fun a => Fin.ext (by
      match a with
      | ⟨0, _⟩ => exact lhsA_0 _ _
      | ⟨1, _⟩ => exact (lhsA_1 _ _).trans hk)
  have er : dot_S400x10000_S10000x128_S400x128_1_0_0_1_n_n.rhsIdx (ix2 p q)
      ((ValueIdx.contrEquiv1 dot_S400x10000_S10000x128_S400x128_1_0_0_1_n_n 10000 rfl rfl).symm k) = ix2 k q :=
    funext fun a => Fin.ext (by
      match a with
      | ⟨0, _⟩ => exact (rhsA_0 _ _).trans hk
      | ⟨1, _⟩ => exact rhsA_1 _ _)
  rw [el, er]

/-- The hop's entry in row P0 + p, from a block holding rows P0 .. P0 + 399 of the adjacency. -/
theorem hop_rows (A : Mx 10000 10000) (Y : Mx 10000 128) (P0 : Nat) (hP0 : P0 + 400 ≤ 10000)
    (l : FVec Ideal S400x10000 .f32) (r : FVec Ideal S10000x128 .f32)
    (h0 : ∀ (p : Fin 400) (k : Fin 10000), l (ix2 p k) = A (ix2 ⟨P0 + p.val, by omega⟩ k))
    (h1 : ∀ i, r i = Y i) (p : Fin 400) (q : Fin 128) :
    ∑ k : Fin 10000, l (ix2 p k) * r (ix2 k q) = hop A Y (ix2 ⟨P0 + p.val, by omega⟩ q) := by
  show _ = ∑ k : Fin 10000, A (ix2 ⟨P0 + p.val, _⟩ k) * Y (ix2 k q)
  exact Finset.sum_congr rfl fun k _ => by rw [h0, h1]

/-! ## The first two bodies -/

theorem pay0_rows (A : Mx 10000 10000) (Y : Mx 10000 128) (P0 : Nat) (hP0 : P0 + 400 ≤ 10000)
    (v0 : Vec Ideal S400x10000 .f32) (v1 : Vec Ideal S10000x128 .f32)
    (h0 : ∀ (p : Fin 400) (r : Fin 10000), v0 (ix2 p r) = A (ix2 ⟨P0 + p.val, by omega⟩ r))
    (h1 : ∀ i, v1 i = Y i) (p : Fin 400) (q : Fin 128) :
    k0_pay1 (F := Ideal) v0 v1 (ix2 p q) = hop A Y (ix2 ⟨P0 + p.val, by omega⟩ q) := by
  unfold k0_pay1
  exact (mmA_apply v0 v1 p q).trans (hop_rows A Y P0 hP0 v0 v1 h0 h1 p q)

theorem pay1_rows (A : Mx 10000 10000) (Y : Mx 10000 128) (P0 : Nat) (hP0 : P0 + 400 ≤ 10000)
    (v0 : Vec Ideal S400x10000 .f32) (v1 : Vec Ideal S10000x128 .f32)
    (h0 : ∀ (p : Fin 400) (r : Fin 10000), v0 (ix2 p r) = A (ix2 ⟨P0 + p.val, by omega⟩ r))
    (h1 : ∀ i, v1 i = Y i) (p : Fin 400) (q : Fin 128) :
    k1_pay1 (F := Ideal) v0 v1 (ix2 p q) = hop A Y (ix2 ⟨P0 + p.val, by omega⟩ q) := by
  unfold k1_pay1
  rw [shapeCast_self]
  exact (mmA_apply v0 v1 p q).trans (hop_rows A Y P0 hP0 v0 v1 h0 h1 p q)

end Cert.KernelIdeal.Payload

end
-- ==== Proof.KI.Value0.lean ====
/-
  The first hop's result as one matrix: each of the 25 points writes back 400 rows of `A·X`, and the 25 blocks fill the
  10000×128 result.
-/
import proofs.«157651_g81776177316087_cont_9to1_m_1181_6_alg».proof.Proof.KI.Hop0
import proofs.«157651_g81776177316087_cont_9to1_m_1181_6_alg».proof.Proof.Spec
import proofs.«157651_g81776177316087_cont_9to1_m_1181_6_alg».proof.Proof.KI.Payload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Value0

open Cert.KernelIdeal Cert.KernelIdeal.Gen Cert.KernelIdeal.Hop0 Cert.Spec

open Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the adjacency's and the result's block row is the point, the feature
    matrix is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `A·X`, with `A` and `X` the arrays as the call finds them. -/
theorem flushed0 (c : Dev nD) (t : Fin cfg0.N) :
    (dat0 V c).flushed 2 t = ((cfg0.win 2).blk t).view.read (Elt Ideal) (hop (V c main_arg1) (V c main_arg0)) := by
  show (cfg0.win 2).cut (grid0.coords t) ((dat0 V c).after 2 t) = _
  rw [after0_2]
  unfold res0
  rw [View.canon_unit_zero hz]
  simp only [View.ld_unit_zero (S := S400x10000) hz, View.ld_unit_zero (S := S10000x128) hz]
  obtain ⟨e0, e1, e2, e3, e4, e5⟩ := idx0 t
  have ht : t.val < 25 := lt_of_lt_of_eq t.isLt N_0
  funext j
  obtain ⟨p, q, rfl⟩ : ∃ (p : Fin 400) (q : Fin 128), j = ix2 p q := ⟨j 0, j 1, eq_ix2 j⟩
  rw [View.read_apply]
  refine (pay0_rows (V c main_arg1) (V c main_arg0) (400 * t.val) (by omega) (blk0 V c 0 t) (blk0 V c 1 t) ?_ ?_ p q).trans ?_
  · intro p r
    show V c main_arg1 (((cfg0.win 0).blk t).view.emb (ix2 p r)) = _
    refine congrArg (V c main_arg1) (funext fun a => Fin.ext ?_)
    match a with
    | ⟨0, _⟩ => show win0_0.index t (0 : Fin 2) * 400 + 1 * p.val = 400 * t.val + p.val; omega
    | ⟨1, _⟩ => show win0_0.index t (1 : Fin 2) * 10000 + 1 * r.val = r.val; omega
  · intro i
    show V c main_arg0 (((cfg0.win 1).blk t).view.emb i) = _
    refine congrArg (V c main_arg0) (funext fun a => Fin.ext ?_)
    match a with
    | ⟨0, _⟩ => show win0_1.index t (0 : Fin 2) * 10000 + 1 * (i 0).val = (i 0).val; omega
    | ⟨1, _⟩ => show win0_1.index t (1 : Fin 2) * 128 + 1 * (i 1).val = (i 1).val; omega
  · refine congrArg (hop (V c main_arg1) (V c main_arg0)) (funext fun a => Fin.ext ?_)
    match a with
    | ⟨0, _⟩ => show 400 * t.val + p.val = win0_2.index t (0 : Fin 2) * 400 + 1 * p.val; omega
    | ⟨1, _⟩ => show q.val = win0_2.index t (1 : Fin 2) * 128 + 1 * q.val; omega

/-- An index of the result is in point `t`'s block iff each coordinate is in the block's range. -/
theorem mem_blk0 (t : Fin cfg0.N) (i : S10000x128.Idx) :
    i ∈ ((cfg0.win 2).blk t).view.set ↔ ∀ a : Fin 2, win0_2.index t a * S400x128.size a ≤ (i a).val ∧ (i a).val < win0_2.index t a * S400x128.size a + S400x128.size a := by
  show i ∈ ((View.whole main_v4).slice (win0_2.rect t)).set ↔ _
  rw [View.set_slice_whole, Rect.mem_set_unit]
  exact Iff.rfl

/-- The 25 blocks of 400 rows fill the result, so after the call it holds `A·X`. -/
theorem final0 (c : Dev nD) : (dat0 V c).arrAt 2 cfg0.N = hop (V c main_arg1) (V c main_arg0) :=
  (dat0 V c).arrAt_eq_of_cover 2 _ (fun t _ => flushed0 V c t) fun i => by
    have hi0 : (i 0).val < 10000 := idx2_lt0 i
    have hi1 : (i 1).val < 128 := idx2_lt1 i
    have hN : cfg0.N = 25 := N_0
    refine ⟨⟨(i 0).val / 400, by rw [hN]; omega⟩, flush0_2 _, ?_⟩
    rw [mem_blk0]
    obtain ⟨e0, e1, e2, e3, e4, e5⟩ := idx0 ⟨(i 0).val / 400, by rw [hN]; omega⟩
    intro a
    match a with
    | ⟨0, _⟩ => show win0_2.index _ (0 : Fin 2) * 400 ≤ (i 0).val ∧ (i 0).val < win0_2.index _ (0 : Fin 2) * 400 + 400; rw [e4]; show (i 0).val / 400 * 400 ≤ _ ∧ _ < (i 0).val / 400 * 400 + 400; omega
    | ⟨1, _⟩ => show win0_2.index _ (1 : Fin 2) * 128 ≤ (i 1).val ∧ (i 1).val < win0_2.index _ (1 : Fin 2) * 128 + 128; rw [e5]; omega

end Cert.KernelIdeal.Value0

end
-- ==== Proof.KI.Value1.lean ====
/-
  The second hop's result as one matrix: each of the 25 points writes back 400 rows of `A·Y₁`, with `Y₁` the array the
  call finds in the first hop's result buffer, and the 25 blocks fill the 10000×128 result.
-/
import proofs.«157651_g81776177316087_cont_9to1_m_1181_6_alg».proof.Proof.KI.Hop1
import proofs.«157651_g81776177316087_cont_9to1_m_1181_6_alg».proof.Proof.Spec
import proofs.«157651_g81776177316087_cont_9to1_m_1181_6_alg».proof.Proof.KI.Payload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Value1

open Cert.KernelIdeal Cert.KernelIdeal.Gen Cert.KernelIdeal.Hop1 Cert.Spec

open Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the adjacency's and the result's block row is the point, the first-hop
    result is one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `A·Y₁`, with `A` and `Y₁` the arrays as the call finds them. -/
theorem flushed1 (c : Dev nD) (t : Fin cfg1.N) :
    (dat1 V c).flushed 2 t = ((cfg1.win 2).blk t).view.read (Elt Ideal) (hop (V c main_arg1) (V c main_v4)) := by
  show (cfg1.win 2).cut (grid1.coords t) ((dat1 V c).after 2 t) = _
  rw [after1_2]
  unfold res1
  rw [View.canon_unit_zero hz]
  simp only [View.ld_unit_zero (S := S400x10000) hz, View.ld_unit_zero (S := S10000x128) hz]
  obtain ⟨e0, e1, e2, e3, e4, e5⟩ := idx1 t
  have ht : t.val < 25 := lt_of_lt_of_eq t.isLt N_1
  funext j
  obtain ⟨p, q, rfl⟩ : ∃ (p : Fin 400) (q : Fin 128), j = ix2 p q := ⟨j 0, j 1, eq_ix2 j⟩
  rw [View.read_apply]
  refine (pay1_rows (V c main_arg1) (V c main_v4) (400 * t.val) (by omega) (blk1 V c 0 t) (blk1 V c 1 t) ?_ ?_ p q).trans ?_
  · intro p r
    show V c main_arg1 (((cfg1.win 0).blk t).view.emb (ix2 p r)) = _
    refine congrArg (V c main_arg1) (funext fun a => Fin.ext ?_)
    match a with
    | ⟨0, _⟩ => show win1_0.index t (0 : Fin 2) * 400 + 1 * p.val = 400 * t.val + p.val; omega
    | ⟨1, _⟩ => show win1_0.index t (1 : Fin 2) * 10000 + 1 * r.val = r.val; omega
  · intro i
    show V c main_v4 (((cfg1.win 1).blk t).view.emb i) = _
    refine congrArg (V c main_v4) (funext fun a => Fin.ext ?_)
    match a with
    | ⟨0, _⟩ => show win1_1.index t (0 : Fin 2) * 10000 + 1 * (i 0).val = (i 0).val; omega
    | ⟨1, _⟩ => show win1_1.index t (1 : Fin 2) * 128 + 1 * (i 1).val = (i 1).val; omega
  · refine congrArg (hop (V c main_arg1) (V c main_v4)) (funext fun a => Fin.ext ?_)
    match a with
    | ⟨0, _⟩ => show 400 * t.val + p.val = win1_2.index t (0 : Fin 2) * 400 + 1 * p.val; omega
    | ⟨1, _⟩ => show q.val = win1_2.index t (1 : Fin 2) * 128 + 1 * q.val; omega

/-- An index of the result is in point `t`'s block iff each coordinate is in the block's range. -/
theorem mem_blk1 (t : Fin cfg1.N) (i : S10000x128.Idx) :
    i ∈ ((cfg1.win 2).blk t).view.set ↔ ∀ a : Fin 2, win1_2.index t a * S400x128.size a ≤ (i a).val ∧ (i a).val < win1_2.index t a * S400x128.size a + S400x128.size a := by
  show i ∈ ((View.whole main_v5).slice (win1_2.rect t)).set ↔ _
  rw [View.set_slice_whole, Rect.mem_set_unit]
  exact Iff.rfl

/-- The 25 blocks of 400 rows fill the result, so after the call it holds `A·Y₁`. -/
theorem final1 (c : Dev nD) : (dat1 V c).arrAt 2 cfg1.N = hop (V c main_arg1) (V c main_v4) :=
  (dat1 V c).arrAt_eq_of_cover 2 _ (fun t _ => flushed1 V c t) fun i => by
    have hi0 : (i 0).val < 10000 := idx2_lt0 i
    have hi1 : (i 1).val < 128 := idx2_lt1 i
    have hN : cfg1.N = 25 := N_1
    refine ⟨⟨(i 0).val / 400, by rw [hN]; omega⟩, flush1_2 _, ?_⟩
    rw [mem_blk1]
    obtain ⟨e0, e1, e2, e3, e4, e5⟩ := idx1 ⟨(i 0).val / 400, by rw [hN]; omega⟩
    intro a
    match a with
    | ⟨0, _⟩ => show win1_2.index _ (0 : Fin 2) * 400 ≤ (i 0).val ∧ (i 0).val < win1_2.index _ (0 : Fin 2) * 400 + 400; rw [e4]; show (i 0).val / 400 * 400 ≤ _ ∧ _ < (i 0).val / 400 * 400 + 400; omega
    | ⟨1, _⟩ => show win1_2.index _ (1 : Fin 2) * 128 ≤ (i 1).val ∧ (i 1).val < win1_2.index _ (1 : Fin 2) * 128 + 128; rw [e5]; omega

end Cert.KernelIdeal.Value1

end
-- ==== Proof.KI.PayloadLast.lean ====
/-
  The last kernel body's arithmetic read at one element of the block a grid point works on.

  With Y1, Y2 the first two hop results and P0 the first row of the point's 400-row block, the body forms the
  third hop's block (the adjacency's rows against Y2), lays rows P0 .. P0 + 399 of Y1 and Y2 side by side and
  multiplies them by the block-diagonal matrix, multiplies the third hop's block by W3, lays the two products
  side by side (256 and 128 columns), adds the joined bias to every row, clamps at zero, multiplies by the
  output weights, adds the output bias to every row and applies the logistic function.  Element (p, l) of the
  result is therefore the specification's tail of the hidden layer at row P0 + p, column l.
-/
import proofs.«157651_g81776177316087_cont_9to1_m_1181_6_alg».proof.Proof.KI.Payload
import proofs.«157651_g81776177316087_cont_9to1_m_1181_6_alg».proof.Proof.Spec
import proofs.«157651_g81776177316087_cont_9to1_m_1181_6_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx Idealize.SL.Sem
open Cert.KernelIdeal Cert.KernelIdeal.Gen Cert.Spec
open scoped BigOperators

namespace Cert.KernelIdeal.Payload

/-! ## The hidden layer with the two resident hop results as parameters -/

/-- The kernel's hidden layer before the clamp, as a function of the first two hop results. -/
def hidOf (A : Mx 10000 10000) (Y1 Y2 : Mx 10000 128) (W1 W2 W3 : Mx 128 128) (b1 b2 b3 : Vx 128) :
    Mx 10000 384 := fun i =>
  (if h : (i 1).val < 256 then
      ∑ k : Fin 256, pair Y1 Y2 (ix2 (i 0) k) * diag2 W1 W2 (ix2 k ⟨(i 1).val, h⟩)
    else
      ∑ k : Fin 128, hop A Y2 (ix2 (i 0) k) * W3 (ix2 k ⟨(i 1).val - 256, by have := idx2_lt1 i; omega⟩))
  + bias3 b1 b2 b3 (ix1 (i 1))

theorem hidK_eq_hidOf (A : Mx 10000 10000) (X : Mx 10000 128) (W1 W2 W3 : Mx 128 128) (b1 b2 b3 : Vx 128) :
    hidK A X W1 W2 W3 b1 b2 b3 = hidOf A (hop A X) (hop A (hop A X)) W1 W2 W3 b1 b2 b3 := rfl

/-! ## The 400×256 by 256×256 product at an element -/

theorem lhsB_0 (i : S400x256.Idx) (q : dot_S400x256_S256x256_S400x256_1_0_0_1_n_n.contr.Idx) :
    (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide),
    dif_pos (show (0 : Fin S400x256.rank) ∈ dot_S400x256_S256x256_S400x256_1_0_0_1_n_n.lhsNonContracting by decide)]
  rfl
theorem lhsB_1 (i : S400x256.Idx) (q : dot_S400x256_S256x256_S400x256_1_0_0_1_n_n.contr.Idx) :
    (dot_S400x256_S256x256_S400x256_1_0_0_1_n_n.lhsIdx i q 1).val = (q ⟨0, by decide⟩).val :=
  dot_S400x256_S256x256_S400x256_1_0_0_1_n_n.lhsIdx_val_of_single rfl i q
theorem rhsB_0 (i : S400x256.Idx) (q : dot_S400x256_S256x256_S400x256_1_0_0_1_n_n.contr.Idx) :
    (dot_S400x256_S256x256_S400x256_1_0_0_1_n_n.rhsIdx i q 0).val = (q ⟨0, by decide⟩).val :=
  dot_S400x256_S256x256_S400x256_1_0_0_1_n_n.rhsIdx_val_of_single rfl i q
theorem rhsB_1 (i : S400x256.Idx) (q : dot_S400x256_S256x256_S400x256_1_0_0_1_n_n.contr.Idx) :
    (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide),
    dif_pos (show (1 : Fin S256x256.rank) ∈ dot_S400x256_S256x256_S400x256_1_0_0_1_n_n.rhsNonContracting by decide)]
  rfl

/-- Into the zero accumulator, element (p, c) is the sum over k of left (p, k) times right (k, c). -/
theorem mmB_apply (l : FVec Ideal S400x256 .f32) (r : FVec Ideal S256x256 .f32) (p : Fin 400) (c : Fin 256) :
    matmul dot_S400x256_S256x256_S400x256_1_0_0_1_n_n none l r
        (constant (F := Ideal) S400x256 .f32 0x00000000#32) (ix2 p c)
      = ∑ k : Fin 256, l (ix2 p k) * r (ix2 k c) := by
  refine (Ideal.matmul_constant_zero_apply dot_S400x256_S256x256_S400x256_1_0_0_1_n_n none l r (ix2 p c)).trans ?_
  rw [← Equiv.sum_comp (ValueIdx.contrEquiv1 dot_S400x256_S256x256_S400x256_1_0_0_1_n_n 256 rfl rfl).symm]
  refine Finset.sum_congr rfl fun k _ => ?_
  have hk := ValueIdx.contrEquiv1_symm_val dot_S400x256_S256x256_S400x256_1_0_0_1_n_n 256 rfl rfl k
  have el : dot_S400x256_S256x256_S400x256_1_0_0_1_n_n.lhsIdx (ix2 p c)
      ((ValueIdx.contrEquiv1 dot_S400x256_S256x256_S400x256_1_0_0_1_n_n 256 rfl rfl).symm k) = ix2 p k :=
    funext fun a => Fin.ext (by
      match a with
      | ⟨0, _⟩ => exact lhsB_0 _ _
      | ⟨1, _⟩ => exact (lhsB_1 _ _).trans hk)
  have er : dot_S400x256_S256x256_S400x256_1_0_0_1_n_n.rhsIdx (ix2 p c)
      ((ValueIdx.contrEquiv1 dot_S400x256_S256x256_S400x256_1_0_0_1_n_n 256 rfl rfl).symm k) = ix2 k c :=
    funext fun a => Fin.ext (by
      match a with
      | ⟨0, _⟩ => exact (rhsB_0 _ _).trans hk
      | ⟨1, _⟩ => exact rhsB_1 _ _)
  rw [el, er]

/-! ## The 400×128 by 128×128 product at an element -/

theorem lhsC_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
theorem lhsC_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsC_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsC_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- Into the zero accumulator, element (p, c) is the sum over k of left (p, k) times right (k, c). -/
theorem mmC_apply (l : FVec Ideal S400x128 .f32) (r : FVec Ideal S128x128 .f32) (p : Fin 400) (c : Fin 128) :
    matmul dot_S400x128_S128x128_S400x128_1_0_0_1_n_n none l r
        (constant (F := Ideal) S400x128 .f32 0x00000000#32) (ix2 p c)
      = ∑ k : Fin 128, l (ix2 p k) * r (ix2 k c) := by
  refine (Ideal.matmul_constant_zero_apply dot_S400x128_S128x128_S400x128_1_0_0_1_n_n none l r (ix2 p c)).trans ?_
  rw [← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p c)
      ((ValueIdx.contrEquiv1 dot_S400x128_S128x128_S400x128_1_0_0_1_n_n 128 rfl rfl).symm k) = ix2 p k :=
    funext fun a => Fin.ext (by
      match a with
      | ⟨0, _⟩ => exact lhsC_0 _ _
      | ⟨1, _⟩ => exact (lhsC_1 _ _).trans hk)
  have er : dot_S400x128_S128x128_S400x128_1_0_0_1_n_n.rhsIdx (ix2 p c)
      ((ValueIdx.contrEquiv1 dot_S400x128_S128x128_S400x128_1_0_0_1_n_n 128 rfl rfl).symm k) = ix2 k c :=
    funext fun a => Fin.ext (by
      match a with
      | ⟨0, _⟩ => exact (rhsC_0 _ _).trans hk
      | ⟨1, _⟩ => exact rhsC_1 _ _)
  rw [el, er]

/-! ## The 400×384 by 384×64 product at an element -/

theorem lhsD_0 (i : S400x64.Idx) (q : dot_S400x384_S384x64_S400x64_1_0_0_1_n_n.contr.Idx) :
    (dot_S400x384_S384x64_S400x64_1_0_0_1_n_n.lhsIdx i q 0).val = (i 0).val := by
  unfold DotDims.lhsIdx
  rw [dif_neg (show ¬(0 : Fin S400x384.rank) ∈ dot_S400x384_S384x64_S400x64_1_0_0_1_n_n.lhsBatch by decide),
    dif_pos (show (0 : Fin S400x384.rank) ∈ dot_S400x384_S384x64_S400x64_1_0_0_1_n_n.lhsNonContracting by decide)]
  rfl
theorem lhsD_1 (i : S400x64.Idx) (q : dot_S400x384_S384x64_S400x64_1_0_0_1_n_n.contr.Idx) :
    (dot_S400x384_S384x64_S400x64_1_0_0_1_n_n.lhsIdx i q 1).val = (q ⟨0, by decide⟩).val :=
  dot_S400x384_S384x64_S400x64_1_0_0_1_n_n.lhsIdx_val_of_single rfl i q
theorem rhsD_0 (i : S400x64.Idx) (q : dot_S400x384_S384x64_S400x64_1_0_0_1_n_n.contr.Idx) :
    (dot_S400x384_S384x64_S400x64_1_0_0_1_n_n.rhsIdx i q 0).val = (q ⟨0, by decide⟩).val :=
  dot_S400x384_S384x64_S400x64_1_0_0_1_n_n.rhsIdx_val_of_single rfl i q
theorem rhsD_1 (i : S400x64.Idx) (q : dot_S400x384_S384x64_S400x64_1_0_0_1_n_n.contr.Idx) :
    (dot_S400x384_S384x64_S400x64_1_0_0_1_n_n.rhsIdx i q 1).val = (i 1).val := by
  unfold DotDims.rhsIdx
  rw [dif_neg (show ¬(1 : Fin S384x64.rank) ∈ dot_S400x384_S384x64_S400x64_1_0_0_1_n_n.rhsBatch by decide),
    dif_pos (show (1 : Fin S384x64.rank) ∈ dot_S400x384_S384x64_S400x64_1_0_0_1_n_n.rhsNonContracting by decide)]
  rfl

/-- Into the zero accumulator, element (p, c) is the sum over k of left (p, k) times right (k, c). -/
theorem mmD_apply (l : FVec Ideal S400x384 .f32) (r : FVec Ideal S384x64 .f32) (p : Fin 400) (c : Fin 64) :
    matmul dot_S400x384_S384x64_S400x64_1_0_0_1_n_n none l r
        (constant (F := Ideal) S400x64 .f32 0x00000000#32) (ix2 p c)
      = ∑ k : Fin 384, l (ix2 p k) * r (ix2 k c) := by
  refine (Ideal.matmul_constant_zero_apply dot_S400x384_S384x64_S400x64_1_0_0_1_n_n none l r (ix2 p c)).trans ?_
  rw [← Equiv.sum_comp (ValueIdx.contrEquiv1 dot_S400x384_S384x64_S400x64_1_0_0_1_n_n 384 rfl rfl).symm]
  refine Finset.sum_congr rfl fun k _ => ?_
  have hk := ValueIdx.contrEquiv1_symm_val dot_S400x384_S384x64_S400x64_1_0_0_1_n_n 384 rfl rfl k
  have el : dot_S400x384_S384x64_S400x64_1_0_0_1_n_n.lhsIdx (ix2 p c)
      ((ValueIdx.contrEquiv1 dot_S400x384_S384x64_S400x64_1_0_0_1_n_n 384 rfl rfl).symm k) = ix2 p k :=
    funext fun a => Fin.ext (by
      match a with
      | ⟨0, _⟩ => exact lhsD_0 _ _
      | ⟨1, _⟩ => exact (lhsD_1 _ _).trans hk)
  have er : dot_S400x384_S384x64_S400x64_1_0_0_1_n_n.rhsIdx (ix2 p c)
      ((ValueIdx.contrEquiv1 dot_S400x384_S384x64_S400x64_1_0_0_1_n_n 384 rfl rfl).symm k) = ix2 k c :=
    funext fun a => Fin.ext (by
      match a with
      | ⟨0, _⟩ => exact (rhsD_0 _ _).trans hk
      | ⟨1, _⟩ => exact rhsD_1 _ _)
  rw [el, er]

/-! ## The two concatenations along the columns at an element -/

theorem catY_lo (x1 x2 : FVec Ideal S400x128 .f32) (p : Fin 400) (k : Fin 256) (h : k.val < 128) :
    concatenate S400x256 1 [⟨S400x128, x1⟩, ⟨S400x128, x2⟩] concatenates_S400x128_S400x128_S400x256_d1 (ix2 p k)
      = x1 (ix2 p ⟨k.val, h⟩) :=
  concatenate_pair_apply_left (1 : Fin S400x256.rank) x1 x2 concatenates_S400x128_S400x128_S400x256_d1
    (ix2 p k) rfl (ix2 p ⟨k.val, h⟩) (fun b => match b with
      | ⟨0, _⟩ => rfl
      | ⟨1, _⟩ => rfl)

theorem catY_hi (x1 x2 : FVec Ideal S400x128 .f32) (p : Fin 400) (k : Fin 256) (h : ¬ k.val < 128) :
    concatenate S400x256 1 [⟨S400x128, x1⟩, ⟨S400x128, x2⟩] concatenates_S400x128_S400x128_S400x256_d1 (ix2 p k)
      = x2 (ix2 p ⟨k.val - 128, by omega⟩) :=
  concatenate_pair_apply_right (1 : Fin S400x256.rank) x1 x2 concatenates_S400x128_S400x128_S400x256_d1
    (ix2 p k) rfl rfl (ix2 p ⟨k.val - 128, by omega⟩) (fun b => match b with
      | ⟨0, _⟩ => fun _ => rfl
      | ⟨1, _⟩ => fun hne => absurd rfl hne)
    (by show k.val - 128 + 128 = k.val; omega)

theorem catH_lo (x1 : FVec Ideal S400x256 .f32) (x2 : FVec Ideal S400x128 .f32) (p : Fin 400) (j : Fin 384)
    (h : j.val < 256) :
    concatenate S400x384 1 [⟨S400x256, x1⟩, ⟨S400x128, x2⟩] concatenates_S400x256_S400x128_S400x384_d1 (ix2 p j)
      = x1 (ix2 p ⟨j.val, h⟩) :=
  concatenate_pair_apply_left (1 : Fin S400x384.rank) x1 x2 concatenates_S400x256_S400x128_S400x384_d1
    (ix2 p j) rfl (ix2 p ⟨j.val, h⟩) (fun b => match b with
      | ⟨0, _⟩ => rfl
      | ⟨1, _⟩ => rfl)

theorem catH_hi (x1 : FVec Ideal S400x256 .f32) (x2 : FVec Ideal S400x128 .f32) (p : Fin 400) (j : Fin 384)
    (h : ¬ j.val < 256) :
    concatenate S400x384 1 [⟨S400x256, x1⟩, ⟨S400x128, x2⟩] concatenates_S400x256_S400x128_S400x384_d1 (ix2 p j)
      = x2 (ix2 p ⟨j.val - 256, by omega⟩) :=
  concatenate_pair_apply_right (1 : Fin S400x384.rank) x1 x2 concatenates_S400x256_S400x128_S400x384_d1
    (ix2 p j) rfl rfl (ix2 p ⟨j.val - 256, by omega⟩) (fun b => match b with
      | ⟨0, _⟩ => fun _ => rfl
      | ⟨1, _⟩ => fun hne => absurd rfl hne)
    (by show j.val - 256 + 256 = j.val; omega)

/-- Rows P0 .. P0 + 399 of Y1 and of Y2 laid side by side are those rows of the pair. -/
theorem cat_pair (Y1 Y2 : Mx 10000 128) (P0 : Nat) (hP0 : P0 + 400 ≤ 10000)
    (x1 x2 : FVec Ideal S400x128 .f32)
    (h1 : ∀ (p : Fin 400) (k : Fin 128), x1 (ix2 p k) = Y1 (ix2 ⟨P0 + p.val, by omega⟩ k))
    (h2 : ∀ (p : Fin 400) (k : Fin 128), x2 (ix2 p k) = Y2 (ix2 ⟨P0 + p.val, by omega⟩ k))
    (p : Fin 400) (k : Fin 256) :
    concatenate S400x256 1 [⟨S400x128, x1⟩, ⟨S400x128, x2⟩] concatenates_S400x128_S400x128_S400x256_d1 (ix2 p k)
      = pair Y1 Y2 (ix2 ⟨P0 + p.val, by omega⟩ k) := by
  show _ = (if h : k.val < 128 then Y1 (ix2 ⟨P0 + p.val, _⟩ ⟨k.val, h⟩)
    else Y2 (ix2 ⟨P0 + p.val, _⟩ ⟨k.val - 128, _⟩))
  by_cases h : k.val < 128
  · rw [dif_pos h, catY_lo x1 x2 p k h, h1]
  · rw [dif_neg h, catY_hi x1 x2 p k h, h2]

/-! ## The last body -/

/-- The body's hidden block before the clamp, as a vector expression over what the body loads. -/
def hidVec (v0 : FVec Ideal S400x10000 .f32) (v1 : FVec Ideal S10000x128 .f32) (v6 v8 : FVec Ideal S400x128 .f32)
    (v11 : FVec Ideal S256x256 .f32) (v14 : FVec Ideal S128x128 .f32) (v17 : FVec Ideal S1x384 .f32) :
    FVec Ideal S400x384 .f32 :=
  addf
    (concatenate S400x384 1
      [⟨S400x256, matmul dot_S400x256_S256x256_S400x256_1_0_0_1_n_n none
          (concatenate S400x256 1
            [⟨S400x128, shapeCast S400x128 v8 shapeCasts_S400x128_S400x128⟩,
             ⟨S400x128, shapeCast S400x128 v6 shapeCasts_S400x128_S400x128⟩]
            concatenates_S400x128_S400x128_S400x256_d1)
          (shapeCast S256x256 v11 shapeCasts_S256x256_S256x256)
          (constant (F := Ideal) S400x256 .f32 0x00000000#32)⟩,
       ⟨S400x128, matmul dot_S400x128_S128x128_S400x128_1_0_0_1_n_n none
          (k1_pay1 (F := Ideal) v0 v1) v14 (constant (F := Ideal) S400x128 .f32 0x00000000#32)⟩]
      concatenates_S400x256_S400x128_S400x384_d1)
    (broadcastTo S400x384 (shapeCast S1x384 v17 shapeCasts_S1x384_S1x384) broadcasts_S1x384_S400x384)

/-- The body is: clamp the hidden block at zero, multiply by the output weights, add the output bias row,
    apply the logistic function. -/
theorem k2_pay1_eq (v0 : Vec Ideal S400x10000 .f32) (v1 : Vec Ideal S10000x128 .f32)
    (v6 v8 : Vec Ideal S400x128 .f32) (v11 : Vec Ideal S256x256 .f32) (v14 : Vec Ideal S128x128 .f32)
    (v17 : Vec Ideal S1x384 .f32) (v23 : Vec Ideal S384x64 .f32) (v25 : Vec Ideal S1x64 .f32) :
    k2_pay1 (F := Ideal) v0 v1 v6 v8 v11 v14 v17 v23 v25
      = logistic (addf
          (matmul (φ₁ := .f32) (φ₂ := .f32) dot_S400x384_S384x64_S400x64_1_0_0_1_n_n none
            (maximumf (hidVec v0 v1 v6 v8 v11 v14 v17)
              (broadcast S400x384 (Scalar.ofBits (F := Ideal) .f32 0x00000000#32)))
            v23 (constant (F := Ideal) S400x64 .f32 0x00000000#32))
          (broadcastTo S400x64 (shapeCast S1x64 v25 shapeCasts_S1x64_S1x64) broadcasts_S1x64_S400x64)) := rfl

/-- The logistic function of a vector, read at an element. -/
theorem logistic_at {s : Shape} (x : FVec Ideal s .f32) (i : s.Idx) :
    logistic x i = Ideal.logistic (x i) := rfl

/-- Element (p, j) of the hidden block is the hidden layer at row P0 + p, column j. -/
theorem hid_rows (A : Mx 10000 10000) (Y1 Y2 : Mx 10000 128) (W1 W2 W3 : Mx 128 128) (b1 b2 b3 : Vx 128)
    (P0 : Nat) (hP0 : P0 + 400 ≤ 10000)
    (v0 : Vec Ideal S400x10000 .f32) (v1 : Vec Ideal S10000x128 .f32) (v6 v8 : Vec Ideal S400x128 .f32)
    (v11 : Vec Ideal S256x256 .f32) (v14 : Vec Ideal S128x128 .f32) (v17 : Vec Ideal S1x384 .f32)
    (h0 : ∀ (p : Fin 400) (r : Fin 10000), v0 (ix2 p r) = A (ix2 ⟨P0 + p.val, by omega⟩ r))
    (h1 : ∀ i, v1 i = Y2 i)
    (h6 : ∀ (p : Fin 400) (k : Fin 128), v6 (ix2 p k) = Y2 (ix2 ⟨P0 + p.val, by omega⟩ k))
    (h8 : ∀ (p : Fin 400) (k : Fin 128), v8 (ix2 p k) = Y1 (ix2 ⟨P0 + p.val, by omega⟩ k))
    (h11 : ∀ i, v11 i = diag2 W1 W2 i) (h14 : ∀ i, v14 i = W3 i)
    (h17 : ∀ j : Fin 384, v17 (ix2 (0 : Fin 1) j) = bias3 b1 b2 b3 (ix1 j))
    (p : Fin 400) (j : Fin 384) :
    hidVec v0 v1 v6 v8 v11 v14 v17 (ix2 p j)
      = hidOf A Y1 Y2 W1 W2 W3 b1 b2 b3 (ix2 ⟨P0 + p.val, by omega⟩ j) := by
  unfold hidVec
  rw [shapeCast_self v8, shapeCast_self v6, shapeCast_self v11, shapeCast_self v17,
    addf_apply, broadcastTo_1b_ab_apply, h17]
  show _ = (if h : j.val < 256 then
        ∑ k : Fin 256, pair Y1 Y2 (ix2 ⟨P0 + p.val, _⟩ k) * diag2 W1 W2 (ix2 k ⟨j.val, h⟩)
      else
        ∑ k : Fin 128, hop A Y2 (ix2 ⟨P0 + p.val, _⟩ k) * W3 (ix2 k ⟨j.val - 256, _⟩))
    + bias3 b1 b2 b3 (ix1 j)
  refine congrArg (· + bias3 b1 b2 b3 (ix1 j)) ?_
  by_cases hj : j.val < 256
  · rw [dif_pos hj, catH_lo _ _ p j hj, mmB_apply]
    refine Finset.sum_congr rfl fun k _ => ?_
    rw [h11, cat_pair Y1 Y2 P0 hP0 v8 v6 h8 h6 p k]
  · rw [dif_neg hj, catH_hi _ _ p j hj, mmC_apply]
    refine Finset.sum_congr rfl fun k _ => ?_
    rw [pay1_rows A Y2 P0 hP0 v0 v1 h0 h1 p k, h14]

theorem pay2_rows (A : Mx 10000 10000) (Y1 Y2 : Mx 10000 128) (W1 W2 W3 : Mx 128 128) (b1 b2 b3 : Vx 128)
    (Wfc : Mx 384 64) (bfc : Vx 64) (P0 : Nat) (hP0 : P0 + 400 ≤ 10000)
    (v0 : Vec Ideal S400x10000 .f32) (v1 : Vec Ideal S10000x128 .f32) (v6 v8 : Vec Ideal S400x128 .f32)
    (v11 : Vec Ideal S256x256 .f32) (v14 : Vec Ideal S128x128 .f32) (v17 : Vec Ideal S1x384 .f32)
    (v23 : Vec Ideal S384x64 .f32) (v25 : Vec Ideal S1x64 .f32)
    (h0 : ∀ (p : Fin 400) (r : Fin 10000), v0 (ix2 p r) = A (ix2 ⟨P0 + p.val, by omega⟩ r))
    (h1 : ∀ i, v1 i = Y2 i)
    (h6 : ∀ (p : Fin 400) (k : Fin 128), v6 (ix2 p k) = Y2 (ix2 ⟨P0 + p.val, by omega⟩ k))
    (h8 : ∀ (p : Fin 400) (k : Fin 128), v8 (ix2 p k) = Y1 (ix2 ⟨P0 + p.val, by omega⟩ k))
    (h11 : ∀ i, v11 i = diag2 W1 W2 i) (h14 : ∀ i, v14 i = W3 i)
    (h17 : ∀ j : Fin 384, v17 (ix2 (0 : Fin 1) j) = bias3 b1 b2 b3 (ix1 j))
    (h23 : ∀ i, v23 i = Wfc i) (h25 : ∀ l : Fin 64, v25 (ix2 (0 : Fin 1) l) = bfc (ix1 l))
    (p : Fin 400) (l : Fin 64) :
    k2_pay1 (F := Ideal) v0 v1 v6 v8 v11 v14 v17 v23 v25 (ix2 p l)
      = tail (hidOf A Y1 Y2 W1 W2 W3 b1 b2 b3) Wfc bfc (ix2 ⟨P0 + p.val, by omega⟩ l) := by
  rw [k2_pay1_eq, logistic_at]
  show _
    = Ideal.logistic ((∑ j : Fin 384,
        max (hidOf A Y1 Y2 W1 W2 W3 b1 b2 b3 (ix2 ⟨P0 + p.val, _⟩ j)) 0 * Wfc (ix2 j l)) + bfc (ix1 l))
  refine congrArg Ideal.logistic ?_
  rw [addf_apply, broadcastTo_1b_ab_apply, shapeCast_self v25, h25, mmD_apply]
  refine congrArg (· + bfc (ix1 l)) ?_
  refine Finset.sum_congr rfl fun j _ => ?_
  rw [maximumf_apply, broadcast_apply,
    hid_rows A Y1 Y2 W1 W2 W3 b1 b2 b3 P0 hP0 v0 v1 v6 v8 v11 v14 v17 h0 h1 h6 h8 h11 h14 h17 p j, h23]
  show max _ (Ideal.ofBits .f32 0x00000000#32) * _ = _
  rw [Ideal.ofBits_zero_f32]

end Cert.KernelIdeal.Payload

end
-- ==== Proof.KI.Value2.lean ====
/-
  The output as one matrix: each of the 25 points writes back 400 rows of the result of the whole computation — the
  third hop, the three layers, biases, clamp, output layer and logistic function — and the 25 blocks fill the 10000×64
  output.  The block-diagonal weights, the joined bias row and the output bias row are arrays the host made before the
  call; what they hold is a hypothesis here and is read off the host operations elsewhere.
-/
import proofs.«157651_g81776177316087_cont_9to1_m_1181_6_alg».proof.Proof.KI.Last
import proofs.«157651_g81776177316087_cont_9to1_m_1181_6_alg».proof.Proof.Spec
import proofs.«157651_g81776177316087_cont_9to1_m_1181_6_alg».proof.Proof.KI.PayloadLast
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Value2

open Cert.KernelIdeal Cert.KernelIdeal.Gen Cert.KernelIdeal.Last Cert.Spec Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the adjacency's, the first hop's and the output's block row is the
    point; every other window is one block. The rows the body reads out of the resident second-hop result start at 400·t. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ k2_off1 (grid2.coords t) (0 : Fin 2) = 400 * t.val ∧ k2_off1 (grid2.coords t) (1 : Fin 2) = 0 :=
  (by decide +kernel : ∀ t : Fin grid2.N, _)

/-- What point `t` writes back is block `t` of the whole result, over the arrays as the call finds them. -/
theorem flushed2 (W1 W2 : Mx 128 128) (b1 b2 b3 : Vx 128) (bfc : Vx 64) (c : Dev nD)
    (hW : ∀ i, V c main_v1 i = diag2 W1 W2 i)
    (hb : ∀ j : Fin 384, V c main_v3 (ix2 (0 : Fin 1) j) = bias3 b1 b2 b3 (ix1 j))
    (hf : ∀ l : Fin 64, V c main_v6 (ix2 (0 : Fin 1) l) = bfc (ix1 l)) (t : Fin cfg2.N) :
    (dat2 V c).flushed 8 t = ((cfg2.win 8).blk t).view.read (Elt Ideal)
      (tail (hidOf (V c main_arg1) (V c main_v4) (V c main_v5) W1 W2 (V c main_arg6) b1 b2 b3) (V c main_arg8) bfc) := by
  show (cfg2.win 8).cut (grid2.coords t) ((dat2 V c).after 8 t) = _
  rw [after2_8]
  unfold res2
  rw [View.canon_unit_zero hz]
  simp only [View.ld_unit_zero (S := S400x10000) hz, View.ld_unit_zero (S := S400x128) hz, View.ld_unit_zero (S := S10000x128) hz, View.ld_unit_zero (S := S256x256) hz, View.ld_unit_zero (S := S128x128) hz, View.ld_unit_zero (S := S1x384) hz, View.ld_unit_zero (S := S384x64) hz, View.ld_unit_zero (S := S1x64) hz]
  obtain ⟨a0, a1, b0, b1', c0, c1, d0, d1, f0, f1, g0, g1, k0, k1, l0, l1, o0, o1, q0, q1⟩ := idx2 t
  have ht : t.val < 25 := lt_of_lt_of_eq t.isLt N_2
  have HH : ∀ {α : Type} (x : α), x = x := fun _ => rfl
  funext j
  obtain ⟨p, l, rfl⟩ : ∃ (p : Fin 400) (l : Fin 64), j = ix2 p l := ⟨j 0, j 1, eq_ix2 j⟩
  rw [View.read_apply]
  refine (pay2_rows (V c main_arg1) (V c main_v4) (V c main_v5) W1 W2 (V c main_arg6) b1 b2 b3 (V c main_arg8) bfc (400 * t.val) (by omega)
    (blk2 V c 0 t) (blk2 V c 2 t) (View.ld (blk2 V c 2 t) (Rect.unit (s := S10000x128) (k2_off1 (grid2.coords t)) S400x128.size (k2_off1_inb (grid2.coords t))))
    (blk2 V c 1 t) (blk2 V c 3 t) (blk2 V c 4 t) (blk2 V c 5 t) (blk2 V c 6 t) (blk2 V c 7 t) ?_ ?_ ?_ ?_ ?_ ?_ ?_ ?_ ?_ p l).trans ?_
  · intro p r
    show V c main_arg1 (((cfg2.win 0).blk t).view.emb (ix2 p r)) = _
    refine congrArg (V c main_arg1) (funext fun a => Fin.ext ?_)
    match a with
    | ⟨0, _⟩ => show win2_0.index t (0 : Fin 2) * 400 + 1 * p.val = 400 * t.val + p.val; omega
    | ⟨1, _⟩ => show win2_0.index t (1 : Fin 2) * 10000 + 1 * r.val = r.val; omega
  · intro i
    show V c main_v5 (((cfg2.win 2).blk t).view.emb i) = _
    refine (congrArg (V c main_v5) (funext fun a => Fin.ext ?_)).trans (HH _)
    match a with
    | ⟨0, _⟩ => show win2_2.index t (0 : Fin 2) * 10000 + 1 * (i 0).val = (i 0).val; omega
    | ⟨1, _⟩ => show win2_2.index t (1 : Fin 2) * 128 + 1 * (i 1).val = (i 1).val; omega
  · intro p k
    show V c main_v5 (((cfg2.win 2).blk t).view.emb ((Rect.unit (s := S10000x128) (k2_off1 (grid2.coords t)) S400x128.size (k2_off1_inb (grid2.coords t))).emb (ix2 p k))) = _
    refine congrArg (V c main_v5) (funext fun a => Fin.ext ?_)
    match a with
    | ⟨0, _⟩ => show win2_2.index t (0 : Fin 2) * 10000 + 1 * (k2_off1 (grid2.coords t) (0 : Fin 2) + 1 * p.val) = 400 * t.val + p.val; omega
    | ⟨1, _⟩ => show win2_2.index t (1 : Fin 2) * 128 + 1 * (k2_off1 (grid2.coords t) (1 : Fin 2) + 1 * k.val) = k.val; omega
  · intro p k
    show V c main_v4 (((cfg2.win 1).blk t).view.emb (ix2 p k)) = _
    refine congrArg (V c main_v4) (funext fun a => Fin.ext ?_)
    match a with
    | ⟨0, _⟩ => show win2_1.index t (0 : Fin 2) * 400 + 1 * p.val = 400 * t.val + p.val; omega
    | ⟨1, _⟩ => show win2_1.index t (1 : Fin 2) * 128 + 1 * k.val = k.val; omega
  · intro i
    show V c main_v1 (((cfg2.win 3).blk t).view.emb i) = _
    refine (congrArg (V c main_v1) (funext fun a => Fin.ext ?_)).trans (hW i)
    match a with
    | ⟨0, _⟩ => show win2_3.index t (0 : Fin 2) * 256 + 1 * (i 0).val = (i 0).val; omega
    | ⟨1, _⟩ => show win2_3.index t (1 : Fin 2) * 256 + 1 * (i 1).val = (i 1).val; omega
  · intro i
    show V c main_arg6 (((cfg2.win 4).blk t).view.emb i) = _
    refine (congrArg (V c main_arg6) (funext fun a => Fin.ext ?_)).trans (HH _)
    match a with
    | ⟨0, _⟩ => show win2_4.index t (0 : Fin 2) * 128 + 1 * (i 0).val = (i 0).val; omega
    | ⟨1, _⟩ => show win2_4.index t (1 : Fin 2) * 128 + 1 * (i 1).val = (i 1).val; omega
  · intro j
    show V c main_v3 (((cfg2.win 5).blk t).view.emb (ix2 (0 : Fin 1) j)) = _
    refine (congrArg (V c main_v3) (funext fun a => Fin.ext ?_)).trans (hb j)
    match a with
    | ⟨0, _⟩ => show win2_5.index t (0 : Fin 2) * 1 + 1 * 0 = 0; omega
    | ⟨1, _⟩ => show win2_5.index t (1 : Fin 2) * 384 + 1 * j.val = j.val; omega
  · intro i
    show V c main_arg8 (((cfg2.win 6).blk t).view.emb i) = _
    refine (congrArg (V c main_arg8) (funext fun a => Fin.ext ?_)).trans (HH _)
    match a with
    | ⟨0, _⟩ => show win2_6.index t (0 : Fin 2) * 384 + 1 * (i 0).val = (i 0).val; omega
    | ⟨1, _⟩ => show win2_6.index t (1 : Fin 2) * 64 + 1 * (i 1).val = (i 1).val; omega
  · intro l
    show V c main_v6 (((cfg2.win 7).blk t).view.emb (ix2 (0 : Fin 1) l)) = _
    refine (congrArg (V c main_v6) (funext fun a => Fin.ext ?_)).trans (hf l)
    match a with
    | ⟨0, _⟩ => show win2_7.index t (0 : Fin 2) * 1 + 1 * 0 = 0; omega
    | ⟨1, _⟩ => show win2_7.index t (1 : Fin 2) * 64 + 1 * l.val = l.val; omega
  · refine congrArg (tail (hidOf (V c main_arg1) (V c main_v4) (V c main_v5) W1 W2 (V c main_arg6) b1 b2 b3) (V c main_arg8) bfc) (funext fun a => Fin.ext ?_)
    match a with
    | ⟨0, _⟩ => show 400 * t.val + p.val = win2_8.index t (0 : Fin 2) * 400 + 1 * p.val; omega
    | ⟨1, _⟩ => show l.val = win2_8.index t (1 : Fin 2) * 64 + 1 * l.val; omega

/-- An index of the output is in point `t`'s block iff each coordinate is in the block's range. -/
theorem mem_blk2 (t : Fin cfg2.N) (i : S10000x64.Idx) :
    i ∈ ((cfg2.win 8).blk t).view.set ↔ ∀ a : Fin 2, win2_8.index t a * S400x64.size a ≤ (i a).val ∧ (i a).val < win2_8.index t a * S400x64.size a + S400x64.size a := by
  show i ∈ ((View.whole main_v7).slice (win2_8.rect t)).set ↔ _
  rw [View.set_slice_whole, Rect.mem_set_unit]
  exact Iff.rfl

/-- The 25 blocks of 400 rows fill the output, so after the call it holds the whole result. -/
theorem final2 (W1 W2 : Mx 128 128) (b1 b2 b3 : Vx 128) (bfc : Vx 64) (c : Dev nD)
    (hW : ∀ i, V c main_v1 i = diag2 W1 W2 i)
    (hb : ∀ j : Fin 384, V c main_v3 (ix2 (0 : Fin 1) j) = bias3 b1 b2 b3 (ix1 j))
    (hf : ∀ l : Fin 64, V c main_v6 (ix2 (0 : Fin 1) l) = bfc (ix1 l)) :
    (dat2 V c).arrAt 8 cfg2.N = tail (hidOf (V c main_arg1) (V c main_v4) (V c main_v5) W1 W2 (V c main_arg6) b1 b2 b3) (V c main_arg8) bfc :=
  (dat2 V c).arrAt_eq_of_cover 8 _ (fun t _ => flushed2 V W1 W2 b1 b2 b3 bfc c hW hb hf t) fun i => by
    have hi0 : (i 0).val < 10000 := idx2_lt0 i
    have hi1 : (i 1).val < 64 := idx2_lt1 i
    have hN : cfg2.N = 25 := N_2
    refine ⟨⟨(i 0).val / 400, by rw [hN]; omega⟩, flush2_8 _, ?_⟩
    rw [mem_blk2]
    have H := idx2 ⟨(i 0).val / 400, by rw [hN]; omega⟩
    have e4 := H.2.2.2.2.2.2.2.2.2.2.2.2.2.2.2.2.1
    have e5 := H.2.2.2.2.2.2.2.2.2.2.2.2.2.2.2.2.2.1
    intro a
    match a with
    | ⟨0, _⟩ => show win2_8.index _ (0 : Fin 2) * 400 ≤ (i 0).val ∧ (i 0).val < win2_8.index _ (0 : Fin 2) * 400 + 400; rw [e4]; show (i 0).val / 400 * 400 ≤ _ ∧ _ < (i 0).val / 400 * 400 + 400; omega
    | ⟨1, _⟩ => show win2_8.index _ (1 : Fin 2) * 64 ≤ (i 1).val ∧ (i 1).val < win2_8.index _ (1 : Fin 2) * 64 + 64; rw [e5]; omega

end Cert.KernelIdeal.Value2

end
-- ==== Proof.HostArrays.lean ====
/-
  What the three arrays the host makes before the calls hold, read at an index: the 256×256 block-diagonal weight
  matrix (two 128×256 strips, each a weight matrix beside a zero matrix, stacked), the three biases joined into a row
  of 384, and the output bias as a row of 64.
-/
import proofs.«157651_g81776177316087_cont_9to1_m_1181_6_alg».proof.Proof.Spec
import Idealize.ShloMosaic.Lib.Pipeline.Value
import Idealize.ShloMosaic.Lib.ValueIdx

noncomputable section

open Idealize.ShloMosaic Idealize.ShloMosaic.ValueIdx

namespace Cert.HostArrays

open Cert.Spec

abbrev T128x128 : Shape := ⟨2, ![128, 128]⟩
abbrev T128x256 : Shape := ⟨2, ![128, 256]⟩
abbrev T256x256 : Shape := ⟨2, ![256, 256]⟩
abbrev T128 : Shape := ⟨1, ![128]⟩
abbrev T384 : Shape := ⟨1, ![384]⟩
abbrev T1x384 : Shape := ⟨2, ![1, 384]⟩
abbrev T64 : Shape := ⟨1, ![64]⟩
abbrev T1x64 : Shape := ⟨2, ![1, 64]⟩

/-- A weight matrix beside a matrix of one constant: columns below 128 are the weights'. -/
theorem strip_left (W : Mx 128 128) (Z : Mx 128 128) (h1 : Shape.Concatenates [T128x128, T128x128] T128x256 1)
    (r : Fin 128) (q : Fin 256) (hq : q.val < 128) :
    concatenate T128x256 1 [⟨T128x128, W⟩, ⟨T128x128, Z⟩] h1 (ix2 r q) = W (ix2 r ⟨q.val, hq⟩) :=
  concatenate_pair_apply_left (1 : Fin 2) W Z h1 (ix2 r q) rfl (ix2 r ⟨q.val, hq⟩) (fun b => by
    match b with
    | ⟨0, _⟩ => rfl
    | ⟨1, _⟩ => rfl)

theorem strip_right (W : Mx 128 128) (Z : Mx 128 128) (h1 : Shape.Concatenates [T128x128, T128x128] T128x256 1)
    (r : Fin 128) (q : Fin 256) (hq : ¬ q.val < 128) :
    concatenate T128x256 1 [⟨T128x128, W⟩, ⟨T128x128, Z⟩] h1 (ix2 r q) = Z (ix2 r ⟨q.val - 128, by omega⟩) :=
  concatenate_pair_apply_right (1 : Fin 2) W Z h1 (ix2 r q) rfl rfl (ix2 r ⟨q.val - 128, by omega⟩) (fun b hb => by
    match b with
    | ⟨0, _⟩ => rfl
    | ⟨1, _⟩ => exact absurd rfl hb) (by show q.val - 128 + 128 = q.val; omega)

/-- The stacked strips are the block-diagonal matrix, when the filler is zero. -/
theorem diag_read (W1 W2 : Mx 128 128) (Z : Mx 128 128) (hZ : ∀ i, Z i = 0)
    (h1 : Shape.Concatenates [T128x128, T128x128] T128x256 1) (h0 : Shape.Concatenates [T128x256, T128x256] T256x256 0) (i : T256x256.Idx) :
    concatenate T256x256 0 [⟨T128x256, concatenate T128x256 1 [⟨T128x128, W1⟩, ⟨T128x128, Z⟩] h1⟩,
      ⟨T128x256, concatenate T128x256 1 [⟨T128x128, Z⟩, ⟨T128x128, W2⟩] h1⟩] h0 i = diag2 W1 W2 i := by
  obtain ⟨r, q, rfl⟩ : ∃ (r : Fin 256) (q : Fin 256), i = ix2 r q := ⟨i 0, i 1, eq_ix2 i⟩
  unfold diag2
  by_cases hr : r.val < 128
  · rw [dif_pos (show ((ix2 r q : T256x256.Idx) 0).val < 128 from hr)]
    refine (concatenate_pair_apply_left (t := T256x256) (s₁ := T128x256) (s₂ := T128x256) (0 : Fin 2) _ _ h0 (ix2 r q) rfl (ix2 (⟨r.val, hr⟩ : Fin 128) q) (fun b => by
      match b with
      | ⟨0, _⟩ => rfl
      | ⟨1, _⟩ => rfl)).trans ?_
    by_cases hq : q.val < 128
    · rw [dif_pos (show ((ix2 r q : T256x256.Idx) 1).val < 128 from hq)]
      exact strip_left W1 Z h1 ⟨r.val, hr⟩ q hq
    · rw [dif_neg (show ¬ ((ix2 r q : T256x256.Idx) 1).val < 128 from hq)]
      exact (strip_right W1 Z h1 ⟨r.val, hr⟩ q hq).trans (hZ _)
  · rw [dif_neg (show ¬ ((ix2 r q : T256x256.Idx) 0).val < 128 from hr)]
    refine (concatenate_pair_apply_right (t := T256x256) (s₁ := T128x256) (s₂ := T128x256) (0 : Fin 2) _ _ h0 (ix2 r q) rfl rfl (ix2 (⟨r.val - 128, by omega⟩ : Fin 128) q) (fun b hb => by
      match b with
      | ⟨0, _⟩ => exact absurd rfl hb
      | ⟨1, _⟩ => rfl) (by show r.val - 128 + 128 = r.val; omega)).trans ?_
    by_cases hq : q.val < 128
    · rw [dif_pos (show ((ix2 r q : T256x256.Idx) 1).val < 128 from hq)]
      exact (strip_left Z W2 h1 ⟨r.val - 128, by omega⟩ q hq).trans (hZ _)
    · rw [dif_neg (show ¬ ((ix2 r q : T256x256.Idx) 1).val < 128 from hq)]
      exact strip_right Z W2 h1 ⟨r.val - 128, by omega⟩ q hq

/-- The three biases joined: entry j is the bias of the piece column j falls in. -/
theorem join3_read (b1 b2 b3 : Vx 128) (h : Shape.Concatenates [T128, T128, T128] T384 0) (j : Fin 384) :
    concatenate T384 0 [⟨T128, b1⟩, ⟨T128, b2⟩, ⟨T128, b3⟩] h (ix1 j) = bias3 b1 b2 b3 (ix1 j) := by
  unfold bias3 pick3
  show _ = if h1 : j.val < 128 then _ else _
  by_cases h1 : j.val < 128
  · rw [dif_pos h1]
    exact concatenate_apply_piece (t := T384) (0 : Fin 1) [⟨T128, b1⟩, ⟨T128, b2⟩, ⟨T128, b3⟩] h (ix1 j) 0 (by show 0 < 3; omega) T128 b1 rfl rfl 0 rfl (ix1 (⟨j.val, h1⟩ : Fin 128))
      (fun b hb => by match b with | ⟨0, _⟩ => exact absurd rfl hb) (by show 0 + j.val = j.val; omega)
  · rw [dif_neg h1]
    by_cases h2 : j.val < 256
    · rw [dif_pos h2]
      exact concatenate_apply_piece (t := T384) (0 : Fin 1) [⟨T128, b1⟩, ⟨T128, b2⟩, ⟨T128, b3⟩] h (ix1 j) 1 (by show 1 < 3; omega) T128 b2 rfl rfl 128 rfl (ix1 (⟨j.val - 128, by omega⟩ : Fin 128))
        (fun b hb => by match b with | ⟨0, _⟩ => exact absurd rfl hb) (by show 128 + (j.val - 128) = j.val; omega)
    · rw [dif_neg h2]
      exact concatenate_apply_piece (t := T384) (0 : Fin 1) [⟨T128, b1⟩, ⟨T128, b2⟩, ⟨T128, b3⟩] h (ix1 j) 2 (by show 2 < 3; omega) T128 b3 rfl rfl 256 rfl (ix1 (⟨j.val - 256, by omega⟩ : Fin 128))
        (fun b hb => by match b with | ⟨0, _⟩ => exact absurd rfl hb) (by show 256 + (j.val - 256) = j.val; omega)

/-- A vector laid out as a one-row matrix: entry (0, j) is entry j. -/
theorem row_read {n : Nat} (hn : n ≠ 1) (x : (⟨1, ![n]⟩ : Shape).Idx → EReal)
    (h : (⟨1, ![n]⟩ : Shape).BroadcastsInDim (⟨2, ![1, n]⟩ : Shape) (![1] : Fin 1 → Fin 2)) (j : Fin n) :
    broadcastInDim (⟨2, ![1, n]⟩ : Shape) ![1] h x (ix2 (0 : Fin 1) j) = x (ix1 j) :=
  broadcastInDim_apply _ h x (ix2 (0 : Fin 1) j) (ix1 j) (fun a => by
    match a with
    | ⟨0, _⟩ => show j.val = if n = 1 then 0 else j.val; rw [if_neg hn])

end Cert.HostArrays

end
-- ==== Proof.KI.Result.lean ====
/-
  The output array as one function of the argument arrays.  The arrays each call finds are read off the chain of
  boundaries: the first hop finds the adjacency and the features as launched and leaves `Y₁ = A·X`; the second finds
  `Y₁` and leaves `Y₂ = A·Y₁`; the last finds `A`, `Y₁`, `Y₂`, the third weight matrix and the output weights as
  launched, and the three arrays the host made: the block-diagonal matrix of the first two weight matrices, the three
  biases joined into a row, the output bias as a row.
-/
import proofs.«157651_g81776177316087_cont_9to1_m_1181_6_alg».proof.Proof.KI.Whole
import proofs.«157651_g81776177316087_cont_9to1_m_1181_6_alg».proof.Proof.KI.Value0
import proofs.«157651_g81776177316087_cont_9to1_m_1181_6_alg».proof.Proof.KI.Value1
import proofs.«157651_g81776177316087_cont_9to1_m_1181_6_alg».proof.Proof.KI.Value2
import proofs.«157651_g81776177316087_cont_9to1_m_1181_6_alg».proof.Proof.HostArrays
import Idealize.ShloMosaic.Lib.StableHlo.Run
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Hop0 Cert.KernelIdeal.Hop1 Cert.KernelIdeal.Last Cert.KernelIdeal.Whole
open Cert.Spec Cert.HostArrays

variable (m : (ℓ : Loc nD τ sig) → Buf (Elt Ideal) ℓ) (c : Dev nD)

/-- A buffer no host stretch before the first hop writes is, there, as launched. -/
theorem early (r : Ref sig .tc) (h1 : r ∉ hostOps0_W) (h2 : r ∉ hostOps0_1_W) (h3 : r ∉ hostOps0_2_W) :
    B3 m c r = m ((c : Thread nD τ).loc r) :=
  (B3_of m c r h3).trans <| (B2_of m c r h2).trans <| (B1_of m c r h1).trans rfl

/-- The first hop leaves `A·X`. -/
theorem hop1 : B4 m c main_v4 = hop (m ((c : Thread nD τ).loc main_arg1)) (m ((c : Thread nD τ).loc main_arg0)) := by
  refine (B4_arr m c 2).trans ((Cert.KernelIdeal.Value0.final0 (E3 m) c).trans ?_)
  show hop (B3 m c main_arg1) (B3 m c main_arg0) = _
  rw [early m c main_arg1 (by decide) (by decide) (by decide), early m c main_arg0 (by decide) (by decide) (by decide)]

theorem adj4 : B4 m c main_arg1 = m ((c : Thread nD τ).loc main_arg1) :=
  (B4_in m c 0 rfl).trans (early m c main_arg1 (by decide) (by decide) (by decide))

/-- The second hop leaves `A·(A·X)`. -/
theorem hop2 : B5 m c main_v5 = hop (m ((c : Thread nD τ).loc main_arg1)) (hop (m ((c : Thread nD τ).loc main_arg1)) (m ((c : Thread nD τ).loc main_arg0))) := by
  refine (B5_arr m c 2).trans ((Cert.KernelIdeal.Value1.final1 (E4 m) c).trans ?_)
  show hop (B4 m c main_arg1) (B4 m c main_v4) = _
  rw [adj4, hop1]

/-! What the last call finds. -/

theorem last_adj : B6 m c main_arg1 = m ((c : Thread nD τ).loc main_arg1) :=
  (B6_of m c main_arg1 (by decide)).trans <| (B5_in m c 0 rfl).trans (adj4 m c)
theorem last_y1 : B6 m c main_v4 = hop (m ((c : Thread nD τ).loc main_arg1)) (m ((c : Thread nD τ).loc main_arg0)) :=
  (B6_of m c main_v4 (by decide)).trans <| (B5_in m c 1 rfl).trans (hop1 m c)
theorem last_y2 : B6 m c main_v5 = hop (m ((c : Thread nD τ).loc main_arg1)) (hop (m ((c : Thread nD τ).loc main_arg1)) (m ((c : Thread nD τ).loc main_arg0))) :=
  (B6_of m c main_v5 (by decide)).trans (hop2 m c)
theorem last_w3 : B6 m c main_arg6 = m ((c : Thread nD τ).loc main_arg6) :=
  (B6_of m c main_arg6 (by decide)).trans <| (B5_ne m c main_arg6 (by decide)).trans <| (B4_ne m c main_arg6 (by decide)).trans
    (early m c main_arg6 (by decide) (by decide) (by decide))
theorem last_wfc : B6 m c main_arg8 = m ((c : Thread nD τ).loc main_arg8) :=
  (B6_of m c main_arg8 (by decide)).trans <| (B5_ne m c main_arg8 (by decide)).trans <| (B4_ne m c main_arg8 (by decide)).trans
    (early m c main_arg8 (by decide) (by decide) (by decide))

/-- The zero matrix the host makes first. -/
theorem zeros (i : S128x128.Idx) : (B1 m c main_v0 : S128x128.Idx → EReal) i = (0 : EReal) := by
  have e : (B1 m c main_v0 : S128x128.Idx → EReal) = broadcastInDim S128x128 ![] Facts₀.bcast_S_S128x128 (constant (F := Ideal) S_ .f32 0x00000000#32) := by
    dsimp only [B1, hostOps0]; after_results <;> rfl
  rw [e]
  show Ideal.ofBits .f32 0x00000000#32 = 0
  exact Ideal.ofBits_zero_f32

/-- The block-diagonal weight matrix. -/
theorem last_diag (i : S256x256.Idx) : (B6 m c main_v1 : S256x256.Idx → EReal) i
    = diag2 (m ((c : Thread nD τ).loc main_arg2)) (m ((c : Thread nD τ).loc main_arg4)) i := by
  have e0 : B6 m c main_v1 = B2 m c main_v1 :=
    (B6_of m c main_v1 (by decide)).trans <| (B5_ne m c main_v1 (by decide)).trans <| (B4_ne m c main_v1 (by decide)).trans (B3_of m c main_v1 (by decide))
  have e : (B2 m c main_v1 : S256x256.Idx → EReal) = concatenate S256x256 0
      [⟨S128x256, concatenate S128x256 1 [⟨S128x128, (B1 m c main_arg2 : S128x128.Idx → EReal)⟩, ⟨S128x128, (B1 m c main_v0 : S128x128.Idx → EReal)⟩] Facts₀.concatenates_S128x128_S128x128_S128x256_d1⟩,
       ⟨S128x256, concatenate S128x256 1 [⟨S128x128, (B1 m c main_v0 : S128x128.Idx → EReal)⟩, ⟨S128x128, (B1 m c main_arg4 : S128x128.Idx → EReal)⟩] Facts₀.concatenates_S128x128_S128x128_S128x256_d1⟩]
      Facts₀.concatenates_S128x256_S128x256_S256x256_d0 := by
    dsimp only [B2, hostOps0_1]; after_results <;> rfl
  rw [e0, e, show (B1 m c main_arg2 : S128x128.Idx → EReal) = m ((c : Thread nD τ).loc main_arg2) from (B1_of m c main_arg2 (by decide)).trans rfl,
    show (B1 m c main_arg4 : S128x128.Idx → EReal) = m ((c : Thread nD τ).loc main_arg4) from (B1_of m c main_arg4 (by decide)).trans rfl]
  exact diag_read _ _ _ (zeros m c) _ _ i

/-- The joined bias row. -/
theorem last_bias (j : Fin 384) : (B6 m c main_v3 : S1x384.Idx → EReal) (ix2 (0 : Fin 1) j)
    = bias3 (m ((c : Thread nD τ).loc main_arg3)) (m ((c : Thread nD τ).loc main_arg5)) (m ((c : Thread nD τ).loc main_arg7)) (ix1 j) := by
  have e0 : B6 m c main_v3 = B3 m c main_v3 :=
    (B6_of m c main_v3 (by decide)).trans <| (B5_ne m c main_v3 (by decide)).trans (B4_ne m c main_v3 (by decide))
  have e : (B3 m c main_v3 : S1x384.Idx → EReal) = broadcastInDim S1x384 ![1] Facts₀.bcast_S384_S1x384_1
      (concatenate S384 0 [⟨S128, (B2 m c main_arg3 : S128.Idx → EReal)⟩, ⟨S128, (B2 m c main_arg5 : S128.Idx → EReal)⟩, ⟨S128, (B2 m c main_arg7 : S128.Idx → EReal)⟩]
        Facts₀.concatenates_S128_S128_S128_S384_d0) := by
    dsimp only [B3, hostOps0_2]; after_results <;> rfl
  have a3 : (B2 m c main_arg3 : S128.Idx → EReal) = m ((c : Thread nD τ).loc main_arg3) := (B2_of m c main_arg3 (by decide)).trans <| (B1_of m c main_arg3 (by decide)).trans rfl
  have a5 : (B2 m c main_arg5 : S128.Idx → EReal) = m ((c : Thread nD τ).loc main_arg5) := (B2_of m c main_arg5 (by decide)).trans <| (B1_of m c main_arg5 (by decide)).trans rfl
  have a7 : (B2 m c main_arg7 : S128.Idx → EReal) = m ((c : Thread nD τ).loc main_arg7) := (B2_of m c main_arg7 (by decide)).trans <| (B1_of m c main_arg7 (by decide)).trans rfl
  rw [e0, e, a3, a5, a7]
  exact (row_read (by decide) _ _ j).trans (join3_read _ _ _ _ j)

/-- The output bias row. -/
theorem last_obias (l : Fin 64) : (B6 m c main_v6 : S1x64.Idx → EReal) (ix2 (0 : Fin 1) l) = (m ((c : Thread nD τ).loc main_arg9) : S64.Idx → EReal) (ix1 l) := by
  have e : (B6 m c main_v6 : S1x64.Idx → EReal) = broadcastInDim S1x64 ![1] Facts₀.bcast_S64_S1x64_1 (B5 m c main_arg9 : S64.Idx → EReal) := by
    dsimp only [B6, hostOps2]; after_results <;> rfl
  have a9 : (B5 m c main_arg9 : S64.Idx → EReal) = m ((c : Thread nD τ).loc main_arg9) :=
    (B5_ne m c main_arg9 (by decide)).trans <| (B4_ne m c main_arg9 (by decide)).trans (early m c main_arg9 (by decide) (by decide) (by decide))
  rw [e, a9]
  exact row_read (by decide) _ _ l

/-- THE OUTPUT: what the last call's write-backs leave is the whole computation of the argument arrays. -/
theorem result : (dat2 (E6 m) c).arrAt 8 cfg2.N
    = tail (hidK (m ((c : Thread nD τ).loc main_arg1)) (m ((c : Thread nD τ).loc main_arg0)) (m ((c : Thread nD τ).loc main_arg2)) (m ((c : Thread nD τ).loc main_arg4)) (m ((c : Thread nD τ).loc main_arg6))
        (m ((c : Thread nD τ).loc main_arg3)) (m ((c : Thread nD τ).loc main_arg5)) (m ((c : Thread nD τ).loc main_arg7)))
      (m ((c : Thread nD τ).loc main_arg8)) (m ((c : Thread nD τ).loc main_arg9)) := by
  refine (Cert.KernelIdeal.Value2.final2 (E6 m) (m ((c : Thread nD τ).loc main_arg2)) (m ((c : Thread nD τ).loc main_arg4))
    (m ((c : Thread nD τ).loc main_arg3)) (m ((c : Thread nD τ).loc main_arg5)) (m ((c : Thread nD τ).loc main_arg7)) (m ((c : Thread nD τ).loc main_arg9)) c
    (last_diag m c) (last_bias m c) (last_obias m c)).trans ?_
  show tail (Cert.KernelIdeal.Payload.hidOf (B6 m c main_arg1) (B6 m c main_v4) (B6 m c main_v5) _ _ (B6 m c main_arg6) _ _ _) (B6 m c main_arg8) _ = _
  rw [last_adj, last_y1, last_y2, last_w3, last_wfc, Cert.KernelIdeal.Payload.hidK_eq_hidOf]

end Cert.KernelIdeal.Result

end
-- ==== Proof.lean ====
/-
  The kernel and the reference compute one function of the ten argument arrays.

  The kernel hops first (A·X, A·(A·X), A·(A·(A·X))) and applies the three layers afterwards, the first two through
  one product of the pair [Y₁ | Y₂] with the block-diagonal matrix of W₁ and W₂, and adds the three biases joined
  into one; the reference applies each layer first and hops afterwards.  The hidden layers agree because the matrix
  product is associative on real entries — the precondition says every input entry is finite, so the adjacency, the
  features and the layer weights are real — and because the block-diagonal product and the joined bias are the
  three separate layers, column block by column block.  Both then clamp at zero, multiply by the output weights,
  add the output bias and apply the logistic function, which is the reference's 1 / (1 + e^(-x)).
-/
import proofs.«157651_g81776177316087_cont_9to1_m_1181_6_alg».proof.Defs
import proofs.«157651_g81776177316087_cont_9to1_m_1181_6_alg».proof.Proof.Gen.Kernel
import proofs.«157651_g81776177316087_cont_9to1_m_1181_6_alg».proof.Proof.Gen.Kernel.Skeleton
import proofs.«157651_g81776177316087_cont_9to1_m_1181_6_alg».proof.Proof.Gen.Kernel.Launch
import proofs.«157651_g81776177316087_cont_9to1_m_1181_6_alg».proof.Proof.Gen.Kernel.Regions
import proofs.«157651_g81776177316087_cont_9to1_m_1181_6_alg».proof.Proof.Gen.Kernel.Points
import proofs.«157651_g81776177316087_cont_9to1_m_1181_6_alg».proof.Proof.Gen.KernelIdeal
import proofs.«157651_g81776177316087_cont_9to1_m_1181_6_alg».proof.Proof.Gen.KernelIdeal.Skeleton
import proofs.«157651_g81776177316087_cont_9to1_m_1181_6_alg».proof.Proof.Gen.KernelIdeal.Launch
import proofs.«157651_g81776177316087_cont_9to1_m_1181_6_alg».proof.Proof.Gen.KernelIdeal.Regions
import proofs.«157651_g81776177316087_cont_9to1_m_1181_6_alg».proof.Proof.Gen.KernelIdeal.Points
import proofs.«157651_g81776177316087_cont_9to1_m_1181_6_alg».proof.Proof.Gen.ReferenceIdeal
import proofs.«157651_g81776177316087_cont_9to1_m_1181_6_alg».proof.Proof.Gen.Pre_finite_inputs
import proofs.«157651_g81776177316087_cont_9to1_m_1181_6_alg».proof.Proof.Gen.ReferenceIdeal.Run
import proofs.«157651_g81776177316087_cont_9to1_m_1181_6_alg».proof.Proof.Gen.ReferenceIdeal.Read
import Idealize.ShloMosaic.Adequacy
import Idealize.ShloMosaic.Init
import proofs.«157651_g81776177316087_cont_9to1_m_1181_6_alg».proof.Proof.K.Whole
import proofs.«157651_g81776177316087_cont_9to1_m_1181_6_alg».proof.Proof.KI.Whole
import proofs.«157651_g81776177316087_cont_9to1_m_1181_6_alg».proof.Proof.Algebra
import proofs.«157651_g81776177316087_cont_9to1_m_1181_6_alg».proof.Proof.Finite
import proofs.«157651_g81776177316087_cont_9to1_m_1181_6_alg».proof.Proof.RefValue
import proofs.«157651_g81776177316087_cont_9to1_m_1181_6_alg».proof.Proof.KI.Result

noncomputable section

namespace Cert.Proof

open Idealize.ShloMosaic Idealize.SL.Sem

/-- The kernel runs and leaves its arguments as launched. -/
theorem frame_k : Cert.frame_Kernel := fun m ρ _ => Cert.Kernel.Whole.frame (F := Bits) m ρ

/-- So does its idealization. -/
theorem frame_ki : Cert.frame_KernelIdeal := fun m ρ _ => Cert.KernelIdeal.Whole.frame (F := Ideal) m ρ

/-- So does the reference: its run's post holds the argument equations. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the logistic output layer of the reference's hidden layer: the kernel's hidden layer is
    the reference's when the adjacency, the features and the layer weights are real, which the precondition gives;
    the reference's result is that term of its own arguments, which agree with the kernel's. -/
theorem algebraic : Cert.algebraic_KernelIdeal_ReferenceIdeal := by
  intro m ρ m' ρ' hpre hagree
  refine ⟨fun c => Cert.Spec.tail (Cert.Spec.hidR (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.Whole.run_named (F := Ideal) m ρ)
    obtain ⟨hA, hX, hW1, hW2, hW3⟩ := Cert.Finite.real_of_pre_kernel m hpre c
    refine (Cert.KernelIdeal.Result.result m c).trans ?_
    rw [Cert.Spec.hidK_eq_hidR _ _ _ _ _ _ _ _ hA hX hW1 hW2 hW3]
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.RefSide.ref_run_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
